-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v110)) (v2 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v110) = v1 c
          ∧ r.2.mem ((c.tc : Thread Cert.KernelIdeal.nD Cert.KernelIdeal.τ).loc Cert.KernelIdeal.main_v113) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S300x133 : Shape := ⟨2, ![300, 133]⟩
abbrev S133 : Shape := ⟨1, ![133]⟩
abbrev S300x14 : Shape := ⟨2, ![300, 14]⟩
abbrev S14 : Shape := ⟨1, ![14]⟩
abbrev S300x1 : Shape := ⟨2, ![300, 1]⟩
abbrev S1 : Shape := ⟨1, ![1]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S200000x147 : S_.BroadcastsInDim S200000x147 (![] : Fin 0 → Fin S200000x147.rank)
  reducesTo_S200000x147_S_d0_1 : S200000x147.ReducesTo [0, 1] S_
  bcast_S_S147x300 : S_.BroadcastsInDim S147x300 (![] : Fin 0 → Fin S147x300.rank)
  reducesTo_S147x300_S_d0_1 : S147x300.ReducesTo [0, 1] S_
  bcast_S_S300x300 : S_.BroadcastsInDim S300x300 (![] : Fin 0 → Fin S300x300.rank)
  reducesTo_S300x300_S_d0_1 : S300x300.ReducesTo [0, 1] S_
  bcast_S_S433x300 : S_.BroadcastsInDim S433x300 (![] : Fin 0 → Fin S433x300.rank)
  reducesTo_S433x300_S_d0_1 : S433x300.ReducesTo [0, 1] S_
  bcast_S_S300 : S_.BroadcastsInDim S300 (![] : Fin 0 → Fin S300.rank)
  reducesTo_S300_S_d0 : S300.ReducesTo [0] S_
  bcast_S_S300x133 : S_.BroadcastsInDim S300x133 (![] : Fin 0 → Fin S300x133.rank)
  reducesTo_S300x133_S_d0_1 : S300x133.ReducesTo [0, 1] S_
  bcast_S_S133 : S_.BroadcastsInDim S133 (![] : Fin 0 → Fin S133.rank)
  reducesTo_S133_S_d0 : S133.ReducesTo [0] S_
  bcast_S_S300x14 : S_.BroadcastsInDim S300x14 (![] : Fin 0 → Fin S300x14.rank)
  reducesTo_S300x14_S_d0_1 : S300x14.ReducesTo [0, 1] S_
  bcast_S_S14 : S_.BroadcastsInDim S14 (![] : Fin 0 → Fin S14.rank)
  reducesTo_S14_S_d0 : S14.ReducesTo [0] S_
  bcast_S_S300x1 : S_.BroadcastsInDim S300x1 (![] : Fin 0 → Fin S300x1.rank)
  reducesTo_S300x1_S_d0_1 : S300x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S300 .f32) (main_arg16 : FVec F S300x1 .f32) (main_arg17 : FVec F S1 .f32) (main_v48 : IVec S_ 1) (main_v49 : FVec F S300x300 .f32) (main_v50 : FVec F S300x300 .f32) : IVec S_ 1 :=
  let main_v51 : IVec S300x300 1 := cmpf .olt main_v49 main_v50
  let main_c_19 : IVec S_ 1 := constantI S_ 1 1#1
  let main_v52 : IVec S_ 1 := (fun x v => Host.reduce IntOp.andi x v reducesTo_S300x300_S_d0_1 h_S_) main_v51 main_c_19
  let main_v53 : IVec S_ 1 := andi main_v48 main_v52
  let main_v54 : FVec F S300 .f32 := Host.absf main_arg15
  let main_cst_20 : FVec F S_ .f32 := constant S_ .f32 0x7F800000#32
  let main_v55 : FVec F S300 .f32 := broadcastInDim S300 ![] bcast_S_S300 main_cst_20
  let main_v56 : IVec S300 1 := cmpf .olt main_v54 main_v55
  let main_c_21 : IVec S_ 1 := constantI S_ 1 1#1
  let main_v57 : IVec S_ 1 := (fun x v => Host.reduce IntOp.andi x v reducesTo_S300_S_d0 h_S_) main_v56 main_c_21
  let main_v58 : IVec S_ 1 := andi main_v53 main_v57
  let main_v59 : FVec F S300x1 .f32 := Host.absf main_arg16
  let main_cst_22 : FVec F S_ .f32 := constant S_ .f32 0x7F800000#32
  let main_v60 : FVec F S300x1 .f32 := broadcastInDim S300x1 ![] bcast_S_S300x1 main_cst_22
  let main_v61 : IVec S300x1 1 := cmpf .olt main_v59 main_v60
  let main_c_23 : IVec S_ 1 := constantI S_ 1 1#1
  let main_v62 : IVec S_ 1 := (fun x v => Host.reduce IntOp.andi x v reducesTo_S300x1_S_d0_1 h_S_) main_v61 main_c_23
  let main_v63 : IVec S_ 1 := andi main_v58 main_v62
  let main_v64 : FVec F S1 .f32 := Host.absf main_arg17
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg11 : FVec F S133 .f32) (main_arg12 : FVec F S300x14 .f32) (main_arg13 : FVec F S14 .f32) (main_arg14 : FVec F S300x300 .f32) (main_arg15 : FVec F S300 .f32) (main_arg16 : FVec F S300x1 .f32) (main_arg17 : FVec F S1 .f32) (main_v33 : IVec S_ 1) : IVec S_ 1 :=
  let main_v34 : FVec F S133 .f32 := Host.absf main_arg11
  let main_cst_12 : FVec F S_ .f32 := constant S_ .f32 0x7F800000#32
  let main_v35 : FVec F S133 .f32 := broadcastInDim S133 ![] bcast_S_S133 main_cst_12
  let main_v36 : IVec S133 1 := cmpf .olt main_v34 main_v35
  let main_c_13 : IVec S_ 1 := constantI S_ 1 1#1
  let main_v37 : IVec S_ 1 := (fun x v => Host.reduce IntOp.andi x v reducesTo_S133_S_d0 h_S_) main_v36 main_c_13
  let main_v38 : IVec S_ 1 := andi main_v33 main_v37
  let main_v39 : FVec F S300x14 .f32 := Host.absf main_arg12
  let main_cst_14 : FVec F S_ .f32 := constant S_ .f32 0x7F800000#32
  let main_v40 : FVec F S300x14 .f32 := broadcastInDim S300x14 ![] bcast_S_S300x14 main_cst_14
  let main_v41 : IVec S300x14 1 := cmpf .olt main_v39 main_v40
  let main_c_15 : IVec S_ 1 := constantI S_ 1 1#1
  let main_v42 : IVec S_ 1 := (fun x v => Host.reduce IntOp.andi x v reducesTo_S300x14_S_d0_1 h_S_) main_v41 main_c_15
  let main_v43 : IVec S_ 1 := andi main_v38 main_v42
  let main_v44 : FVec F S14 .f32 := Host.absf main_arg13
  let main_cst_16 : FVec F S_ .f32 := constant S_ .f32 0x7F800000#32
  let main_v45 : FVec F S14 .f32 := broadcastInDim S14 ![] bcast_S_S14 main_cst_16
  let main_v46 : IVec S14 1 := cmpf .olt main_v44 main_v45
  let main_c_17 : IVec S_ 1 := constantI S_ 1 1#1
  let main_v47 : IVec S_ 1 := (fun x v => Host.reduce IntOp.andi x v reducesTo_S14_S_d0 h_S_) main_v46 main_c_17
  let main_v48 : IVec S_ 1 := andi main_v43 main_v47
  let main_v49 : FVec F S300x300 .f32 := Host.absf main_arg14
  let main_cst_18 : FVec F S_ .f32 := constant S_ .f32 0x7F800000#32
  let main_v50 : FVec F S300x300 .f32 := broadcastInDim S300x300 ![] bcast_S_S300x300 main_cst_18
  fn_part3 (F := F) main_arg15 main_arg16 main_arg17 main_v48 main_v49 main_v50

def fn_part1 {F : FTy → Type} [FloatOps F] (main_arg8 : FVec F S433x300 .f32) (main_arg9 : FVec F S300 .f32) (main_arg10 : FVec F S300x133 .f32) (main_arg11 : FVec F S133 .f32) (main_arg12 : FVec F S300x14 .f32) (main_arg13 : FVec F S14 .f32) (main_arg14 : FVec F S300x300 .f32) (main_arg15 : FVec F S300 .f32) (main_arg16 : FVec F S300x1 .f32) (main_arg17 : FVec F S1 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S433x300 .f32 := Host.absf main_arg8
  let main_cst_6 : FVec F S_ .f32 := constant S_ .f32 0x7F800000#32
  let main_v20 : FVec F S433x300 .f32 := broadcastInDim S433x300 ![] bcast_S_S433x300 main_cst_6
  let main_v21 : IVec S433x300 1 := cmpf .olt main_v19 main_v20
  let main_c_7 : IVec S_ 1 := constantI S_ 1 1#1
  let main_v22 : IVec S_ 1 := (fun x v => Host.reduce IntOp.andi x v reducesTo_S433x300_S_d0_1 h_S_) main_v21 main_c_7
  let main_v23 : IVec S_ 1 := andi main_v18 main_v22
  let main_v24 : FVec F S300 .f32 := Host.absf main_arg9
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S300x133 .f32 := Host.absf main_arg10
  let main_cst_10 : FVec F S_ .f32 := constant S_ .f32 0x7F800000#32
  let main_v30 : FVec F S300x133 .f32 := broadcastInDim S300x133 ![] bcast_S_S300x133 main_cst_10
  let main_v31 : IVec S300x133 1 := cmpf .olt main_v29 main_v30
  let main_c_11 : IVec S_ 1 := constantI S_ 1 1#1
  let main_v32 : IVec S_ 1 := (fun x v => Host.reduce IntOp.andi x v reducesTo_S300x133_S_d0_1 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : FVec F S100000x133 .f32) (main_arg1 : FVec F S200000x147 .f32) (main_arg2 : IVec S100000x6 32) (main_arg3 : IVec S200000 32) (main_arg4 : IVec S200000 32) (main_arg5 : IVec S100000 32) (main_arg6 : FVec F S147x300 .f32) (main_arg7 : FVec F S300x300 .f32) (main_arg8 : FVec F S433x300 .f32) (main_arg9 : FVec F S300 .f32) (main_arg10 : FVec F S300x133 .f32) (main_arg11 : FVec F S133 .f32) (main_arg12 : FVec F S300x14 .f32) (main_arg13 : FVec F S14 .f32) (main_arg14 : FVec F S300x300 .f32) (main_arg15 : FVec F S300 .f32) (main_arg16 : FVec F S300x1 .f32) (main_arg17 : FVec F S1 .f32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S200000x147 .f32 := Host.absf main_arg1
  let main_cst_0 : FVec F S_ .f32 := constant S_ .f32 0x7F800000#32
  let main_v5 : FVec F S200000x147 .f32 := broadcastInDim S200000x147 ![] bcast_S_S200000x147 main_cst_0
  let main_v6 : IVec S200000x147 1 := cmpf .olt main_v4 main_v5
  let main_c_1 : IVec S_ 1 := constantI S_ 1 1#1
  let main_v7 : IVec S_ 1 := (fun x v => Host.reduce IntOp.andi x v reducesTo_S200000x147_S_d0_1 h_S_) main_v6 main_c_1
  let main_v8 : IVec S_ 1 := andi main_v3 main_v7
  let main_v9 : FVec F S147x300 .f32 := Host.absf main_arg6
  let main_cst_2 : FVec F S_ .f32 := constant S_ .f32 0x7F800000#32
  let main_v10 : FVec F S147x300 .f32 := broadcastInDim S147x300 ![] bcast_S_S147x300 main_cst_2
  let main_v11 : IVec S147x300 1 := cmpf .olt main_v9 main_v10
  let main_c_3 : IVec S_ 1 := constantI S_ 1 1#1
  let main_v12 : IVec S_ 1 := (fun x v => Host.reduce IntOp.andi x v reducesTo_S147x300_S_d0_1 h_S_) main_v11 main_c_3
  let main_v13 : IVec S_ 1 := andi main_v8 main_v12
  let main_v14 : FVec F S300x300 .f32 := Host.absf main_arg7
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg8 main_arg9 main_arg10 main_arg11 main_arg12 main_arg13 main_arg14 main_arg15 main_arg16 main_arg17 main_v13 main_v16
-- ==== Kernel.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S300x133 : Shape := ⟨2, ![300, 133]⟩
abbrev S133 : Shape := ⟨1, ![133]⟩
abbrev S300x14 : Shape := ⟨2, ![300, 14]⟩
abbrev S14 : Shape := ⟨1, ![14]⟩
abbrev S300x1 : Shape := ⟨2, ![300, 1]⟩
abbrev S1 : Shape := ⟨1, ![1]⟩
abbrev S200000x300 : Shape := ⟨2, ![200000, 300]⟩
abbrev S4000x147 : Shape := ⟨2, ![4000, 147]⟩
abbrev S4000x300 : Shape := ⟨2, ![4000, 300]⟩
abbrev S133x300 : Shape := ⟨2, ![133, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S1x300 : Shape := ⟨2, ![1, 300]⟩
abbrev S2000x133 : Shape := ⟨2, ![2000, 133]⟩
abbrev S2000x300 : Shape := ⟨2, ![2000, 300]⟩
abbrev S100000x1 : Shape := ⟨2, ![100000, 1]⟩
abbrev S1x133 : Shape := ⟨2, ![1, 133]⟩
abbrev S1x14 : Shape := ⟨2, ![1, 14]⟩
abbrev S100000x14 : Shape := ⟨2, ![100000, 14]⟩
abbrev S2000x14 : Shape := ⟨2, ![2000, 14]⟩
abbrev S1x1 : Shape := ⟨2, ![1, 1]⟩
abbrev S2000x1 : Shape := ⟨2, ![2000, 1]⟩

abbrev nBuf : Space → Nat
  | .hbm => 164
  | .vmem => 48
  | .smem => 0
  | _ => 0

abbrev hbmTy0_0 (i : Nat) : BufTy := match i % 128 with
  | 0 => ⟨S100000x133, .f32⟩
  | 1 => ⟨S200000x147, .f32⟩
  | 2 => ⟨S100000x6, .i32⟩
  | 3 => ⟨S200000, .i32⟩
  | 4 => ⟨S200000, .i32⟩
  | 5 => ⟨S100000, .i32⟩
  | 6 => ⟨S147x300, .f32⟩
  | 7 => ⟨S300x300, .f32⟩
  | 8 => ⟨S433x300, .f32⟩
  | 9 => ⟨S300, .f32⟩
  | 10 => ⟨S300x133, .f32⟩
  | 11 => ⟨S133, .f32⟩
  | 12 => ⟨S300x14, .f32⟩
  | 13 => ⟨S14, .f32⟩
  | 14 => ⟨S300x300, .f32⟩
  | 15 => ⟨S300, .f32⟩
  | 16 => ⟨S300x1, .f32⟩
  | 17 => ⟨S1, .f32⟩
  | 18 => ⟨S200000x300, .f32⟩
  | 19 => ⟨S200000x300, .f32⟩
  | 20 => ⟨S133x300, .f32⟩
  | 21 => ⟨S300x300, .f32⟩
  | 22 => ⟨S_, .i32⟩
  | 23 => ⟨S100000x6, .i32⟩
  | 24 => ⟨S100000x6, .i1⟩
  | 25 => ⟨S_, .i32⟩
  | 26 => ⟨S100000x6, .i32⟩
  | 27 => ⟨S100000x6, .i32⟩
  | 28 => ⟨S100000x6, .i32⟩
  | 29 => ⟨S100000x6x1, .i32⟩
  | 30 => ⟨S100000x6x300, .f32⟩
  | 31 => ⟨S_, .f32⟩
  | 32 => ⟨S100000x300, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x300, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x300, .f32⟩
  | 51 => ⟨S200000x300, .f32⟩
  | 52 => ⟨S200000x300, .f32⟩
  | 53 => ⟨S_, .i32⟩
  | 54 => ⟨S100000x6, .i32⟩
  | 55 => ⟨S100000x6, .i1⟩
  | 56 => ⟨S_, .i32⟩
  | 57 => ⟨S100000x6, .i32⟩
  | 58 => ⟨S100000x6, .i32⟩
  | 59 => ⟨S100000x6, .i32⟩
  | 60 => ⟨S100000x6x1, .i32⟩
  | 61 => ⟨S100000x6x300, .f32⟩
  | 62 => ⟨S_, .f32⟩
  | 63 => ⟨S100000x300, .f32⟩
  | 64 => ⟨S_, .i32⟩
  | 65 => ⟨S200000, .i32⟩
  | 66 => ⟨S200000, .i1⟩
  | 67 => ⟨S_, .i32⟩
  | 68 => ⟨S200000, .i32⟩
  | 69 => ⟨S200000, .i32⟩
  | 70 => ⟨S200000, .i32⟩
  | 71 => ⟨S200000x1, .i32⟩
  | 72 => ⟨S200000x300, .f32⟩
  | 73 => ⟨S_, .i32⟩
  | 74 => ⟨S200000, .i32⟩
  | 75 => ⟨S200000, .i1⟩
  | 76 => ⟨S_, .i32⟩
  | 77 => ⟨S200000, .i32⟩
  | 78 => ⟨S200000, .i32⟩
  | 79 => ⟨S200000, .i32⟩
  | 80 => ⟨S200000x1, .i32⟩
  | 81 => ⟨S200000x300, .f32⟩
  | 82 => ⟨S200000x300, .f32⟩
  | 83 => ⟨S200000x300, .f32⟩
  | 84 => ⟨S_, .i32⟩
  | 85 => ⟨S100000x6, .i32⟩
  | 86 => ⟨S100000x6, .i1⟩
  | 87 => ⟨S_, .i32⟩
  | 88 => ⟨S100000x6, .i32⟩
  | 89 => ⟨S100000x6, .i32⟩
  | 90 => ⟨S100000x6, .i32⟩
  | 91 => ⟨S100000x6x1, .i32⟩
  | 92 => ⟨S100000x6x300, .f32⟩
  | 93 => ⟨S_, .f32⟩
  | 94 => ⟨S100000x300, .f32⟩
  | 95 => ⟨S1x300, .f32⟩
  | 96 => ⟨S100000x300, .f32⟩
  | 97 => ⟨S_, .f32⟩
  | 98 => ⟨S2000x300, .f32⟩
  | 99 => ⟨S100000x1, .i32⟩
  | 100 => ⟨S2000x300, .f32⟩
  | 101 => ⟨S1x133, .f32⟩
  | 102 => ⟨S100000x133, .f32⟩
  | 103 => ⟨S100000, .i32⟩
  | 104 => ⟨S_, .i32⟩
  | 105 => ⟨S100000, .i32⟩
  | 106 => ⟨S100000, .i32⟩
  | 107 => ⟨S_, .i32⟩
  | 108 => ⟨S100000, .i32⟩
  | 109 => ⟨S100000, .i32⟩
  | 110 => ⟨S_, .i32⟩
  | 111 => ⟨S100000, .i32⟩
  | 112 => ⟨S100000, .i1⟩
  | 113 => ⟨S_, .i32⟩
  | 114 => ⟨S100000, .i32⟩
  | 115 => ⟨S100000, .i32⟩
  | 116 => ⟨S100000, .i32⟩
  | 117 => ⟨S100000x1, .i32⟩
  | 118 => ⟨S100000, .i32⟩
  | 119 => ⟨S_, .i32⟩
  | 120 => ⟨S100000, .i32⟩
  | 121 => ⟨S100000, .i1⟩
  | 122 => ⟨S_, .i32⟩
  | 123 => ⟨S100000, .i32⟩
  | 124 => ⟨S100000, .i32⟩
  | 125 => ⟨S100000, .i32⟩
  | 126 => ⟨S100000x1, .i32⟩
  | 127 => ⟨S100000, .i32⟩
  | _ => ⟨S100000x133, .f32⟩

abbrev hbmTy0_1 (i : Nat) : BufTy := match i % 128 with
  | 0 => ⟨S_, .i32⟩
  | 1 => ⟨S100000, .i32⟩
  | 2 => ⟨S100000, .i1⟩
  | 3 => ⟨S_, .i32⟩
  | 4 => ⟨S100000, .i32⟩
  | 5 => ⟨S100000, .i32⟩
  | 6 => ⟨S100000, .i32⟩
  | 7 => ⟨S100000x1, .i32⟩
  | 8 => ⟨S100000, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x300, .f32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x300, .f32⟩
  | 27 => ⟨S100000x300, .f32⟩
  | 28 => ⟨S_, .f32⟩
  | 29 => ⟨S100000x300, .f32⟩
  | 30 => ⟨S100000x300, .f32⟩
  | 31 => ⟨S1x14, .f32⟩
  | 32 => ⟨S100000x14, .f32⟩
  | 33 => ⟨S1x300, .f32⟩
  | 34 => ⟨S1x1, .f32⟩
  | 35 => ⟨S2000x1, .f32⟩
  | _ => ⟨S100000x133, .f32⟩

abbrev hbmTy (i : Nat) : BufTy := match i / 128 with
  | 0 => hbmTy0_0 i
  | 1 => hbmTy0_1 i
  | _ => ⟨S100000x133, .f32⟩

abbrev bufTy : (tb : Table) → Fin (tcTables nBuf tb) → BufTy
  | .hbm, ⟨i, _⟩ => hbmTy i
  | .local _ .vmem, ⟨0, _⟩ => ⟨S4000x147, .f32⟩
  | .local _ .vmem, ⟨1, _⟩ => ⟨S4000x147, .f32⟩
  | .local _ .vmem, ⟨2, _⟩ => ⟨S147x300, .f32⟩
  | .local _ .vmem, ⟨3, _⟩ => ⟨S4000x300, .f32⟩
  | .local _ .vmem, ⟨4, _⟩ => ⟨S4000x300, .f32⟩
  | .local _ .vmem, ⟨5, _⟩ => ⟨S4000x300, .f32⟩
  | .local _ .vmem, ⟨6, _⟩ => ⟨S4000x300, .f32⟩
  | .local _ .vmem, ⟨7, _⟩ => ⟨S4000x300, .f32⟩
  | .local _ .vmem, ⟨8, _⟩ => ⟨S4000x300, .f32⟩
  | .local _ .vmem, ⟨9, _⟩ => ⟨S300x300, .f32⟩
  | .local _ .vmem, ⟨10, _⟩ => ⟨S4000x300, .f32⟩
  | .local _ .vmem, ⟨11, _⟩ => ⟨S4000x300, .f32⟩
  | .local _ .vmem, ⟨12, _⟩ => ⟨S4000x300, .f32⟩
  | .local _ .vmem, ⟨13, _⟩ => ⟨S4000x300, .f32⟩
  | .local _ .vmem, ⟨14, _⟩ => ⟨S4000x300, .f32⟩
  | .local _ .vmem, ⟨15, _⟩ => ⟨S4000x300, .f32⟩
  | .local _ .vmem, ⟨16, _⟩ => ⟨S300x300, .f32⟩
  | .local _ .vmem, ⟨17, _⟩ => ⟨S4000x300, .f32⟩
  | .local _ .vmem, ⟨18, _⟩ => ⟨S4000x300, .f32⟩
  | .local _ .vmem, ⟨19, _⟩ => ⟨S4000x300, .f32⟩
  | .local _ .vmem, ⟨20, _⟩ => ⟨S4000x300, .f32⟩
  | .local _ .vmem, ⟨21, _⟩ => ⟨S2000x133, .f32⟩
  | .local _ .vmem, ⟨22, _⟩ => ⟨S2000x133, .f32⟩
  | .local _ .vmem, ⟨23, _⟩ => ⟨S133x300, .f32⟩
  | .local _ .vmem, ⟨24, _⟩ => ⟨S2000x300, .f32⟩
  | .local _ .vmem, ⟨25, _⟩ => ⟨S2000x300, .f32⟩
  | .local _ .vmem, ⟨26, _⟩ => ⟨S300x300, .f32⟩
  | .local _ .vmem, ⟨27, _⟩ => ⟨S1x300, .f32⟩
  | .local _ .vmem, ⟨28, _⟩ => ⟨S2000x300, .f32⟩
  | .local _ .vmem, ⟨29, _⟩ => ⟨S2000x300, .f32⟩
  | .local _ .vmem, ⟨30, _⟩ => ⟨S2000x300, .f32⟩
  | .local _ .vmem, ⟨31, _⟩ => ⟨S2000x300, .f32⟩
  | .local _ .vmem, ⟨32, _⟩ => ⟨S300x133, .f32⟩
  | .local _ .vmem, ⟨33, _⟩ => ⟨S1x133, .f32⟩
  | .local _ .vmem, ⟨34, _⟩ => ⟨S2000x133, .f32⟩
  | .local _ .vmem, ⟨35, _⟩ => ⟨S2000x133, .f32⟩
  | .local _ .vmem, ⟨36, _⟩ => ⟨S2000x300, .f32⟩
  | .local _ .vmem, ⟨37, _⟩ => ⟨S2000x300, .f32⟩
  | .local _ .vmem, ⟨38, _⟩ => ⟨S300x14, .f32⟩
  | .local _ .vmem, ⟨39, _⟩ => ⟨S1x14, .f32⟩
  | .local _ .vmem, ⟨40, _⟩ => ⟨S2000x14, .f32⟩
  | .local _ .vmem, ⟨41, _⟩ => ⟨S2000x14, .f32⟩
  | .local _ .vmem, ⟨42, _⟩ => ⟨S2000x300, .f32⟩
  | .local _ .vmem, ⟨43, _⟩ => ⟨S300x300, .f32⟩
  | .local _ .vmem, ⟨44, _⟩ => ⟨S1x300, .f32⟩
  | .local _ .vmem, ⟨45, _⟩ => ⟨S300x1, .f32⟩
  | .local _ .vmem, ⟨46, _⟩ => ⟨S1x1, .f32⟩
  | .local _ .vmem, ⟨47, _⟩ => ⟨S2000x1, .f32⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_c_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_c_9 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_10 : Ref sig .tc := ⟨.hbm, 73, rfl⟩
abbrev main_v42 : Ref sig .tc := ⟨.hbm, 74, rfl⟩
abbrev main_v43 : Ref sig .tc := ⟨.hbm, 75, rfl⟩
abbrev main_c_11 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_12 : Ref sig .tc := ⟨.hbm, 84, rfl⟩
abbrev main_v51 : Ref sig .tc := ⟨.hbm, 85, rfl⟩
abbrev main_v52 : Ref sig .tc := ⟨.hbm, 86, rfl⟩
abbrev main_c_13 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_15 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_16 : Ref sig .tc := ⟨.hbm, 104, rfl⟩
abbrev main_v67 : Ref sig .tc := ⟨.hbm, 105, rfl⟩
abbrev main_v68 : Ref sig .tc := ⟨.hbm, 106, rfl⟩
abbrev main_c_17 : Ref sig .tc := ⟨.hbm, 107, rfl⟩
abbrev main_v69 : Ref sig .tc := ⟨.hbm, 108, rfl⟩
abbrev main_v70 : Ref sig .tc := ⟨.hbm, 109, rfl⟩
abbrev main_c_18 : Ref sig .tc := ⟨.hbm, 110, rfl⟩
abbrev main_v71 : Ref sig .tc := ⟨.hbm, 111, rfl⟩
abbrev main_v72 : Ref sig .tc := ⟨.hbm, 112, rfl⟩
abbrev main_c_19 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_20 : Ref sig .tc := ⟨.hbm, 119, rfl⟩
abbrev main_v78 : Ref sig .tc := ⟨.hbm, 120, rfl⟩
abbrev main_v79 : Ref sig .tc := ⟨.hbm, 121, rfl⟩
abbrev main_c_21 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_22 : Ref sig .tc := ⟨.hbm, 128, rfl⟩
abbrev main_v85 : Ref sig .tc := ⟨.hbm, 129, rfl⟩
abbrev main_v86 : Ref sig .tc := ⟨.hbm, 130, rfl⟩
abbrev main_c_23 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_c_24 : Ref sig .tc := ⟨.hbm, 137, rfl⟩
abbrev main_v92 : Ref sig .tc := ⟨.hbm, 138, rfl⟩
abbrev main_v93 : Ref sig .tc := ⟨.hbm, 139, rfl⟩
abbrev main_c_25 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_c_26 : Ref sig .tc := ⟨.hbm, 146, rfl⟩
abbrev main_v99 : Ref sig .tc := ⟨.hbm, 147, rfl⟩
abbrev main_v100 : Ref sig .tc := ⟨.hbm, 148, rfl⟩
abbrev main_c_27 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_28 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S300x300 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x300 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x300 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S133x300 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x300 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S300x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x300 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x300 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S300x133 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x133 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x133 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x300 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S300x14 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x14 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x14 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S2000x300 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S300x300 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x300 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S300x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2000x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

class Facts₀ : Prop where
  inb_S4000x147_S4000x147_0_0 : ∀ a, (![0, 0] : Fin 2 → Nat) a + S4000x147.size a ≤ S4000x147.size a
  h_S4000x147 : 0 < S4000x147.numel
  bitsLt_bf16_f32 : FTy.bits .bf16 < FTy.bits .f32
  inb_S147x300_S147x300_0_0 : ∀ a, (![0, 0] : Fin 2 → Nat) a + S147x300.size a ≤ S147x300.size a
  h_S147x300 : 0 < S147x300.numel
  inb_S4000x300_S4000x300_0_0 : ∀ a, (![0, 0] : Fin 2 → Nat) a + S4000x300.size a ≤ S4000x300.size a
  h_S4000x300 : 0 < S4000x300.numel
  slices_S433x300_S133x300_0_0 : S433x300.Slices ![0, 0] S133x300
  slices_S433x300_S300x300_133_0 : S433x300.Slices ![133, 0] S300x300
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  shapeCasts_S4000x300_S4000x300 : S4000x300.ShapeCasts S4000x300
  inb_S300x300_S300x300_0_0 : ∀ a, (![0, 0] : Fin 2 → Nat) a + S300x300.size a ≤ S300x300.size a
  h_S300x300 : 0 < S300x300.numel
  shapeCasts_S300_S1x300 : S300.ShapeCasts S1x300
  inb_S2000x133_S2000x133_0_0 : ∀ a, (![0, 0] : Fin 2 → Nat) a + S2000x133.size a ≤ S2000x133.size a
  h_S2000x133 : 0 < S2000x133.numel
  inb_S133x300_S133x300_0_0 : ∀ a, (![0, 0] : Fin 2 → Nat) a + S133x300.size a ≤ S133x300.size a
  h_S133x300 : 0 < S133x300.numel
  shapeCasts_S133x300_S133x300 : S133x300.ShapeCasts S133x300
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  bcast_S_S2000x300 : S_.BroadcastsInDim S2000x300 (![] : Fin 0 → Fin S2000x300.rank)
  bcast_S100000_S100000x1_0 : S100000.BroadcastsInDim S100000x1 (![0] : Fin 1 → Fin S100000x1.rank)
  shapeCasts_S133_S1x133 : S133.ShapeCasts S1x133
  inb_S300x133_S300x133_0_0 : ∀ a, (![0, 0] : Fin 2 → Nat) a + S300x133.size a ≤ S300x133.size a
  h_S300x133 : 0 < S300x133.numel
  inb_S1x133_S1x133_0_0 : ∀ a, (![0, 0] : Fin 2 → Nat) a + S1x133.size a ≤ S1x133.size a
  h_S1x133 : 0 < S1x133.numel
  shapeCasts_S1x133_S1x133 : S1x133.ShapeCasts S1x133
  broadcasts_S1x133_S2000x133 : S1x133.Broadcasts S2000x133
  bcast_S_S100000 : S_.BroadcastsInDim S100000 (![] : Fin 0 → Fin S100000.rank)
  bcast_S_S100000x300 : S_.BroadcastsInDim S100000x300 (![] : Fin 0 → Fin S100000x300.rank)
  shapeCasts_S14_S1x14 : S14.ShapeCasts S1x14
  inb_S300x14_S300x14_0_0 : ∀ a, (![0, 0] : Fin 2 → Nat) a + S300x14.size a ≤ S300x14.size a
  h_S300x14 : 0 < S300x14.numel
  inb_S1x14_S1x14_0_0 : ∀ a, (![0, 0] : Fin 2 → Nat) a + S1x14.size a ≤ S1x14.size a
  h_S1x14 : 0 < S1x14.numel
  shapeCasts_S1x14_S1x14 : S1x14.ShapeCasts S1x14
  broadcasts_S1x14_S2000x14 : S1x14.Broadcasts S2000x14
  inb_S2000x14_S2000x14_0_0 : ∀ a, (![0, 0] : Fin 2 → Nat) a + S2000x14.size a ≤ S2000x14.size a
  h_S2000x14 : 0 < S2000x14.numel
  shapeCasts_S1_S1x1 : S1.ShapeCasts S1x1
  inb_S300x1_S300x1_0_0 : ∀ a, (![0, 0] : Fin 2 → Nat) a + S300x1.size a ≤ S300x1.size a
  h_S300x1 : 0 < S300x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S4000x147_S147x300_S4000x300_1_0_0_1_n_n_wf : DotDims.WF S4000x147 S147x300 S4000x300 [1] [0] [0] [1] [] []
  gather_S200000x300_S100000x6x1_S100000x6x300_2_0_n_n_0_2_1300_wf : GatherDims.WF S200000x300 S100000x6x1 S100000x6x300 [2] [0] [] [0] [] 2 ![1, 300]
  gather_S100000x300_S200000x1_S200000x300_1_0_n_n_0_1_1300_wf : GatherDims.WF S100000x300 S200000x1 S200000x300 [1] [0] [] [0] [] 1 ![1, 300]
  gather_S200000x300_S200000x1_S200000x300_1_0_n_n_0_1_1300_wf : GatherDims.WF S200000x300 S200000x1 S200000x300 [1] [0] [] [0] [] 1 ![1, 300]
  dot_S4000x300_S300x300_S4000x300_1_0_0_1_n_n_wf : DotDims.WF S4000x300 S300x300 S4000x300 [1] [0] [0] [1] [] []
  dot_S2000x133_S133x300_S2000x300_1_0_0_1_n_n_wf : DotDims.WF S2000x133 S133x300 S2000x300 [1] [0] [0] [1] [] []
  dot_S2000x300_S300x300_S2000x300_1_0_0_1_n_n_wf : DotDims.WF S2000x300 S300x300 S2000x300 [1] [0] [0] [1] [] []
  scatter_S2000x300_S100000x1_S100000x300_1_0_0_1_wf : ScatterDims.WF S2000x300 S100000x1 S100000x300 [1] [0] [0] 1
  dot_S2000x300_S300x133_S2000x133_1_0_0_1_n_n_wf : DotDims.WF S2000x300 S300x133 S2000x133 [1] [0] [0] [1] [] []
  gather_S200000_S100000x1_S100000_n_0_n_n_0_1_1_wf : GatherDims.WF S200000 S100000x1 S100000 [] [0] [] [0] [] 1 ![1]
  gather_S100000x300_S100000x1_S100000x300_1_0_n_n_0_1_1300_wf : GatherDims.WF S100000x300 S100000x1 S100000x300 [1] [0] [] [0] [] 1 ![1, 300]
  dot_S2000x300_S300x14_S2000x14_1_0_0_1_n_n_wf : DotDims.WF S2000x300 S300x14 S2000x14 [1] [0] [0] [1] [] []
  dot_S2000x300_S300x1_S2000x1_1_0_0_1_n_n_wf : DotDims.WF S2000x300 S300x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x147.size a ≤ S200000x147.size a
  hwx0_0 : ∀ i : grid0.Coords, EltTy.bits .f32 = 32 ∨ (Rect.block (s := S200000x147) S4000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x300.size a ≤ S147x300.size a
  hwx0_1 : ∀ i : grid0.Coords, EltTy.bits .f32 = 32 ∨ (Rect.block (s := S147x300) S147x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x300.size a ≤ S200000x300.size a
  hwx0_2 : ∀ i : grid0.Coords, EltTy.bits .f32 = 32 ∨ (Rect.block (s := S200000x300) S4000x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x300.size a ≤ S200000x300.size a
  hwx0_3 : ∀ i : grid0.Coords, EltTy.bits .f32 = 32 ∨ (Rect.block (s := S200000x300) S4000x300.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x300.size a ≤ S200000x300.size a
  hwx1_0 : ∀ i : grid1.Coords, EltTy.bits .f32 = 32 ∨ (Rect.block (s := S200000x300) S4000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x300.size a ≤ S300x300.size a
  hwx1_1 : ∀ i : grid1.Coords, EltTy.bits .f32 = 32 ∨ (Rect.block (s := S300x300) S300x300.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x300.size a ≤ S200000x300.size a
  hwx1_2 : ∀ i : grid1.Coords, EltTy.bits .f32 = 32 ∨ (Rect.block (s := S200000x300) S4000x300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x300.size a ≤ S200000x300.size a
  hwx1_3 : ∀ i : grid1.Coords, EltTy.bits .f32 = 32 ∨ (Rect.block (s := S200000x300) S4000x300.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x300.size a ≤ S200000x300.size a
  hwx2_0 : ∀ i : grid2.Coords, EltTy.bits .f32 = 32 ∨ (Rect.block (s := S200000x300) S4000x300.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S300x300.size a ≤ S300x300.size a
  hwx2_1 : ∀ i : grid2.Coords, EltTy.bits .f32 = 32 ∨ (Rect.block (s := S300x300) S300x300.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x300.size a ≤ S200000x300.size a
  hwx2_2 : ∀ i : grid2.Coords, EltTy.bits .f32 = 32 ∨ (Rect.block (s := S200000x300) S4000x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x300.size a ≤ S200000x300.size a
  hwx2_3 : ∀ i : grid2.Coords, EltTy.bits .f32 = 32 ∨ (Rect.block (s := S200000x300) S4000x300.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x133.size a ≤ S100000x133.size a
  hwx3_0 : ∀ i : grid3.Coords, EltTy.bits .f32 = 32 ∨ (Rect.block (s := S100000x133) S2000x133.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S133x300.size a ≤ S133x300.size a
  hwx3_1 : ∀ i : grid3.Coords, EltTy.bits .f32 = 32 ∨ (Rect.block (s := S133x300) S133x300.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x300.size a ≤ S100000x300.size a
  hwx3_2 : ∀ i : grid3.Coords, EltTy.bits .f32 = 32 ∨ (Rect.block (s := S100000x300) S2000x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S300x300.size a ≤ S300x300.size a
  hwx3_3 : ∀ i : grid3.Coords, EltTy.bits .f32 = 32 ∨ (Rect.block (s := S300x300) S300x300.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x300.size a ≤ S1x300.size a
  hwx3_4 : ∀ i : grid3.Coords, EltTy.bits .f32 = 32 ∨ (Rect.block (s := S1x300) S1x300.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x300.size a ≤ S100000x300.size a
  hwx3_5 : ∀ i : grid3.Coords, EltTy.bits .f32 = 32 ∨ (Rect.block (s := S100000x300) S2000x300.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x300.size a ≤ S100000x300.size a
  hwx4_0 : ∀ i : grid4.Coords, EltTy.bits .f32 = 32 ∨ (Rect.block (s := S100000x300) S2000x300.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S300x133.size a ≤ S300x133.size a
  hwx4_1 : ∀ i : grid4.Coords, EltTy.bits .f32 = 32 ∨ (Rect.block (s := S300x133) S300x133.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x133.size a ≤ S1x133.size a
  hwx4_2 : ∀ i : grid4.Coords, EltTy.bits .f32 = 32 ∨ (Rect.block (s := S1x133) S1x133.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x133.size a ≤ S100000x133.size a
  hwx4_3 : ∀ i : grid4.Coords, EltTy.bits .f32 = 32 ∨ (Rect.block (s := S100000x133) S2000x133.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x300.size a ≤ S100000x300.size a
  hwx5_0 : ∀ i : grid5.Coords, EltTy.bits .f32 = 32 ∨ (Rect.block (s := S100000x300) S2000x300.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S300x14.size a ≤ S300x14.size a
  hwx5_1 : ∀ i : grid5.Coords, EltTy.bits .f32 = 32 ∨ (Rect.block (s := S300x14) S300x14.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x14.size a ≤ S1x14.size a
  hwx5_2 : ∀ i : grid5.Coords, EltTy.bits .f32 = 32 ∨ (Rect.block (s := S1x14) S1x14.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x14.size a ≤ S100000x14.size a
  hwx5_3 : ∀ i : grid5.Coords, EltTy.bits .f32 = 32 ∨ (Rect.block (s := S100000x14) S2000x14.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S2000x300.size a ≤ S2000x300.size a
  hwx6_0 : ∀ i : grid6.Coords, EltTy.bits .f32 = 32 ∨ (Rect.block (s := S2000x300) S2000x300.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S300x300.size a ≤ S300x300.size a
  hwx6_1 : ∀ i : grid6.Coords, EltTy.bits .f32 = 32 ∨ (Rect.block (s := S300x300) S300x300.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x300.size a ≤ S1x300.size a
  hwx6_2 : ∀ i : grid6.Coords, EltTy.bits .f32 = 32 ∨ (Rect.block (s := S1x300) S1x300.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S300x1.size a ≤ S300x1.size a
  hwx6_3 : ∀ i : grid6.Coords, EltTy.bits .f32 = 32 ∨ (Rect.block (s := S300x1) S300x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 1
  hreads6_5 : ∀ i i' : grid6.Coords, (∀ a, reads6_5 a = true → i a = i' a) → cc6_transform_5 i = cc6_transform_5 i'
  hinb6_5 : ∀ (i : grid6.Coords) a, (cc6_transform_5 i a + 1) * S2000x1.size a ≤ S2000x1.size a
  hwx6_5 : ∀ i : grid6.Coords, EltTy.bits .f32 = 32 ∨ (Rect.block (s := S2000x1) S2000x1.size (cc6_transform_5 i) (hinb6_5 i)).WholeWords (EltTy.packing .f32)

variable [Facts₀]

def dot_S4000x147_S147x300_S4000x300_1_0_0_1_n_n : DotDims S4000x147 S147x300 S4000x300 where
  lhsContracting := [1]
  rhsContracting := [0]
  lhsNonContracting := [0]
  rhsNonContracting := [1]
  lhsBatch := []
  rhsBatch := []
  wf := dot_S4000x147_S147x300_S4000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def dot_S4000x300_S300x300_S4000x300_1_0_0_1_n_n : DotDims S4000x300 S300x300 S4000x300 where
  lhsContracting := [1]
  rhsContracting := [0]
  lhsNonContracting := [0]
  rhsNonContracting := [1]
  lhsBatch := []
  rhsBatch := []
  wf := dot_S4000x300_S300x300_S4000x300_1_0_0_1_n_n_wf
def dot_S2000x133_S133x300_S2000x300_1_0_0_1_n_n : DotDims S2000x133 S133x300 S2000x300 where
  lhsContracting := [1]
  rhsContracting := [0]
  lhsNonContracting := [0]
  rhsNonContracting := [1]
  lhsBatch := []
  rhsBatch := []
  wf := dot_S2000x133_S133x300_S2000x300_1_0_0_1_n_n_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def scatter_S2000x300_S100000x1_S100000x300_1_0_0_1 : ScatterDims S2000x300 S100000x1 S100000x300 where
  updateWindowDims := [1]
  insertedWindowDims := [0]
  scatterDimsToOperandDims := [0]
  indexVectorDim := 1
  wf := scatter_S2000x300_S100000x1_S100000x300_1_0_0_1_wf
def dot_S2000x300_S300x133_S2000x133_1_0_0_1_n_n : DotDims S2000x300 S300x133 S2000x133 where
  lhsContracting := [1]
  rhsContracting := [0]
  lhsNonContracting := [0]
  rhsNonContracting := [1]
  lhsBatch := []
  rhsBatch := []
  wf := dot_S2000x300_S300x133_S2000x133_1_0_0_1_n_n_wf
def gather_S200000_S100000x1_S100000_n_0_n_n_0_1_1 : GatherDims S200000 S100000x1 S100000 where
  offsetDims := []
  collapsedSliceDims := [0]
  operandBatchingDims := []
  startIndicesBatchingDims := []
  startIndexMap := [0]
  indexVectorDim := 1
  sliceSizes := ![1]
  wf := gather_S200000_S100000x1_S100000_n_0_n_n_0_1_1_wf
def gather_S100000x300_S100000x1_S100000x300_1_0_n_n_0_1_1300 : GatherDims S100000x300 S100000x1 S100000x300 where
  offsetDims := [1]
  collapsedSliceDims := [0]
  operandBatchingDims := []
  startIndicesBatchingDims := []
  startIndexMap := [0]
  indexVectorDim := 1
  sliceSizes := ![1, 300]
  wf := gather_S100000x300_S100000x1_S100000x300_1_0_n_n_0_1_1300_wf
def dot_S2000x300_S300x14_S2000x14_1_0_0_1_n_n : DotDims S2000x300 S300x14 S2000x14 where
  lhsContracting := [1]
  rhsContracting := [0]
  lhsNonContracting := [0]
  rhsNonContracting := [1]
  lhsBatch := []
  rhsBatch := []
  wf := dot_S2000x300_S300x14_S2000x14_1_0_0_1_n_n_wf
def dot_S2000x300_S300x1_S2000x1_1_0_0_1_n_n : DotDims S2000x300 S300x1 S2000x1 where
  lhsContracting := [1]
  rhsContracting := [0]
  lhsNonContracting := [0]
  rhsNonContracting := [1]
  lhsBatch := []
  rhsBatch := []
  wf := dot_S2000x300_S300x1_S2000x1_1_0_0_1_n_n_wf

abbrev win0_0 : Pipeline.Window sig grid0 :=
  Pipeline.Window.ofSpec (Memref.whole main_arg1) S4000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S147x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4000x300.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S4000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S300x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S4000x300.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S4000x300.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S4000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S300x300.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S4000x300.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S4000x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2000x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S133x300.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x300.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v2) S300x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S2000x300.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v60) S2000x300.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S300x133.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x133.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S2000x133.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v108) S2000x300.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S300x14.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v109) S1x14.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v110) S2000x14.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v63) S2000x300.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S300x300.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v111) S1x300.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg16) S300x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v112) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v113) S2000x1.size cc6_transform_5 reads6_5 true false 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S300x133 : Shape := ⟨2, ![300, 133]⟩
abbrev S133 : Shape := ⟨1, ![133]⟩
abbrev S300x14 : Shape := ⟨2, ![300, 14]⟩
abbrev S14 : Shape := ⟨1, ![14]⟩
abbrev S300x1 : Shape := ⟨2, ![300, 1]⟩
abbrev S1 : Shape := ⟨1, ![1]⟩
abbrev S200000x300 : Shape := ⟨2, ![200000, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S100000x433 : Shape := ⟨2, ![100000, 433]⟩
abbrev S1x300 : Shape := ⟨2, ![1, 300]⟩
abbrev S2000x300 : Shape := ⟨2, ![2000, 300]⟩
abbrev S100000x1 : Shape := ⟨2, ![100000, 1]⟩
abbrev S1x133 : Shape := ⟨2, ![1, 133]⟩
abbrev S100000x14 : Shape := ⟨2, ![100000, 14]⟩
abbrev S1x14 : Shape := ⟨2, ![1, 14]⟩
abbrev S2000x1 : Shape := ⟨2, ![2000, 1]⟩
abbrev S1x1 : Shape := ⟨2, ![1, 1]⟩

abbrev nBuf : Space → Nat
  | .hbm => 190
  | .vmem => 0
  | .smem => 0
  | _ => 0

abbrev hbmTy0_0 (i : Nat) : BufTy := match i % 128 with
  | 0 => ⟨S100000x133, .f32⟩
  | 1 => ⟨S200000x147, .f32⟩
  | 2 => ⟨S100000x6, .i32⟩
  | 3 => ⟨S200000, .i32⟩
  | 4 => ⟨S200000, .i32⟩
  | 5 => ⟨S100000, .i32⟩
  | 6 => ⟨S147x300, .f32⟩
  | 7 => ⟨S300x300, .f32⟩
  | 8 => ⟨S433x300, .f32⟩
  | 9 => ⟨S300, .f32⟩
  | 10 => ⟨S300x133, .f32⟩
  | 11 => ⟨S133, .f32⟩
  | 12 => ⟨S300x14, .f32⟩
  | 13 => ⟨S14, .f32⟩
  | 14 => ⟨S300x300, .f32⟩
  | 15 => ⟨S300, .f32⟩
  | 16 => ⟨S300x1, .f32⟩
  | 17 => ⟨S1, .f32⟩
  | 18 => ⟨S200000x300, .f32⟩
  | 19 => ⟨S_, .f32⟩
  | 20 => ⟨S200000x300, .f32⟩
  | 21 => ⟨S200000x300, .f32⟩
  | 22 => ⟨S_, .i32⟩
  | 23 => ⟨S100000x6, .i32⟩
  | 24 => ⟨S100000x6, .i1⟩
  | 25 => ⟨S_, .i32⟩
  | 26 => ⟨S100000x6, .i32⟩
  | 27 => ⟨S100000x6, .i32⟩
  | 28 => ⟨S100000x6, .i32⟩
  | 29 => ⟨S100000x6x1, .i32⟩
  | 30 => ⟨S100000x6x300, .f32⟩
  | 31 => ⟨S_, .f32⟩
  | 32 => ⟨S100000x300, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x300, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x300, .f32⟩
  | 51 => ⟨S200000x300, .f32⟩
  | 52 => ⟨S200000x300, .f32⟩
  | 53 => ⟨S200000x300, .f32⟩
  | 54 => ⟨S_, .f32⟩
  | 55 => ⟨S200000x300, .f32⟩
  | 56 => ⟨S200000x300, .f32⟩
  | 57 => ⟨S_, .i32⟩
  | 58 => ⟨S100000x6, .i32⟩
  | 59 => ⟨S100000x6, .i1⟩
  | 60 => ⟨S_, .i32⟩
  | 61 => ⟨S100000x6, .i32⟩
  | 62 => ⟨S100000x6, .i32⟩
  | 63 => ⟨S100000x6, .i32⟩
  | 64 => ⟨S100000x6x1, .i32⟩
  | 65 => ⟨S100000x6x300, .f32⟩
  | 66 => ⟨S_, .f32⟩
  | 67 => ⟨S100000x300, .f32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S200000x300, .f32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S200000x300, .f32⟩
  | 86 => ⟨S200000x300, .f32⟩
  | 87 => ⟨S200000x300, .f32⟩
  | 88 => ⟨S200000x300, .f32⟩
  | 89 => ⟨S_, .f32⟩
  | 90 => ⟨S200000x300, .f32⟩
  | 91 => ⟨S200000x300, .f32⟩
  | 92 => ⟨S_, .i32⟩
  | 93 => ⟨S100000x6, .i32⟩
  | 94 => ⟨S100000x6, .i1⟩
  | 95 => ⟨S_, .i32⟩
  | 96 => ⟨S100000x6, .i32⟩
  | 97 => ⟨S100000x6, .i32⟩
  | 98 => ⟨S100000x6, .i32⟩
  | 99 => ⟨S100000x6x1, .i32⟩
  | 100 => ⟨S100000x6x300, .f32⟩
  | 101 => ⟨S_, .f32⟩
  | 102 => ⟨S100000x300, .f32⟩
  | 103 => ⟨S100000x433, .f32⟩
  | 104 => ⟨S100000x300, .f32⟩
  | 105 => ⟨S1x300, .f32⟩
  | 106 => ⟨S100000x300, .f32⟩
  | 107 => ⟨S100000x300, .f32⟩
  | 108 => ⟨S_, .f32⟩
  | 109 => ⟨S100000x300, .f32⟩
  | 110 => ⟨S100000x300, .f32⟩
  | 111 => ⟨S_, .f32⟩
  | 112 => ⟨S2000x300, .f32⟩
  | 113 => ⟨S100000x1, .i32⟩
  | 114 => ⟨S2000x300, .f32⟩
  | 115 => ⟨S100000x133, .f32⟩
  | 116 => ⟨S1x133, .f32⟩
  | 117 => ⟨S100000x133, .f32⟩
  | 118 => ⟨S100000x133, .f32⟩
  | 119 => ⟨S100000, .i32⟩
  | 120 => ⟨S_, .i32⟩
  | 121 => ⟨S100000, .i32⟩
  | 122 => ⟨S100000, .i32⟩
  | 123 => ⟨S_, .i32⟩
  | 124 => ⟨S100000, .i32⟩
  | 125 => ⟨S100000, .i32⟩
  | 126 => ⟨S_, .i32⟩
  | 127 => ⟨S100000, .i32⟩
  | _ => ⟨S100000x133, .f32⟩

abbrev hbmTy0_1 (i : Nat) : BufTy := match i % 128 with
  | 0 => ⟨S100000, .i1⟩
  | 1 => ⟨S_, .i32⟩
  | 2 => ⟨S100000, .i32⟩
  | 3 => ⟨S100000, .i32⟩
  | 4 => ⟨S100000, .i32⟩
  | 5 => ⟨S100000x1, .i32⟩
  | 6 => ⟨S100000, .i32⟩
  | 7 => ⟨S_, .i32⟩
  | 8 => ⟨S100000, .i32⟩
  | 9 => ⟨S100000, .i1⟩
  | 10 => ⟨S_, .i32⟩
  | 11 => ⟨S100000, .i32⟩
  | 12 => ⟨S100000, .i32⟩
  | 13 => ⟨S100000, .i32⟩
  | 14 => ⟨S100000x1, .i32⟩
  | 15 => ⟨S100000, .i32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S100000, .i32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x300, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x300, .f32⟩
  | 43 => ⟨S100000x300, .f32⟩
  | 44 => ⟨S_, .f32⟩
  | 45 => ⟨S100000x300, .f32⟩
  | 46 => ⟨S100000x300, .f32⟩
  | 47 => ⟨S100000x14, .f32⟩
  | 48 => ⟨S1x14, .f32⟩
  | 49 => ⟨S100000x14, .f32⟩
  | 50 => ⟨S100000x14, .f32⟩
  | 51 => ⟨S2000x300, .f32⟩
  | 52 => ⟨S1x300, .f32⟩
  | 53 => ⟨S2000x300, .f32⟩
  | 54 => ⟨S2000x300, .f32⟩
  | 55 => ⟨S_, .f32⟩
  | 56 => ⟨S2000x300, .f32⟩
  | 57 => ⟨S2000x300, .f32⟩
  | 58 => ⟨S2000x1, .f32⟩
  | 59 => ⟨S1x1, .f32⟩
  | 60 => ⟨S2000x1, .f32⟩
  | 61 => ⟨S2000x1, .f32⟩
  | _ => ⟨S100000x133, .f32⟩

abbrev hbmTy (i : Nat) : BufTy := match i / 128 with
  | 0 => hbmTy0_0 i
  | 1 => hbmTy0_1 i
  | _ => ⟨S100000x133, .f32⟩

abbrev bufTy : (tb : Table) → Fin (tcTables nBuf tb) → BufTy
  | .hbm, ⟨i, _⟩ => hbmTy i
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_call0_cst : Ref sig .tc := ⟨.hbm, 19, rfl⟩
abbrev main_call0_v0 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_c_1 : Ref sig .tc := ⟨.hbm, 33, rfl⟩
abbrev main_v10 : Ref sig .tc := ⟨.hbm, 34, rfl⟩
abbrev main_v11 : Ref sig .tc := ⟨.hbm, 35, rfl⟩
abbrev main_c_2 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call1_cst : Ref sig .tc := ⟨.hbm, 54, rfl⟩
abbrev main_call1_v0 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_7 : Ref sig .tc := ⟨.hbm, 66, rfl⟩
abbrev main_v35 : Ref sig .tc := ⟨.hbm, 67, rfl⟩
abbrev main_c_8 : Ref sig .tc := ⟨.hbm, 68, rfl⟩
abbrev main_v36 : Ref sig .tc := ⟨.hbm, 69, rfl⟩
abbrev main_v37 : Ref sig .tc := ⟨.hbm, 70, rfl⟩
abbrev main_c_9 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_10 : Ref sig .tc := ⟨.hbm, 77, rfl⟩
abbrev main_v43 : Ref sig .tc := ⟨.hbm, 78, rfl⟩
abbrev main_v44 : Ref sig .tc := ⟨.hbm, 79, rfl⟩
abbrev main_c_11 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_call2_cst : Ref sig .tc := ⟨.hbm, 89, rfl⟩
abbrev main_call2_v0 : Ref sig .tc := ⟨.hbm, 90, rfl⟩
abbrev main_v53 : Ref sig .tc := ⟨.hbm, 91, rfl⟩
abbrev main_c_12 : Ref sig .tc := ⟨.hbm, 92, rfl⟩
abbrev main_v54 : Ref sig .tc := ⟨.hbm, 93, rfl⟩
abbrev main_v55 : Ref sig .tc := ⟨.hbm, 94, rfl⟩
abbrev main_c_13 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_14 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_call3_cst : Ref sig .tc := ⟨.hbm, 108, rfl⟩
abbrev main_call3_v0 : Ref sig .tc := ⟨.hbm, 109, rfl⟩
abbrev main_v67 : Ref sig .tc := ⟨.hbm, 110, rfl⟩
abbrev main_cst_15 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_16 : Ref sig .tc := ⟨.hbm, 120, rfl⟩
abbrev main_v76 : Ref sig .tc := ⟨.hbm, 121, rfl⟩
abbrev main_v77 : Ref sig .tc := ⟨.hbm, 122, rfl⟩
abbrev main_c_17 : Ref sig .tc := ⟨.hbm, 123, rfl⟩
abbrev main_v78 : Ref sig .tc := ⟨.hbm, 124, rfl⟩
abbrev main_v79 : Ref sig .tc := ⟨.hbm, 125, rfl⟩
abbrev main_c_18 : Ref sig .tc := ⟨.hbm, 126, rfl⟩
abbrev main_v80 : Ref sig .tc := ⟨.hbm, 127, rfl⟩
abbrev main_v81 : Ref sig .tc := ⟨.hbm, 128, rfl⟩
abbrev main_c_19 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_c_20 : Ref sig .tc := ⟨.hbm, 135, rfl⟩
abbrev main_v87 : Ref sig .tc := ⟨.hbm, 136, rfl⟩
abbrev main_v88 : Ref sig .tc := ⟨.hbm, 137, rfl⟩
abbrev main_c_21 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_c_22 : Ref sig .tc := ⟨.hbm, 144, rfl⟩
abbrev main_v94 : Ref sig .tc := ⟨.hbm, 145, rfl⟩
abbrev main_v95 : Ref sig .tc := ⟨.hbm, 146, rfl⟩
abbrev main_c_23 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_c_24 : Ref sig .tc := ⟨.hbm, 153, rfl⟩
abbrev main_v101 : Ref sig .tc := ⟨.hbm, 154, rfl⟩
abbrev main_v102 : Ref sig .tc := ⟨.hbm, 155, rfl⟩
abbrev main_c_25 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_c_26 : Ref sig .tc := ⟨.hbm, 162, rfl⟩
abbrev main_v108 : Ref sig .tc := ⟨.hbm, 163, rfl⟩
abbrev main_v109 : Ref sig .tc := ⟨.hbm, 164, rfl⟩
abbrev main_c_27 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_28 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_call4_cst : Ref sig .tc := ⟨.hbm, 183, rfl⟩
abbrev main_call4_v0 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩

abbrev nD : Nat := 1
abbrev τ : Topo := Topo.v7x

variable {F : FTy → Type} [FloatOps F]

class Facts₀ : Prop where
  bcast_S_S200000x300 : S_.BroadcastsInDim S200000x300 (![] : Fin 0 → Fin S200000x300.rank)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  concatenates_S100000x133_S100000x300_S100000x433_d1 : Shape.Concatenates [S100000x133, S100000x300] S100000x433 1
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  bcast_S_S100000x300 : S_.BroadcastsInDim S100000x300 (![] : Fin 0 → Fin S100000x300.rank)
  bcast_S_S2000x300 : S_.BroadcastsInDim S2000x300 (![] : Fin 0 → Fin S2000x300.rank)
  bcast_S100000_S100000x1_0 : S100000.BroadcastsInDim S100000x1 (![0] : Fin 1 → Fin S100000x1.rank)
  bcast_S133_S1x133_1 : S133.BroadcastsInDim S1x133 (![1] : Fin 1 → Fin S1x133.rank)
  bcast_S1x133_S100000x133_0_1 : S1x133.BroadcastsInDim S100000x133 (![0, 1] : Fin 2 → Fin S100000x133.rank)
  bcast_S_S100000 : S_.BroadcastsInDim S100000 (![] : Fin 0 → Fin S100000.rank)
  bcast_S14_S1x14_1 : S14.BroadcastsInDim S1x14 (![1] : Fin 1 → Fin S1x14.rank)
  bcast_S1x14_S100000x14_0_1 : S1x14.BroadcastsInDim S100000x14 (![0, 1] : Fin 2 → Fin S100000x14.rank)
  bcast_S1x300_S2000x300_0_1 : S1x300.BroadcastsInDim S2000x300 (![0, 1] : Fin 2 → Fin S2000x300.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  dot_S200000x147_S147x300_S200000x300_1_0_0_1_n_n_wf : DotDims.WF S200000x147 S147x300 S200000x300 [1] [0] [0] [1] [] []
  gather_S200000x300_S100000x6x1_S100000x6x300_2_0_n_n_0_2_1300_wf : GatherDims.WF S200000x300 S100000x6x1 S100000x6x300 [2] [0] [] [0] [] 2 ![1, 300]
  gather_S100000x300_S200000x1_S200000x300_1_0_n_n_0_1_1300_wf : GatherDims.WF S100000x300 S200000x1 S200000x300 [1] [0] [] [0] [] 1 ![1, 300]
  gather_S200000x300_S200000x1_S200000x300_1_0_n_n_0_1_1300_wf : GatherDims.WF S200000x300 S200000x1 S200000x300 [1] [0] [] [0] [] 1 ![1, 300]
  dot_S200000x300_S300x300_S200000x300_1_0_0_1_n_n_wf : DotDims.WF S200000x300 S300x300 S200000x300 [1] [0] [0] [1] [] []
  dot_S100000x433_S433x300_S100000x300_1_0_0_1_n_n_wf : DotDims.WF S100000x433 S433x300 S100000x300 [1] [0] [0] [1] [] []
  scatter_S2000x300_S100000x1_S100000x300_1_0_0_1_wf : ScatterDims.WF S2000x300 S100000x1 S100000x300 [1] [0] [0] 1
  dot_S100000x300_S300x133_S100000x133_1_0_0_1_n_n_wf : DotDims.WF S100000x300 S300x133 S100000x133 [1] [0] [0] [1] [] []
  gather_S200000_S100000x1_S100000_n_0_n_n_0_1_1_wf : GatherDims.WF S200000 S100000x1 S100000 [] [0] [] [0] [] 1 ![1]
  gather_S100000x300_S100000x1_S100000x300_1_0_n_n_0_1_1300_wf : GatherDims.WF S100000x300 S100000x1 S100000x300 [1] [0] [] [0] [] 1 ![1, 300]
  dot_S100000x300_S300x14_S100000x14_1_0_0_1_n_n_wf : DotDims.WF S100000x300 S300x14 S100000x14 [1] [0] [0] [1] [] []
  dot_S2000x300_S300x300_S2000x300_1_0_0_1_n_n_wf : DotDims.WF S2000x300 S300x300 S2000x300 [1] [0] [0] [1] [] []
  dot_S2000x300_S300x1_S2000x1_1_0_0_1_n_n_wf : DotDims.WF S2000x300 S300x1 S2000x1 [1] [0] [0] [1] [] []

variable [Facts₀]

def dot_S200000x147_S147x300_S200000x300_1_0_0_1_n_n : DotDims S200000x147 S147x300 S200000x300 where
  lhsContracting := [1]
  rhsContracting := [0]
  lhsNonContracting := [0]
  rhsNonContracting := [1]
  lhsBatch := []
  rhsBatch := []
  wf := dot_S200000x147_S147x300_S200000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def dot_S200000x300_S300x300_S200000x300_1_0_0_1_n_n : DotDims S200000x300 S300x300 S200000x300 where
  lhsContracting := [1]
  rhsContracting := [0]
  lhsNonContracting := [0]
  rhsNonContracting := [1]
  lhsBatch := []
  rhsBatch := []
  wf := dot_S200000x300_S300x300_S200000x300_1_0_0_1_n_n_wf
def dot_S100000x433_S433x300_S100000x300_1_0_0_1_n_n : DotDims S100000x433 S433x300 S100000x300 where
  lhsContracting := [1]
  rhsContracting := [0]
  lhsNonContracting := [0]
  rhsNonContracting := [1]
  lhsBatch := []
  rhsBatch := []
  wf := dot_S100000x433_S433x300_S100000x300_1_0_0_1_n_n_wf
def scatter_S2000x300_S100000x1_S100000x300_1_0_0_1 : ScatterDims S2000x300 S100000x1 S100000x300 where
  updateWindowDims := [1]
  insertedWindowDims := [0]
  scatterDimsToOperandDims := [0]
  indexVectorDim := 1
  wf := scatter_S2000x300_S100000x1_S100000x300_1_0_0_1_wf
def dot_S100000x300_S300x133_S100000x133_1_0_0_1_n_n : DotDims S100000x300 S300x133 S100000x133 where
  lhsContracting := [1]
  rhsContracting := [0]
  lhsNonContracting := [0]
  rhsNonContracting := [1]
  lhsBatch := []
  rhsBatch := []
  wf := dot_S100000x300_S300x133_S100000x133_1_0_0_1_n_n_wf
def gather_S200000_S100000x1_S100000_n_0_n_n_0_1_1 : GatherDims S200000 S100000x1 S100000 where
  offsetDims := []
  collapsedSliceDims := [0]
  operandBatchingDims := []
  startIndicesBatchingDims := []
  startIndexMap := [0]
  indexVectorDim := 1
  sliceSizes := ![1]
  wf := gather_S200000_S100000x1_S100000_n_0_n_n_0_1_1_wf
def gather_S100000x300_S100000x1_S100000x300_1_0_n_n_0_1_1300 : GatherDims S100000x300 S100000x1 S100000x300 where
  offsetDims := [1]
  collapsedSliceDims := [0]
  operandBatchingDims := []
  startIndicesBatchingDims := []
  startIndexMap := [0]
  indexVectorDim := 1
  sliceSizes := ![1, 300]
  wf := gather_S100000x300_S100000x1_S100000x300_1_0_n_n_0_1_1300_wf
def dot_S100000x300_S300x14_S100000x14_1_0_0_1_n_n : DotDims S100000x300 S300x14 S100000x14 where
  lhsContracting := [1]
  rhsContracting := [0]
  lhsNonContracting := [0]
  rhsNonContracting := [1]
  lhsBatch := []
  rhsBatch := []
  wf := dot_S100000x300_S300x14_S100000x14_1_0_0_1_n_n_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def dot_S2000x300_S300x1_S2000x1_1_0_0_1_n_n : DotDims S2000x300 S300x1 S2000x1 where
  lhsContracting := [1]
  rhsContracting := [0]
  lhsNonContracting := [0]
  rhsNonContracting := [1]
  lhsBatch := []
  rhsBatch := []
  wf := dot_S2000x300_S300x1_S2000x1_1_0_0_1_n_n_wf

class Facts : Prop extends Facts₀ where

variable [Facts]
-- ==== Proof.KRun.lean ====
/-
  The idealized kernel's run, keeping every result: @main is seven row-tiled dense stages among stretches of host
  operations, and after the last segment every buffer that outlives @main holds what the fold of the segments over the
  launch memory leaves there (`Gen.W13`): a host stretch leaves its operations' results, a dense stage leaves in each
  of its arrays what its write-backs fold to. Every weakly fair execution terminates without a fault in such a state.
  The three results and the eighteen arguments are read off that valuation.
-/
import proofs.«111378_j25486335935037_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that outlives @main at the
    segments' fold over the launch memory. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The run with the three results named: each at the fold's contents of its buffer, each argument as launched. -/
theorem run_results : θ_run defs (onTc (τ := τ) (main (F := F))) ⟨m, fun _ => 0, ρ⟩ (fun r => ∀ c : Dev nD,
      r.2.mem ((c.tc : Thread nD τ).loc main_v65) = W13 m ρ c (Proc.devRef .tc main_v65)
      ∧ r.2.mem ((c.tc : Thread nD τ).loc main_v110) = W13 m ρ c (Proc.devRef .tc main_v110)
      ∧ r.2.mem ((c.tc : Thread nD τ).loc main_v113) = W13 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v65 (by decide)),
     h c _ (mem_uc main_v110 (by decide)),
     h c _ (mem_uc main_v113 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c),
     (h c _ (mem_uc main_arg11 (by decide))).trans (W13_main_arg11 m ρ c),
     (h c _ (mem_uc main_arg12 (by decide))).trans (W13_main_arg12 m ρ c),
     (h c _ (mem_uc main_arg13 (by decide))).trans (W13_main_arg13 m ρ c),
     (h c _ (mem_uc main_arg14 (by decide))).trans (W13_main_arg14 m ρ c),
     (h c _ (mem_uc main_arg15 (by decide))).trans (W13_main_arg15 m ρ c),
     (h c _ (mem_uc main_arg16 (by decide))).trans (W13_main_arg16 m ρ c),
     (h c _ (mem_uc main_arg17 (by decide))).trans (W13_main_arg17 m ρ c)⟩)
    (run_fold m ρ)

end Cert.KernelRun

end
-- ==== Proof.ChainArgs.lean ====
/-
  The arguments stay as launched through the kernel's segments: no host operation writes an argument's buffer and a
  dense stage either passes it by or reads it through an input window, whose array ends as it was entered. So at every
  segment boundary up to the one where an argument is last read, its buffer still holds the launch contents.
-/
import proofs.«111378_j25486335935037_1_alg».proof.Proof.Gen.KernelIdeal.Frame
import Idealize.ShloMosaic.PureOps.Ideal

set_option maxRecDepth 16384

noncomputable section

namespace Cert.KernelChain

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem W1_arg0 : W1 m ρ c (Proc.devRef .tc main_arg0) = m ((c : Thread nD τ).loc main_arg0) :=
  (show W1 m ρ c (Proc.devRef .tc main_arg0) = W0 m ρ c (Proc.devRef .tc main_arg0) from
    W1_of_ne m ρ c main_arg0 (by decide)).trans (rfl)

theorem W2_arg0 : W2 m ρ c (Proc.devRef .tc main_arg0) = m ((c : Thread nD τ).loc main_arg0) :=
  (show W2 m ρ c (Proc.devRef .tc main_arg0) = W1 m ρ c (Proc.devRef .tc main_arg0) from
    StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg0 m ρ c)

theorem W3_arg0 : W3 m ρ c (Proc.devRef .tc main_arg0) = m ((c : Thread nD τ).loc main_arg0) :=
  (show W3 m ρ c (Proc.devRef .tc main_arg0) = W2 m ρ c (Proc.devRef .tc main_arg0) from
    W3_of_ne m ρ c main_arg0 (by decide)).trans (W2_arg0 m ρ c)

theorem W4_arg0 : W4 m ρ c (Proc.devRef .tc main_arg0) = m ((c : Thread nD τ).loc main_arg0) :=
  (show W4 m ρ c (Proc.devRef .tc main_arg0) = W3 m ρ c (Proc.devRef .tc main_arg0) from
    StableHlo.after_of_forall_not_mem (b := Proc.devRef .tc main_arg0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg0 m ρ c)

theorem W5_arg0 : W5 m ρ c (Proc.devRef .tc main_arg0) = m ((c : Thread nD τ).loc main_arg0) :=
  (show W5 m ρ c (Proc.devRef .tc main_arg0) = W4 m ρ c (Proc.devRef .tc main_arg0) from
    W5_of_ne m ρ c main_arg0 (by decide)).trans (W4_arg0 m ρ c)

theorem W6_arg0 : W6 m ρ c (Proc.devRef .tc main_arg0) = m ((c : Thread nD τ).loc main_arg0) :=
  (show W6 m ρ c (Proc.devRef .tc main_arg0) = W5 m ρ c (Proc.devRef .tc main_arg0) from
    StableHlo.after_of_forall_not_mem (b := Proc.devRef .tc main_arg0) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_arg0 m ρ c)

theorem W1_arg2 : W1 m ρ c (Proc.devRef .tc main_arg2) = m ((c : Thread nD τ).loc main_arg2) :=
  (show W1 m ρ c (Proc.devRef .tc main_arg2) = W0 m ρ c (Proc.devRef .tc main_arg2) from
    W1_of_ne m ρ c main_arg2 (by decide)).trans (rfl)

theorem W2_arg2 : W2 m ρ c (Proc.devRef .tc main_arg2) = m ((c : Thread nD τ).loc main_arg2) :=
  (show W2 m ρ c (Proc.devRef .tc main_arg2) = W1 m ρ c (Proc.devRef .tc main_arg2) from
    StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg2 m ρ c)

theorem W3_arg2 : W3 m ρ c (Proc.devRef .tc main_arg2) = m ((c : Thread nD τ).loc main_arg2) :=
  (show W3 m ρ c (Proc.devRef .tc main_arg2) = W2 m ρ c (Proc.devRef .tc main_arg2) from
    W3_of_ne m ρ c main_arg2 (by decide)).trans (W2_arg2 m ρ c)

theorem W4_arg2 : W4 m ρ c (Proc.devRef .tc main_arg2) = m ((c : Thread nD τ).loc main_arg2) :=
  (show W4 m ρ c (Proc.devRef .tc main_arg2) = W3 m ρ c (Proc.devRef .tc main_arg2) from
    StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg2 m ρ c)

theorem W5_arg2 : W5 m ρ c (Proc.devRef .tc main_arg2) = m ((c : Thread nD τ).loc main_arg2) :=
  (show W5 m ρ c (Proc.devRef .tc main_arg2) = W4 m ρ c (Proc.devRef .tc main_arg2) from
    W5_of_ne m ρ c main_arg2 (by decide)).trans (W4_arg2 m ρ c)

theorem W1_arg3 : W1 m ρ c (Proc.devRef .tc main_arg3) = m ((c : Thread nD τ).loc main_arg3) :=
  (show W1 m ρ c (Proc.devRef .tc main_arg3) = W0 m ρ c (Proc.devRef .tc main_arg3) from
    W1_of_ne m ρ c main_arg3 (by decide)).trans (rfl)

theorem W2_arg3 : W2 m ρ c (Proc.devRef .tc main_arg3) = m ((c : Thread nD τ).loc main_arg3) :=
  (show W2 m ρ c (Proc.devRef .tc main_arg3) = W1 m ρ c (Proc.devRef .tc main_arg3) from
    StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg3 m ρ c)

theorem W3_arg3 : W3 m ρ c (Proc.devRef .tc main_arg3) = m ((c : Thread nD τ).loc main_arg3) :=
  (show W3 m ρ c (Proc.devRef .tc main_arg3) = W2 m ρ c (Proc.devRef .tc main_arg3) from
    W3_of_ne m ρ c main_arg3 (by decide)).trans (W2_arg3 m ρ c)

theorem W4_arg3 : W4 m ρ c (Proc.devRef .tc main_arg3) = m ((c : Thread nD τ).loc main_arg3) :=
  (show W4 m ρ c (Proc.devRef .tc main_arg3) = W3 m ρ c (Proc.devRef .tc main_arg3) from
    StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg3 m ρ c)

theorem W5_arg3 : W5 m ρ c (Proc.devRef .tc main_arg3) = m ((c : Thread nD τ).loc main_arg3) :=
  (show W5 m ρ c (Proc.devRef .tc main_arg3) = W4 m ρ c (Proc.devRef .tc main_arg3) from
    W5_of_ne m ρ c main_arg3 (by decide)).trans (W4_arg3 m ρ c)

theorem W6_arg3 : W6 m ρ c (Proc.devRef .tc main_arg3) = m ((c : Thread nD τ).loc main_arg3) :=
  (show W6 m ρ c (Proc.devRef .tc main_arg3) = W5 m ρ c (Proc.devRef .tc main_arg3) from
    StableHlo.after_of_forall_not_mem (b := Proc.devRef .tc main_arg3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_arg3 m ρ c)

theorem W7_arg3 : W7 m ρ c (Proc.devRef .tc main_arg3) = m ((c : Thread nD τ).loc main_arg3) :=
  (show W7 m ρ c (Proc.devRef .tc main_arg3) = W6 m ρ c (Proc.devRef .tc main_arg3) from
    W7_of_ne m ρ c main_arg3 (by decide)).trans (W6_arg3 m ρ c)

theorem W8_arg3 : W8 m ρ c (Proc.devRef .tc main_arg3) = m ((c : Thread nD τ).loc main_arg3) :=
  (show W8 m ρ c (Proc.devRef .tc main_arg3) = W7 m ρ c (Proc.devRef .tc main_arg3) from
    StableHlo.after_of_forall_not_mem (b := Proc.devRef .tc main_arg3) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_arg3 m ρ c)

theorem W9_arg3 : W9 m ρ c (Proc.devRef .tc main_arg3) = m ((c : Thread nD τ).loc main_arg3) :=
  (show W9 m ρ c (Proc.devRef .tc main_arg3) = W8 m ρ c (Proc.devRef .tc main_arg3) from
    W9_of_ne m ρ c main_arg3 (by decide)).trans (W8_arg3 m ρ c)

theorem W1_arg4 : W1 m ρ c (Proc.devRef .tc main_arg4) = m ((c : Thread nD τ).loc main_arg4) :=
  (show W1 m ρ c (Proc.devRef .tc main_arg4) = W0 m ρ c (Proc.devRef .tc main_arg4) from
    W1_of_ne m ρ c main_arg4 (by decide)).trans (rfl)

theorem W2_arg4 : W2 m ρ c (Proc.devRef .tc main_arg4) = m ((c : Thread nD τ).loc main_arg4) :=
  (show W2 m ρ c (Proc.devRef .tc main_arg4) = W1 m ρ c (Proc.devRef .tc main_arg4) from
    StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg4 m ρ c)

theorem W3_arg4 : W3 m ρ c (Proc.devRef .tc main_arg4) = m ((c : Thread nD τ).loc main_arg4) :=
  (show W3 m ρ c (Proc.devRef .tc main_arg4) = W2 m ρ c (Proc.devRef .tc main_arg4) from
    W3_of_ne m ρ c main_arg4 (by decide)).trans (W2_arg4 m ρ c)

theorem W4_arg4 : W4 m ρ c (Proc.devRef .tc main_arg4) = m ((c : Thread nD τ).loc main_arg4) :=
  (show W4 m ρ c (Proc.devRef .tc main_arg4) = W3 m ρ c (Proc.devRef .tc main_arg4) from
    StableHlo.after_of_forall_not_mem (b := Proc.devRef .tc main_arg4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg4 m ρ c)

theorem W5_arg4 : W5 m ρ c (Proc.devRef .tc main_arg4) = m ((c : Thread nD τ).loc main_arg4) :=
  (show W5 m ρ c (Proc.devRef .tc main_arg4) = W4 m ρ c (Proc.devRef .tc main_arg4) from
    W5_of_ne m ρ c main_arg4 (by decide)).trans (W4_arg4 m ρ c)

theorem W6_arg4 : W6 m ρ c (Proc.devRef .tc main_arg4) = m ((c : Thread nD τ).loc main_arg4) :=
  (show W6 m ρ c (Proc.devRef .tc main_arg4) = W5 m ρ c (Proc.devRef .tc main_arg4) from
    StableHlo.after_of_forall_not_mem (b := Proc.devRef .tc main_arg4) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_arg4 m ρ c)

theorem W7_arg4 : W7 m ρ c (Proc.devRef .tc main_arg4) = m ((c : Thread nD τ).loc main_arg4) :=
  (show W7 m ρ c (Proc.devRef .tc main_arg4) = W6 m ρ c (Proc.devRef .tc main_arg4) from
    W7_of_ne m ρ c main_arg4 (by decide)).trans (W6_arg4 m ρ c)

theorem W8_arg4 : W8 m ρ c (Proc.devRef .tc main_arg4) = m ((c : Thread nD τ).loc main_arg4) :=
  (show W8 m ρ c (Proc.devRef .tc main_arg4) = W7 m ρ c (Proc.devRef .tc main_arg4) from
    StableHlo.after_of_forall_not_mem (b := Proc.devRef .tc main_arg4) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_arg4 m ρ c)

theorem W9_arg4 : W9 m ρ c (Proc.devRef .tc main_arg4) = m ((c : Thread nD τ).loc main_arg4) :=
  (show W9 m ρ c (Proc.devRef .tc main_arg4) = W8 m ρ c (Proc.devRef .tc main_arg4) from
    W9_of_ne m ρ c main_arg4 (by decide)).trans (W8_arg4 m ρ c)

theorem W1_arg5 : W1 m ρ c (Proc.devRef .tc main_arg5) = m ((c : Thread nD τ).loc main_arg5) :=
  (show W1 m ρ c (Proc.devRef .tc main_arg5) = W0 m ρ c (Proc.devRef .tc main_arg5) from
    W1_of_ne m ρ c main_arg5 (by decide)).trans (rfl)

theorem W2_arg5 : W2 m ρ c (Proc.devRef .tc main_arg5) = m ((c : Thread nD τ).loc main_arg5) :=
  (show W2 m ρ c (Proc.devRef .tc main_arg5) = W1 m ρ c (Proc.devRef .tc main_arg5) from
    StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg5 m ρ c)

theorem W3_arg5 : W3 m ρ c (Proc.devRef .tc main_arg5) = m ((c : Thread nD τ).loc main_arg5) :=
  (show W3 m ρ c (Proc.devRef .tc main_arg5) = W2 m ρ c (Proc.devRef .tc main_arg5) from
    W3_of_ne m ρ c main_arg5 (by decide)).trans (W2_arg5 m ρ c)

theorem W4_arg5 : W4 m ρ c (Proc.devRef .tc main_arg5) = m ((c : Thread nD τ).loc main_arg5) :=
  (show W4 m ρ c (Proc.devRef .tc main_arg5) = W3 m ρ c (Proc.devRef .tc main_arg5) from
    StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg5 m ρ c)

theorem W5_arg5 : W5 m ρ c (Proc.devRef .tc main_arg5) = m ((c : Thread nD τ).loc main_arg5) :=
  (show W5 m ρ c (Proc.devRef .tc main_arg5) = W4 m ρ c (Proc.devRef .tc main_arg5) from
    W5_of_ne m ρ c main_arg5 (by decide)).trans (W4_arg5 m ρ c)

theorem W6_arg5 : W6 m ρ c (Proc.devRef .tc main_arg5) = m ((c : Thread nD τ).loc main_arg5) :=
  (show W6 m ρ c (Proc.devRef .tc main_arg5) = W5 m ρ c (Proc.devRef .tc main_arg5) from
    StableHlo.after_of_forall_not_mem (b := Proc.devRef .tc main_arg5) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_arg5 m ρ c)

theorem W7_arg5 : W7 m ρ c (Proc.devRef .tc main_arg5) = m ((c : Thread nD τ).loc main_arg5) :=
  (show W7 m ρ c (Proc.devRef .tc main_arg5) = W6 m ρ c (Proc.devRef .tc main_arg5) from
    W7_of_ne m ρ c main_arg5 (by decide)).trans (W6_arg5 m ρ c)

theorem W1_arg7 : W1 m ρ c (Proc.devRef .tc main_arg7) = m ((c : Thread nD τ).loc main_arg7) :=
  (show W1 m ρ c (Proc.devRef .tc main_arg7) = W0 m ρ c (Proc.devRef .tc main_arg7) from
    W1_of_ne m ρ c main_arg7 (by decide)).trans (rfl)

theorem W2_arg7 : W2 m ρ c (Proc.devRef .tc main_arg7) = m ((c : Thread nD τ).loc main_arg7) :=
  (show W2 m ρ c (Proc.devRef .tc main_arg7) = W1 m ρ c (Proc.devRef .tc main_arg7) from
    StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg7 m ρ c)

theorem W3_arg7 : W3 m ρ c (Proc.devRef .tc main_arg7) = m ((c : Thread nD τ).loc main_arg7) :=
  (show W3 m ρ c (Proc.devRef .tc main_arg7) = W2 m ρ c (Proc.devRef .tc main_arg7) from
    (W3_arr m ρ c 1).trans (((dat1 (V2 m ρ) c).arrAt_in 1 rfl _).trans (A_eq1 (V2 m ρ) c 1))).trans (W2_arg7 m ρ c)

theorem W4_arg7 : W4 m ρ c (Proc.devRef .tc main_arg7) = m ((c : Thread nD τ).loc main_arg7) :=
  (show W4 m ρ c (Proc.devRef .tc main_arg7) = W3 m ρ c (Proc.devRef .tc main_arg7) from
    StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg7 m ρ c)

theorem W1_arg8 : W1 m ρ c (Proc.devRef .tc main_arg8) = m ((c : Thread nD τ).loc main_arg8) :=
  (show W1 m ρ c (Proc.devRef .tc main_arg8) = W0 m ρ c (Proc.devRef .tc main_arg8) from
    W1_of_ne m ρ c main_arg8 (by decide)).trans (rfl)

theorem W1_arg9 : W1 m ρ c (Proc.devRef .tc main_arg9) = m ((c : Thread nD τ).loc main_arg9) :=
  (show W1 m ρ c (Proc.devRef .tc main_arg9) = W0 m ρ c (Proc.devRef .tc main_arg9) from
    W1_of_ne m ρ c main_arg9 (by decide)).trans (rfl)

theorem W2_arg9 : W2 m ρ c (Proc.devRef .tc main_arg9) = m ((c : Thread nD τ).loc main_arg9) :=
  (show W2 m ρ c (Proc.devRef .tc main_arg9) = W1 m ρ c (Proc.devRef .tc main_arg9) from
    StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg9 m ρ c)

theorem W3_arg9 : W3 m ρ c (Proc.devRef .tc main_arg9) = m ((c : Thread nD τ).loc main_arg9) :=
  (show W3 m ρ c (Proc.devRef .tc main_arg9) = W2 m ρ c (Proc.devRef .tc main_arg9) from
    W3_of_ne m ρ c main_arg9 (by decide)).trans (W2_arg9 m ρ c)

theorem W4_arg9 : W4 m ρ c (Proc.devRef .tc main_arg9) = m ((c : Thread nD τ).loc main_arg9) :=
  (show W4 m ρ c (Proc.devRef .tc main_arg9) = W3 m ρ c (Proc.devRef .tc main_arg9) from
    StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg9 m ρ c)

theorem W5_arg9 : W5 m ρ c (Proc.devRef .tc main_arg9) = m ((c : Thread nD τ).loc main_arg9) :=
  (show W5 m ρ c (Proc.devRef .tc main_arg9) = W4 m ρ c (Proc.devRef .tc main_arg9) from
    W5_of_ne m ρ c main_arg9 (by decide)).trans (W4_arg9 m ρ c)

theorem W1_arg10 : W1 m ρ c (Proc.devRef .tc main_arg10) = m ((c : Thread nD τ).loc main_arg10) :=
  (show W1 m ρ c (Proc.devRef .tc main_arg10) = W0 m ρ c (Proc.devRef .tc main_arg10) from
    W1_of_ne m ρ c main_arg10 (by decide)).trans (rfl)

theorem W2_arg10 : W2 m ρ c (Proc.devRef .tc main_arg10) = m ((c : Thread nD τ).loc main_arg10) :=
  (show W2 m ρ c (Proc.devRef .tc main_arg10) = W1 m ρ c (Proc.devRef .tc main_arg10) from
    StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg10 m ρ c)

theorem W3_arg10 : W3 m ρ c (Proc.devRef .tc main_arg10) = m ((c : Thread nD τ).loc main_arg10) :=
  (show W3 m ρ c (Proc.devRef .tc main_arg10) = W2 m ρ c (Proc.devRef .tc main_arg10) from
    W3_of_ne m ρ c main_arg10 (by decide)).trans (W2_arg10 m ρ c)

theorem W4_arg10 : W4 m ρ c (Proc.devRef .tc main_arg10) = m ((c : Thread nD τ).loc main_arg10) :=
  (show W4 m ρ c (Proc.devRef .tc main_arg10) = W3 m ρ c (Proc.devRef .tc main_arg10) from
    StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg10 m ρ c)

theorem W5_arg10 : W5 m ρ c (Proc.devRef .tc main_arg10) = m ((c : Thread nD τ).loc main_arg10) :=
  (show W5 m ρ c (Proc.devRef .tc main_arg10) = W4 m ρ c (Proc.devRef .tc main_arg10) from
    W5_of_ne m ρ c main_arg10 (by decide)).trans (W4_arg10 m ρ c)

theorem W6_arg10 : W6 m ρ c (Proc.devRef .tc main_arg10) = m ((c : Thread nD τ).loc main_arg10) :=
  (show W6 m ρ c (Proc.devRef .tc main_arg10) = W5 m ρ c (Proc.devRef .tc main_arg10) from
    StableHlo.after_of_forall_not_mem (b := Proc.devRef .tc main_arg10) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_arg10 m ρ c)

theorem W7_arg10 : W7 m ρ c (Proc.devRef .tc main_arg10) = m ((c : Thread nD τ).loc main_arg10) :=
  (show W7 m ρ c (Proc.devRef .tc main_arg10) = W6 m ρ c (Proc.devRef .tc main_arg10) from
    W7_of_ne m ρ c main_arg10 (by decide)).trans (W6_arg10 m ρ c)

theorem W8_arg10 : W8 m ρ c (Proc.devRef .tc main_arg10) = m ((c : Thread nD τ).loc main_arg10) :=
  (show W8 m ρ c (Proc.devRef .tc main_arg10) = W7 m ρ c (Proc.devRef .tc main_arg10) from
    StableHlo.after_of_forall_not_mem (b := Proc.devRef .tc main_arg10) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_arg10 m ρ c)

theorem W1_arg11 : W1 m ρ c (Proc.devRef .tc main_arg11) = m ((c : Thread nD τ).loc main_arg11) :=
  (show W1 m ρ c (Proc.devRef .tc main_arg11) = W0 m ρ c (Proc.devRef .tc main_arg11) from
    W1_of_ne m ρ c main_arg11 (by decide)).trans (rfl)

theorem W2_arg11 : W2 m ρ c (Proc.devRef .tc main_arg11) = m ((c : Thread nD τ).loc main_arg11) :=
  (show W2 m ρ c (Proc.devRef .tc main_arg11) = W1 m ρ c (Proc.devRef .tc main_arg11) from
    StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg11 m ρ c)

theorem W3_arg11 : W3 m ρ c (Proc.devRef .tc main_arg11) = m ((c : Thread nD τ).loc main_arg11) :=
  (show W3 m ρ c (Proc.devRef .tc main_arg11) = W2 m ρ c (Proc.devRef .tc main_arg11) from
    W3_of_ne m ρ c main_arg11 (by decide)).trans (W2_arg11 m ρ c)

theorem W4_arg11 : W4 m ρ c (Proc.devRef .tc main_arg11) = m ((c : Thread nD τ).loc main_arg11) :=
  (show W4 m ρ c (Proc.devRef .tc main_arg11) = W3 m ρ c (Proc.devRef .tc main_arg11) from
    StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg11 m ρ c)

theorem W5_arg11 : W5 m ρ c (Proc.devRef .tc main_arg11) = m ((c : Thread nD τ).loc main_arg11) :=
  (show W5 m ρ c (Proc.devRef .tc main_arg11) = W4 m ρ c (Proc.devRef .tc main_arg11) from
    W5_of_ne m ρ c main_arg11 (by decide)).trans (W4_arg11 m ρ c)

theorem W6_arg11 : W6 m ρ c (Proc.devRef .tc main_arg11) = m ((c : Thread nD τ).loc main_arg11) :=
  (show W6 m ρ c (Proc.devRef .tc main_arg11) = W5 m ρ c (Proc.devRef .tc main_arg11) from
    StableHlo.after_of_forall_not_mem (b := Proc.devRef .tc main_arg11) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_arg11 m ρ c)

theorem W7_arg11 : W7 m ρ c (Proc.devRef .tc main_arg11) = m ((c : Thread nD τ).loc main_arg11) :=
  (show W7 m ρ c (Proc.devRef .tc main_arg11) = W6 m ρ c (Proc.devRef .tc main_arg11) from
    W7_of_ne m ρ c main_arg11 (by decide)).trans (W6_arg11 m ρ c)

theorem W1_arg12 : W1 m ρ c (Proc.devRef .tc main_arg12) = m ((c : Thread nD τ).loc main_arg12) :=
  (show W1 m ρ c (Proc.devRef .tc main_arg12) = W0 m ρ c (Proc.devRef .tc main_arg12) from
    W1_of_ne m ρ c main_arg12 (by decide)).trans (rfl)

theorem W2_arg12 : W2 m ρ c (Proc.devRef .tc main_arg12) = m ((c : Thread nD τ).loc main_arg12) :=
  (show W2 m ρ c (Proc.devRef .tc main_arg12) = W1 m ρ c (Proc.devRef .tc main_arg12) from
    StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg12 m ρ c)

theorem W3_arg12 : W3 m ρ c (Proc.devRef .tc main_arg12) = m ((c : Thread nD τ).loc main_arg12) :=
  (show W3 m ρ c (Proc.devRef .tc main_arg12) = W2 m ρ c (Proc.devRef .tc main_arg12) from
    W3_of_ne m ρ c main_arg12 (by decide)).trans (W2_arg12 m ρ c)

theorem W4_arg12 : W4 m ρ c (Proc.devRef .tc main_arg12) = m ((c : Thread nD τ).loc main_arg12) :=
  (show W4 m ρ c (Proc.devRef .tc main_arg12) = W3 m ρ c (Proc.devRef .tc main_arg12) from
    StableHlo.after_of_forall_not_mem (b := Proc.devRef .tc main_arg12) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg12 m ρ c)

theorem W5_arg12 : W5 m ρ c (Proc.devRef .tc main_arg12) = m ((c : Thread nD τ).loc main_arg12) :=
  (show W5 m ρ c (Proc.devRef .tc main_arg12) = W4 m ρ c (Proc.devRef .tc main_arg12) from
    W5_of_ne m ρ c main_arg12 (by decide)).trans (W4_arg12 m ρ c)

theorem W6_arg12 : W6 m ρ c (Proc.devRef .tc main_arg12) = m ((c : Thread nD τ).loc main_arg12) :=
  (show W6 m ρ c (Proc.devRef .tc main_arg12) = W5 m ρ c (Proc.devRef .tc main_arg12) from
    StableHlo.after_of_forall_not_mem (b := Proc.devRef .tc main_arg12) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_arg12 m ρ c)

theorem W7_arg12 : W7 m ρ c (Proc.devRef .tc main_arg12) = m ((c : Thread nD τ).loc main_arg12) :=
  (show W7 m ρ c (Proc.devRef .tc main_arg12) = W6 m ρ c (Proc.devRef .tc main_arg12) from
    W7_of_ne m ρ c main_arg12 (by decide)).trans (W6_arg12 m ρ c)

theorem W8_arg12 : W8 m ρ c (Proc.devRef .tc main_arg12) = m ((c : Thread nD τ).loc main_arg12) :=
  (show W8 m ρ c (Proc.devRef .tc main_arg12) = W7 m ρ c (Proc.devRef .tc main_arg12) from
    StableHlo.after_of_forall_not_mem (b := Proc.devRef .tc main_arg12) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_arg12 m ρ c)

theorem W9_arg12 : W9 m ρ c (Proc.devRef .tc main_arg12) = m ((c : Thread nD τ).loc main_arg12) :=
  (show W9 m ρ c (Proc.devRef .tc main_arg12) = W8 m ρ c (Proc.devRef .tc main_arg12) from
    W9_of_ne m ρ c main_arg12 (by decide)).trans (W8_arg12 m ρ c)

theorem W10_arg12 : W10 m ρ c (Proc.devRef .tc main_arg12) = m ((c : Thread nD τ).loc main_arg12) :=
  (show W10 m ρ c (Proc.devRef .tc main_arg12) = W9 m ρ c (Proc.devRef .tc main_arg12) from
    StableHlo.after_of_forall_not_mem (b := Proc.devRef .tc main_arg12) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W9_arg12 m ρ c)

theorem W1_arg13 : W1 m ρ c (Proc.devRef .tc main_arg13) = m ((c : Thread nD τ).loc main_arg13) :=
  (show W1 m ρ c (Proc.devRef .tc main_arg13) = W0 m ρ c (Proc.devRef .tc main_arg13) from
    W1_of_ne m ρ c main_arg13 (by decide)).trans (rfl)

theorem W2_arg13 : W2 m ρ c (Proc.devRef .tc main_arg13) = m ((c : Thread nD τ).loc main_arg13) :=
  (show W2 m ρ c (Proc.devRef .tc main_arg13) = W1 m ρ c (Proc.devRef .tc main_arg13) from
    StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg13 m ρ c)

theorem W3_arg13 : W3 m ρ c (Proc.devRef .tc main_arg13) = m ((c : Thread nD τ).loc main_arg13) :=
  (show W3 m ρ c (Proc.devRef .tc main_arg13) = W2 m ρ c (Proc.devRef .tc main_arg13) from
    W3_of_ne m ρ c main_arg13 (by decide)).trans (W2_arg13 m ρ c)

theorem W4_arg13 : W4 m ρ c (Proc.devRef .tc main_arg13) = m ((c : Thread nD τ).loc main_arg13) :=
  (show W4 m ρ c (Proc.devRef .tc main_arg13) = W3 m ρ c (Proc.devRef .tc main_arg13) from
    StableHlo.after_of_forall_not_mem (b := Proc.devRef .tc main_arg13) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg13 m ρ c)

theorem W5_arg13 : W5 m ρ c (Proc.devRef .tc main_arg13) = m ((c : Thread nD τ).loc main_arg13) :=
  (show W5 m ρ c (Proc.devRef .tc main_arg13) = W4 m ρ c (Proc.devRef .tc main_arg13) from
    W5_of_ne m ρ c main_arg13 (by decide)).trans (W4_arg13 m ρ c)

theorem W6_arg13 : W6 m ρ c (Proc.devRef .tc main_arg13) = m ((c : Thread nD τ).loc main_arg13) :=
  (show W6 m ρ c (Proc.devRef .tc main_arg13) = W5 m ρ c (Proc.devRef .tc main_arg13) from
    StableHlo.after_of_forall_not_mem (b := Proc.devRef .tc main_arg13) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_arg13 m ρ c)

theorem W7_arg13 : W7 m ρ c (Proc.devRef .tc main_arg13) = m ((c : Thread nD τ).loc main_arg13) :=
  (show W7 m ρ c (Proc.devRef .tc main_arg13) = W6 m ρ c (Proc.devRef .tc main_arg13) from
    W7_of_ne m ρ c main_arg13 (by decide)).trans (W6_arg13 m ρ c)

theorem W8_arg13 : W8 m ρ c (Proc.devRef .tc main_arg13) = m ((c : Thread nD τ).loc main_arg13) :=
  (show W8 m ρ c (Proc.devRef .tc main_arg13) = W7 m ρ c (Proc.devRef .tc main_arg13) from
    StableHlo.after_of_forall_not_mem (b := Proc.devRef .tc main_arg13) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_arg13 m ρ c)

theorem W9_arg13 : W9 m ρ c (Proc.devRef .tc main_arg13) = m ((c : Thread nD τ).loc main_arg13) :=
  (show W9 m ρ c (Proc.devRef .tc main_arg13) = W8 m ρ c (Proc.devRef .tc main_arg13) from
    W9_of_ne m ρ c main_arg13 (by decide)).trans (W8_arg13 m ρ c)

theorem W1_arg14 : W1 m ρ c (Proc.devRef .tc main_arg14) = m ((c : Thread nD τ).loc main_arg14) :=
  (show W1 m ρ c (Proc.devRef .tc main_arg14) = W0 m ρ c (Proc.devRef .tc main_arg14) from
    W1_of_ne m ρ c main_arg14 (by decide)).trans (rfl)

theorem W2_arg14 : W2 m ρ c (Proc.devRef .tc main_arg14) = m ((c : Thread nD τ).loc main_arg14) :=
  (show W2 m ρ c (Proc.devRef .tc main_arg14) = W1 m ρ c (Proc.devRef .tc main_arg14) from
    StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg14 m ρ c)

theorem W3_arg14 : W3 m ρ c (Proc.devRef .tc main_arg14) = m ((c : Thread nD τ).loc main_arg14) :=
  (show W3 m ρ c (Proc.devRef .tc main_arg14) = W2 m ρ c (Proc.devRef .tc main_arg14) from
    W3_of_ne m ρ c main_arg14 (by decide)).trans (W2_arg14 m ρ c)

theorem W4_arg14 : W4 m ρ c (Proc.devRef .tc main_arg14) = m ((c : Thread nD τ).loc main_arg14) :=
  (show W4 m ρ c (Proc.devRef .tc main_arg14) = W3 m ρ c (Proc.devRef .tc main_arg14) from
    StableHlo.after_of_forall_not_mem (b := Proc.devRef .tc main_arg14) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg14 m ρ c)

theorem W5_arg14 : W5 m ρ c (Proc.devRef .tc main_arg14) = m ((c : Thread nD τ).loc main_arg14) :=
  (show W5 m ρ c (Proc.devRef .tc main_arg14) = W4 m ρ c (Proc.devRef .tc main_arg14) from
    W5_of_ne m ρ c main_arg14 (by decide)).trans (W4_arg14 m ρ c)

theorem W6_arg14 : W6 m ρ c (Proc.devRef .tc main_arg14) = m ((c : Thread nD τ).loc main_arg14) :=
  (show W6 m ρ c (Proc.devRef .tc main_arg14) = W5 m ρ c (Proc.devRef .tc main_arg14) from
    StableHlo.after_of_forall_not_mem (b := Proc.devRef .tc main_arg14) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_arg14 m ρ c)

theorem W7_arg14 : W7 m ρ c (Proc.devRef .tc main_arg14) = m ((c : Thread nD τ).loc main_arg14) :=
  (show W7 m ρ c (Proc.devRef .tc main_arg14) = W6 m ρ c (Proc.devRef .tc main_arg14) from
    W7_of_ne m ρ c main_arg14 (by decide)).trans (W6_arg14 m ρ c)

theorem W8_arg14 : W8 m ρ c (Proc.devRef .tc main_arg14) = m ((c : Thread nD τ).loc main_arg14) :=
  (show W8 m ρ c (Proc.devRef .tc main_arg14) = W7 m ρ c (Proc.devRef .tc main_arg14) from
    StableHlo.after_of_forall_not_mem (b := Proc.devRef .tc main_arg14) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_arg14 m ρ c)

theorem W9_arg14 : W9 m ρ c (Proc.devRef .tc main_arg14) = m ((c : Thread nD τ).loc main_arg14) :=
  (show W9 m ρ c (Proc.devRef .tc main_arg14) = W8 m ρ c (Proc.devRef .tc main_arg14) from
    W9_of_ne m ρ c main_arg14 (by decide)).trans (W8_arg14 m ρ c)

theorem W10_arg14 : W10 m ρ c (Proc.devRef .tc main_arg14) = m ((c : Thread nD τ).loc main_arg14) :=
  (show W10 m ρ c (Proc.devRef .tc main_arg14) = W9 m ρ c (Proc.devRef .tc main_arg14) from
    StableHlo.after_of_forall_not_mem (b := Proc.devRef .tc main_arg14) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W9_arg14 m ρ c)

theorem W11_arg14 : W11 m ρ c (Proc.devRef .tc main_arg14) = m ((c : Thread nD τ).loc main_arg14) :=
  (show W11 m ρ c (Proc.devRef .tc main_arg14) = W10 m ρ c (Proc.devRef .tc main_arg14) from
    W11_of_ne m ρ c main_arg14 (by decide)).trans (W10_arg14 m ρ c)

theorem W12_arg14 : W12 m ρ c (Proc.devRef .tc main_arg14) = m ((c : Thread nD τ).loc main_arg14) :=
  (show W12 m ρ c (Proc.devRef .tc main_arg14) = W11 m ρ c (Proc.devRef .tc main_arg14) from
    StableHlo.after_of_forall_not_mem (b := Proc.devRef .tc main_arg14) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W11_arg14 m ρ c)

theorem W1_arg15 : W1 m ρ c (Proc.devRef .tc main_arg15) = m ((c : Thread nD τ).loc main_arg15) :=
  (show W1 m ρ c (Proc.devRef .tc main_arg15) = W0 m ρ c (Proc.devRef .tc main_arg15) from
    W1_of_ne m ρ c main_arg15 (by decide)).trans (rfl)

theorem W2_arg15 : W2 m ρ c (Proc.devRef .tc main_arg15) = m ((c : Thread nD τ).loc main_arg15) :=
  (show W2 m ρ c (Proc.devRef .tc main_arg15) = W1 m ρ c (Proc.devRef .tc main_arg15) from
    StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg15 m ρ c)

theorem W3_arg15 : W3 m ρ c (Proc.devRef .tc main_arg15) = m ((c : Thread nD τ).loc main_arg15) :=
  (show W3 m ρ c (Proc.devRef .tc main_arg15) = W2 m ρ c (Proc.devRef .tc main_arg15) from
    W3_of_ne m ρ c main_arg15 (by decide)).trans (W2_arg15 m ρ c)

theorem W4_arg15 : W4 m ρ c (Proc.devRef .tc main_arg15) = m ((c : Thread nD τ).loc main_arg15) :=
  (show W4 m ρ c (Proc.devRef .tc main_arg15) = W3 m ρ c (Proc.devRef .tc main_arg15) from
    StableHlo.after_of_forall_not_mem (b := Proc.devRef .tc main_arg15) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg15 m ρ c)

theorem W5_arg15 : W5 m ρ c (Proc.devRef .tc main_arg15) = m ((c : Thread nD τ).loc main_arg15) :=
  (show W5 m ρ c (Proc.devRef .tc main_arg15) = W4 m ρ c (Proc.devRef .tc main_arg15) from
    W5_of_ne m ρ c main_arg15 (by decide)).trans (W4_arg15 m ρ c)

theorem W6_arg15 : W6 m ρ c (Proc.devRef .tc main_arg15) = m ((c : Thread nD τ).loc main_arg15) :=
  (show W6 m ρ c (Proc.devRef .tc main_arg15) = W5 m ρ c (Proc.devRef .tc main_arg15) from
    StableHlo.after_of_forall_not_mem (b := Proc.devRef .tc main_arg15) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_arg15 m ρ c)

theorem W7_arg15 : W7 m ρ c (Proc.devRef .tc main_arg15) = m ((c : Thread nD τ).loc main_arg15) :=
  (show W7 m ρ c (Proc.devRef .tc main_arg15) = W6 m ρ c (Proc.devRef .tc main_arg15) from
    W7_of_ne m ρ c main_arg15 (by decide)).trans (W6_arg15 m ρ c)

theorem W8_arg15 : W8 m ρ c (Proc.devRef .tc main_arg15) = m ((c : Thread nD τ).loc main_arg15) :=
  (show W8 m ρ c (Proc.devRef .tc main_arg15) = W7 m ρ c (Proc.devRef .tc main_arg15) from
    StableHlo.after_of_forall_not_mem (b := Proc.devRef .tc main_arg15) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_arg15 m ρ c)

theorem W9_arg15 : W9 m ρ c (Proc.devRef .tc main_arg15) = m ((c : Thread nD τ).loc main_arg15) :=
  (show W9 m ρ c (Proc.devRef .tc main_arg15) = W8 m ρ c (Proc.devRef .tc main_arg15) from
    W9_of_ne m ρ c main_arg15 (by decide)).trans (W8_arg15 m ρ c)

theorem W10_arg15 : W10 m ρ c (Proc.devRef .tc main_arg15) = m ((c : Thread nD τ).loc main_arg15) :=
  (show W10 m ρ c (Proc.devRef .tc main_arg15) = W9 m ρ c (Proc.devRef .tc main_arg15) from
    StableHlo.after_of_forall_not_mem (b := Proc.devRef .tc main_arg15) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W9_arg15 m ρ c)

theorem W11_arg15 : W11 m ρ c (Proc.devRef .tc main_arg15) = m ((c : Thread nD τ).loc main_arg15) :=
  (show W11 m ρ c (Proc.devRef .tc main_arg15) = W10 m ρ c (Proc.devRef .tc main_arg15) from
    W11_of_ne m ρ c main_arg15 (by decide)).trans (W10_arg15 m ρ c)

theorem W1_arg16 : W1 m ρ c (Proc.devRef .tc main_arg16) = m ((c : Thread nD τ).loc main_arg16) :=
  (show W1 m ρ c (Proc.devRef .tc main_arg16) = W0 m ρ c (Proc.devRef .tc main_arg16) from
    W1_of_ne m ρ c main_arg16 (by decide)).trans (rfl)

theorem W2_arg16 : W2 m ρ c (Proc.devRef .tc main_arg16) = m ((c : Thread nD τ).loc main_arg16) :=
  (show W2 m ρ c (Proc.devRef .tc main_arg16) = W1 m ρ c (Proc.devRef .tc main_arg16) from
    StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg16 m ρ c)

theorem W3_arg16 : W3 m ρ c (Proc.devRef .tc main_arg16) = m ((c : Thread nD τ).loc main_arg16) :=
  (show W3 m ρ c (Proc.devRef .tc main_arg16) = W2 m ρ c (Proc.devRef .tc main_arg16) from
    W3_of_ne m ρ c main_arg16 (by decide)).trans (W2_arg16 m ρ c)

theorem W4_arg16 : W4 m ρ c (Proc.devRef .tc main_arg16) = m ((c : Thread nD τ).loc main_arg16) :=
  (show W4 m ρ c (Proc.devRef .tc main_arg16) = W3 m ρ c (Proc.devRef .tc main_arg16) from
    StableHlo.after_of_forall_not_mem (b := Proc.devRef .tc main_arg16) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg16 m ρ c)

theorem W5_arg16 : W5 m ρ c (Proc.devRef .tc main_arg16) = m ((c : Thread nD τ).loc main_arg16) :=
  (show W5 m ρ c (Proc.devRef .tc main_arg16) = W4 m ρ c (Proc.devRef .tc main_arg16) from
    W5_of_ne m ρ c main_arg16 (by decide)).trans (W4_arg16 m ρ c)

theorem W6_arg16 : W6 m ρ c (Proc.devRef .tc main_arg16) = m ((c : Thread nD τ).loc main_arg16) :=
  (show W6 m ρ c (Proc.devRef .tc main_arg16) = W5 m ρ c (Proc.devRef .tc main_arg16) from
    StableHlo.after_of_forall_not_mem (b := Proc.devRef .tc main_arg16) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_arg16 m ρ c)

theorem W7_arg16 : W7 m ρ c (Proc.devRef .tc main_arg16) = m ((c : Thread nD τ).loc main_arg16) :=
  (show W7 m ρ c (Proc.devRef .tc main_arg16) = W6 m ρ c (Proc.devRef .tc main_arg16) from
    W7_of_ne m ρ c main_arg16 (by decide)).trans (W6_arg16 m ρ c)

theorem W8_arg16 : W8 m ρ c (Proc.devRef .tc main_arg16) = m ((c : Thread nD τ).loc main_arg16) :=
  (show W8 m ρ c (Proc.devRef .tc main_arg16) = W7 m ρ c (Proc.devRef .tc main_arg16) from
    StableHlo.after_of_forall_not_mem (b := Proc.devRef .tc main_arg16) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_arg16 m ρ c)

theorem W9_arg16 : W9 m ρ c (Proc.devRef .tc main_arg16) = m ((c : Thread nD τ).loc main_arg16) :=
  (show W9 m ρ c (Proc.devRef .tc main_arg16) = W8 m ρ c (Proc.devRef .tc main_arg16) from
    W9_of_ne m ρ c main_arg16 (by decide)).trans (W8_arg16 m ρ c)

theorem W10_arg16 : W10 m ρ c (Proc.devRef .tc main_arg16) = m ((c : Thread nD τ).loc main_arg16) :=
  (show W10 m ρ c (Proc.devRef .tc main_arg16) = W9 m ρ c (Proc.devRef .tc main_arg16) from
    StableHlo.after_of_forall_not_mem (b := Proc.devRef .tc main_arg16) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W9_arg16 m ρ c)

theorem W11_arg16 : W11 m ρ c (Proc.devRef .tc main_arg16) = m ((c : Thread nD τ).loc main_arg16) :=
  (show W11 m ρ c (Proc.devRef .tc main_arg16) = W10 m ρ c (Proc.devRef .tc main_arg16) from
    W11_of_ne m ρ c main_arg16 (by decide)).trans (W10_arg16 m ρ c)

theorem W12_arg16 : W12 m ρ c (Proc.devRef .tc main_arg16) = m ((c : Thread nD τ).loc main_arg16) :=
  (show W12 m ρ c (Proc.devRef .tc main_arg16) = W11 m ρ c (Proc.devRef .tc main_arg16) from
    StableHlo.after_of_forall_not_mem (b := Proc.devRef .tc main_arg16) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W11_arg16 m ρ c)

theorem W1_arg17 : W1 m ρ c (Proc.devRef .tc main_arg17) = m ((c : Thread nD τ).loc main_arg17) :=
  (show W1 m ρ c (Proc.devRef .tc main_arg17) = W0 m ρ c (Proc.devRef .tc main_arg17) from
    W1_of_ne m ρ c main_arg17 (by decide)).trans (rfl)

theorem W2_arg17 : W2 m ρ c (Proc.devRef .tc main_arg17) = m ((c : Thread nD τ).loc main_arg17) :=
  (show W2 m ρ c (Proc.devRef .tc main_arg17) = W1 m ρ c (Proc.devRef .tc main_arg17) from
    StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_arg17 m ρ c)

theorem W3_arg17 : W3 m ρ c (Proc.devRef .tc main_arg17) = m ((c : Thread nD τ).loc main_arg17) :=
  (show W3 m ρ c (Proc.devRef .tc main_arg17) = W2 m ρ c (Proc.devRef .tc main_arg17) from
    W3_of_ne m ρ c main_arg17 (by decide)).trans (W2_arg17 m ρ c)

theorem W4_arg17 : W4 m ρ c (Proc.devRef .tc main_arg17) = m ((c : Thread nD τ).loc main_arg17) :=
  (show W4 m ρ c (Proc.devRef .tc main_arg17) = W3 m ρ c (Proc.devRef .tc main_arg17) from
    StableHlo.after_of_forall_not_mem (b := Proc.devRef .tc main_arg17) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_arg17 m ρ c)

theorem W5_arg17 : W5 m ρ c (Proc.devRef .tc main_arg17) = m ((c : Thread nD τ).loc main_arg17) :=
  (show W5 m ρ c (Proc.devRef .tc main_arg17) = W4 m ρ c (Proc.devRef .tc main_arg17) from
    W5_of_ne m ρ c main_arg17 (by decide)).trans (W4_arg17 m ρ c)

theorem W6_arg17 : W6 m ρ c (Proc.devRef .tc main_arg17) = m ((c : Thread nD τ).loc main_arg17) :=
  (show W6 m ρ c (Proc.devRef .tc main_arg17) = W5 m ρ c (Proc.devRef .tc main_arg17) from
    StableHlo.after_of_forall_not_mem (b := Proc.devRef .tc main_arg17) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_arg17 m ρ c)

theorem W7_arg17 : W7 m ρ c (Proc.devRef .tc main_arg17) = m ((c : Thread nD τ).loc main_arg17) :=
  (show W7 m ρ c (Proc.devRef .tc main_arg17) = W6 m ρ c (Proc.devRef .tc main_arg17) from
    W7_of_ne m ρ c main_arg17 (by decide)).trans (W6_arg17 m ρ c)

theorem W8_arg17 : W8 m ρ c (Proc.devRef .tc main_arg17) = m ((c : Thread nD τ).loc main_arg17) :=
  (show W8 m ρ c (Proc.devRef .tc main_arg17) = W7 m ρ c (Proc.devRef .tc main_arg17) from
    StableHlo.after_of_forall_not_mem (b := Proc.devRef .tc main_arg17) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_arg17 m ρ c)

theorem W9_arg17 : W9 m ρ c (Proc.devRef .tc main_arg17) = m ((c : Thread nD τ).loc main_arg17) :=
  (show W9 m ρ c (Proc.devRef .tc main_arg17) = W8 m ρ c (Proc.devRef .tc main_arg17) from
    W9_of_ne m ρ c main_arg17 (by decide)).trans (W8_arg17 m ρ c)

theorem W10_arg17 : W10 m ρ c (Proc.devRef .tc main_arg17) = m ((c : Thread nD τ).loc main_arg17) :=
  (show W10 m ρ c (Proc.devRef .tc main_arg17) = W9 m ρ c (Proc.devRef .tc main_arg17) from
    StableHlo.after_of_forall_not_mem (b := Proc.devRef .tc main_arg17) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W9_arg17 m ρ c)

theorem W11_arg17 : W11 m ρ c (Proc.devRef .tc main_arg17) = m ((c : Thread nD τ).loc main_arg17) :=
  (show W11 m ρ c (Proc.devRef .tc main_arg17) = W10 m ρ c (Proc.devRef .tc main_arg17) from
    W11_of_ne m ρ c main_arg17 (by decide)).trans (W10_arg17 m ρ c)

end Cert.KernelChain

end
-- ==== Proof.Net.lean ====
/-
  The message-passing network that both programs compute, written once as a composition of stages over whole arrays.
  Bonds carry messages: the bond input is `f_bonds · W_i`; a message is its positive part; one round replaces a
  bond's message by the positive part of the bond input plus `(sum of the messages of the bonds entering its
  source atom - the message of its reverse bond) · W_h`. After two rounds an atom's hidden state is the positive
  part of `[f_atoms | sum of entering messages] · W_o + b_o`. Three read-outs follow: per atom
  `hidden · W_node + b_node`; per undirected bond `(half the sum of its two end atoms' hidden states) · W_edge +
  b_edge`; per molecule `(positive part of (sum of its atoms' hidden states) · W_g1 + b_g1) · W_g2 + b_g2`.
  An index below zero counts from the end of its axis (`wrap…`).
  The stages that look arrays up through index arrays (neighbour sum, bond difference, pair average, molecule sum)
  are carried as whole functions and never opened: both programs apply them, spelled alike, to equal arrays.
-/
import proofs.«111378_j25486335935037_1_alg».proof.ReferenceIdeal
import proofs.«111378_j25486335935037_1_alg».proof.Proof.Gen.ReferenceIdeal
import Idealize.ShloMosaic.PureOps.Ideal

noncomputable section

namespace Cert.Net

open Idealize.ShloMosaic Cert.ReferenceIdeal Cert.ReferenceIdeal.Gen

variable {F : FTy → Type} [FloatOps F]

/-- The bond input `f_bonds · W_i`. -/
def bondInput (fb : FVec F S200000x147 .f32) (wi : FVec F S147x300 .f32) : FVec F S200000x300 .f32 :=
  Host.dotGeneral dot_S200000x147_S147x300_S200000x300_1_0_0_1_n_n none fb wi

/-- The positive part of an array of bond rows. -/
def reluBonds (x : FVec F S200000x300 .f32) : FVec F S200000x300 .f32 :=
  maximumf x (broadcastInDim S200000x300 ![] bcast_S_S200000x300 (constant S_ .f32 0x00000000#32))

/-- Neighbour-bond indices with negative ones counted from the end of the 200000 bonds. -/
def wrapNbr (a2b : IVec S100000x6 32) : IVec S100000x6 32 :=
  select (cmpi .slt a2b (broadcastInDim S100000x6 ![] bcast_S_S100000x6 (constantI S_ 32 0#32))) (addi a2b (broadcastInDim S100000x6 ![] bcast_S_S100000x6 (constantI S_ 32 200000#32))) a2b

/-- Source-atom indices with negative ones counted from the end of the 100000 atoms. -/
def wrapAtom (b2a : IVec S200000 32) : IVec S200000 32 :=
  select (cmpi .slt b2a (broadcastInDim S200000 ![] bcast_S_S200000 (constantI S_ 32 0#32))) (addi b2a (broadcastInDim S200000 ![] bcast_S_S200000 (constantI S_ 32 100000#32))) b2a

/-- Reverse-bond indices with negative ones counted from the end of the 200000 bonds. -/
def wrapRev (b2revb : IVec S200000 32) : IVec S200000 32 :=
  select (cmpi .slt b2revb (broadcastInDim S200000 ![] bcast_S_S200000 (constantI S_ 32 0#32))) (addi b2revb (broadcastInDim S200000 ![] bcast_S_S200000 (constantI S_ 32 200000#32))) b2revb

/-- Per atom, the sum of the messages of its six listed bonds. -/
def nbrSum (x : FVec F S200000x300 .f32) (a2b : IVec S100000x6 32) : FVec F S100000x300 .f32 :=
  Host.reduceAdd (Host.gather gather_S200000x300_S100000x6x1_S100000x6x300_2_0_n_n_0_2_1300 x (broadcastInDim S100000x6x1 ![0, 1] bcast_S100000x6_S100000x6x1_0_1 (wrapNbr a2b))) (constant S_ .f32 0x00000000#32) reducesTo_S100000x6x300_S100000x300_d1 h_S_

/-- Per bond, the neighbour sum at its source atom minus the message of its reverse bond. -/
def bondDiff (x : FVec F S200000x300 .f32) (a2b : IVec S100000x6 32) (b2a b2revb : IVec S200000 32) : FVec F S200000x300 .f32 :=
  subf (Host.gather gather_S100000x300_S200000x1_S200000x300_1_0_n_n_0_1_1300 (nbrSum x a2b) (broadcastInDim S200000x1 ![0] bcast_S200000_S200000x1_0 (wrapAtom b2a))) (Host.gather gather_S200000x300_S200000x1_S200000x300_1_0_n_n_0_1_1300 x (broadcastInDim S200000x1 ![0] bcast_S200000_S200000x1_0 (wrapRev b2revb)))

/-- One round's new messages from the bond input `inp` and the bond differences `d`: the positive part of `inp + d · W_h`. -/
def bondUpdate (inp d : FVec F S200000x300 .f32) (wh : FVec F S300x300 .f32) : FVec F S200000x300 .f32 :=
  maximumf (addf inp (Host.dotGeneral dot_S200000x300_S300x300_S200000x300_1_0_0_1_n_n none d wh)) (broadcastInDim S200000x300 ![] bcast_S_S200000x300 (constant S_ .f32 0x00000000#32))

/-- An atom's hidden state: the positive part of `[f_atoms | am] · W_o + b_o`. -/
def atomHidden (fa : FVec F S100000x133 .f32) (am : FVec F S100000x300 .f32) (wo : FVec F S433x300 .f32) (bo : FVec F S300 .f32) : FVec F S100000x300 .f32 :=
  maximumf (addf (Host.dotGeneral dot_S100000x433_S433x300_S100000x300_1_0_0_1_n_n none (concatenate S100000x433 1 [⟨S100000x133, fa⟩, ⟨S100000x300, am⟩] concatenates_S100000x133_S100000x300_S100000x433_d1) wo) (broadcastInDim S100000x300 ![0, 1] bcast_S1x300_S100000x300_0_1 (broadcastInDim S1x300 ![1] bcast_S300_S1x300_1 bo))) (broadcastInDim S100000x300 ![] bcast_S_S100000x300 (constant S_ .f32 0x00000000#32))

/-- Per atom, `h · W_node + b_node`. -/
def nodeHead (h : FVec F S100000x300 .f32) (wn : FVec F S300x133 .f32) (bn : FVec F S133 .f32) : FVec F S100000x133 .f32 :=
  addf (Host.dotGeneral dot_S100000x300_S300x133_S100000x133_1_0_0_1_n_n none h wn) (broadcastInDim S100000x133 ![0, 1] bcast_S1x133_S100000x133_0_1 (broadcastInDim S1x133 ![1] bcast_S133_S1x133_1 bn))

/-- Per undirected bond (the even bond of each reverse pair), half the sum of the hidden states of its two end atoms:
    the source atom of the even bond and the source atom of its reverse. -/
def pairAvg (h : FVec F S100000x300 .f32) (b2a b2revb : IVec S200000 32) : FVec F S100000x300 .f32 :=
  mulf (broadcastInDim S100000x300 ![] bcast_S_S100000x300 (constant S_ .f32 0x3F000000#32)) (addf (Host.gather gather_S100000x300_S100000x1_S100000x300_1_0_n_n_0_1_1300 h (broadcastInDim S100000x1 ![0] bcast_S100000_S100000x1_0 (select (cmpi .slt (Host.gather gather_S200000_S100000x1_S100000_n_0_n_n_0_1_1 b2a (broadcastInDim S100000x1 ![0] bcast_S100000_S100000x1_0 (select (cmpi .slt (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 0#32))) (addi (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 200000#32))) (addi (broadcastInDim S100000 ![] bcast_S_S100000 (constantI S_ 32 0#32)) (muli (broadcastInDim S100000 ![] bcast_S_S100000 (constantI S_ 32 2#32)) (iotaInDim S100000 32 0)))))) (broadcastInDim S100000 ![] bcast_S_S100000 (constantI S_ 32 0#32))) (addi (Host.gather gather_S200000_S100000x1_S100000_n_0_n_n_0_1_1 b2a (broadcastInDim S100000x1 ![0] bcast_S100000_S100000x1_0 (select (cmpi .slt (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 0#32))) (addi (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 200000#32))) (addi (broadcastInDim S100000 ![] bcast_S_S100000 (constantI S_ 32 0#32)) (muli (broadcastInDim S100000 ![] bcast_S_S100000 (constantI S_ 32 2#32)) (iotaInDim S100000 32 0)))))) (broadcastInDim S100000 ![] bcast_S_S100000 (constantI S_ 32 100000#32))) (Host.gather gather_S200000_S100000x1_S100000_n_0_n_n_0_1_1 b2a (broadcastInDim S100000x1 ![0] bcast_S100000_S100000x1_0 (select (cmpi .slt (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 0#32))) (addi (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 200000#32))) (addi (broadcastInDim S100000 ![] bcast_S_S100000 (constantI S_ 32 0#32)) (muli (broadcastInDim S100000 ![] bcast_S_S100000 (constantI S_ 32 2#32)) (iotaInDim S100000 32 0))))))))) (Host.gather gather_S100000x300_S100000x1_S100000x300_1_0_n_n_0_1_1300 h (broadcastInDim S100000x1 ![0] bcast_S100000_S100000x1_0 (select (cmpi .slt (Host.gather gather_S200000_S100000x1_S100000_n_0_n_n_0_1_1 b2a (broadcastInDim S100000x1 ![0] bcast_S100000_S100000x1_0 (select (cmpi .slt (Host.gather gather_S200000_S100000x1_S100000_n_0_n_n_0_1_1 b2revb (broadcastInDim S100000x1 ![0] bcast_S100000_S100000x1_0 (select (cmpi .slt (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 0#32))) (addi (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 200000#32))) (addi (broadcastInDim S100000 ![] bcast_S_S100000 (constantI S_ 32 0#32)) (muli (broadcastInDim S100000 ![] bcast_S_S100000 (constantI S_ 32 2#32)) (iotaInDim S100000 32 0)))))) (broadcastInDim S100000 ![] bcast_S_S100000 (constantI S_ 32 0#32))) (addi (Host.gather gather_S200000_S100000x1_S100000_n_0_n_n_0_1_1 b2revb (broadcastInDim S100000x1 ![0] bcast_S100000_S100000x1_0 (select (cmpi .slt (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 0#32))) (addi (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 200000#32))) (addi (broadcastInDim S100000 ![] bcast_S_S100000 (constantI S_ 32 0#32)) (muli (broadcastInDim S100000 ![] bcast_S_S100000 (constantI S_ 32 2#32)) (iotaInDim S100000 32 0)))))) (broadcastInDim S100000 ![] bcast_S_S100000 (constantI S_ 32 200000#32))) (Host.gather gather_S200000_S100000x1_S100000_n_0_n_n_0_1_1 b2revb (broadcastInDim S100000x1 ![0] bcast_S100000_S100000x1_0 (select (cmpi .slt (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 0#32))) (addi (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 200000#32))) (addi (broadcastInDim S100000 ![] bcast_S_S100000 (constantI S_ 32 0#32)) (muli (broadcastInDim S100000 ![] bcast_S_S100000 (constantI S_ 32 2#32)) (iotaInDim S100000 32 0))))))))) (broadcastInDim S100000 ![] bcast_S_S100000 (constantI S_ 32 0#32))) (addi (Host.gather gather_S200000_S100000x1_S100000_n_0_n_n_0_1_1 b2a (broadcastInDim S100000x1 ![0] bcast_S100000_S100000x1_0 (select (cmpi .slt (Host.gather gather_S200000_S100000x1_S100000_n_0_n_n_0_1_1 b2revb (broadcastInDim S100000x1 ![0] bcast_S100000_S100000x1_0 (select (cmpi .slt (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 0#32))) (addi (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 200000#32))) (addi (broadcastInDim S100000 ![] bcast_S_S100000 (constantI S_ 32 0#32)) (muli (broadcastInDim S100000 ![] bcast_S_S100000 (constantI S_ 32 2#32)) (iotaInDim S100000 32 0)))))) (broadcastInDim S100000 ![] bcast_S_S100000 (constantI S_ 32 0#32))) (addi (Host.gather gather_S200000_S100000x1_S100000_n_0_n_n_0_1_1 b2revb (broadcastInDim S100000x1 ![0] bcast_S100000_S100000x1_0 (select (cmpi .slt (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 0#32))) (addi (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 200000#32))) (addi (broadcastInDim S100000 ![] bcast_S_S100000 (constantI S_ 32 0#32)) (muli (broadcastInDim S100000 ![] bcast_S_S100000 (constantI S_ 32 2#32)) (iotaInDim S100000 32 0)))))) (broadcastInDim S100000 ![] bcast_S_S100000 (constantI S_ 32 200000#32))) (Host.gather gather_S200000_S100000x1_S100000_n_0_n_n_0_1_1 b2revb (broadcastInDim S100000x1 ![0] bcast_S100000_S100000x1_0 (select (cmpi .slt (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 0#32))) (addi (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 200000#32))) (addi (broadcastInDim S100000 ![] bcast_S_S100000 (constantI S_ 32 0#32)) (muli (broadcastInDim S100000 ![] bcast_S_S100000 (constantI S_ 32 2#32)) (iotaInDim S100000 32 0))))))))) (broadcastInDim S100000 ![] bcast_S_S100000 (constantI S_ 32 100000#32))) (Host.gather gather_S200000_S100000x1_S100000_n_0_n_n_0_1_1 b2a (broadcastInDim S100000x1 ![0] bcast_S100000_S100000x1_0 (select (cmpi .slt (Host.gather gather_S200000_S100000x1_S100000_n_0_n_n_0_1_1 b2revb (broadcastInDim S100000x1 ![0] bcast_S100000_S100000x1_0 (select (cmpi .slt (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 0#32))) (addi (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 200000#32))) (addi (broadcastInDim S100000 ![] bcast_S_S100000 (constantI S_ 32 0#32)) (muli (broadcastInDim S100000 ![] bcast_S_S100000 (constantI S_ 32 2#32)) (iotaInDim S100000 32 0)))))) (broadcastInDim S100000 ![] bcast_S_S100000 (constantI S_ 32 0#32))) (addi (Host.gather gather_S200000_S100000x1_S100000_n_0_n_n_0_1_1 b2revb (broadcastInDim S100000x1 ![0] bcast_S100000_S100000x1_0 (select (cmpi .slt (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 0#32))) (addi (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 200000#32))) (addi (broadcastInDim S100000 ![] bcast_S_S100000 (constantI S_ 32 0#32)) (muli (broadcastInDim S100000 ![] bcast_S_S100000 (constantI S_ 32 2#32)) (iotaInDim S100000 32 0)))))) (broadcastInDim S100000 ![] bcast_S_S100000 (constantI S_ 32 200000#32))) (Host.gather gather_S200000_S100000x1_S100000_n_0_n_n_0_1_1 b2revb (broadcastInDim S100000x1 ![0] bcast_S100000_S100000x1_0 (select (cmpi .slt (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 0#32))) (addi (addi (broadcastInDim S100000 ![] bcast_S_S100000 (constantI S_ 32 0#32)) (muli (broadcastInDim S100000 ![] bcast_S_S100000 (constantI S_ 32 2#32)) (iotaInDim S100000 32 0))) (broadcastInDim S100000 ![] bcast_S_S100000 (constantI S_ 32 200000#32))) (addi (broadcastInDim S100000 ![] bcast_S_S100000 (constantI S_ 32 0#32)) (muli (broadcastInDim S100000 ![] bcast_S_S100000 (constantI S_ 32 2#32)) (iotaInDim S100000 32 0)))))))))))))

/-- Per undirected bond, `hv · W_edge + b_edge`. -/
def edgeHead (hv : FVec F S100000x300 .f32) (we : FVec F S300x14 .f32) (be : FVec F S14 .f32) : FVec F S100000x14 .f32 :=
  addf (Host.dotGeneral dot_S100000x300_S300x14_S100000x14_1_0_0_1_n_n none hv we) (broadcastInDim S100000x14 ![0, 1] bcast_S1x14_S100000x14_0_1 (broadcastInDim S1x14 ![1] bcast_S14_S1x14_1 be))

/-- Per molecule, the sum of the hidden states of its atoms. -/
def poolMols (h : FVec F S100000x300 .f32) (gidx : IVec S100000 32) : FVec F S2000x300 .f32 :=
  Host.scatterAdd scatter_S2000x300_S100000x1_S100000x300_1_0_0_1 (broadcastInDim S2000x300 ![] bcast_S_S2000x300 (constant S_ .f32 0x00000000#32)) (broadcastInDim S100000x1 ![0] bcast_S100000_S100000x1_0 gidx) h

/-- Per molecule, `(positive part of g · W_g1 + b_g1) · W_g2 + b_g2`. -/
def graphHead (g : FVec F S2000x300 .f32) (w1 : FVec F S300x300 .f32) (b1 : FVec F S300 .f32) (w2 : FVec F S300x1 .f32) (b2 : FVec F S1 .f32) : FVec F S2000x1 .f32 :=
  addf (Host.dotGeneral dot_S2000x300_S300x1_S2000x1_1_0_0_1_n_n none (maximumf (addf (Host.dotGeneral dot_S2000x300_S300x300_S2000x300_1_0_0_1_n_n none g w1) (broadcastInDim S2000x300 ![0, 1] bcast_S1x300_S2000x300_0_1 (broadcastInDim S1x300 ![1] bcast_S300_S1x300_1 b1))) (broadcastInDim S2000x300 ![] bcast_S_S2000x300 (constant S_ .f32 0x00000000#32))) w2) (broadcastInDim S2000x1 ![0, 1] bcast_S1x1_S2000x1_0_1 (broadcastInDim S1x1 ![1] bcast_S1_S1x1_1 b2))

/-! ## The rounds and the three results -/

/-- The messages after the first round. -/
def msg1 (fb : FVec F S200000x147 .f32) (wi : FVec F S147x300 .f32) (wh : FVec F S300x300 .f32) (a2b : IVec S100000x6 32) (b2a b2revb : IVec S200000 32) : FVec F S200000x300 .f32 :=
  bondUpdate (bondInput fb wi) (bondDiff (reluBonds (bondInput fb wi)) a2b b2a b2revb) wh

/-- The messages after the second round. -/
def msg2 (fb : FVec F S200000x147 .f32) (wi : FVec F S147x300 .f32) (wh : FVec F S300x300 .f32) (a2b : IVec S100000x6 32) (b2a b2revb : IVec S200000 32) : FVec F S200000x300 .f32 :=
  bondUpdate (bondInput fb wi) (bondDiff (msg1 fb wi wh a2b b2a b2revb) a2b b2a b2revb) wh

/-- The atoms' hidden states. -/
def hidden (fa : FVec F S100000x133 .f32) (fb : FVec F S200000x147 .f32) (a2b : IVec S100000x6 32) (b2a b2revb : IVec S200000 32)
    (wi : FVec F S147x300 .f32) (wh : FVec F S300x300 .f32) (wo : FVec F S433x300 .f32) (bo : FVec F S300 .f32) : FVec F S100000x300 .f32 :=
  atomHidden fa (nbrSum (msg2 fb wi wh a2b b2a b2revb) a2b) wo bo

end Cert.Net

end
-- ==== Proof.LibBlockProduct.lean ====
/-
  A matrix product against a concatenation, block by block, over the extended reals.

  `mm x w` is the matrix product read entry by entry: entry `(p, q)` is `Σ_k x (p, k) · w (k, q)`. When the left factor is
  a concatenation `[x | y]` along its columns, the sum over the `a + b` columns splits into the sum over the first `a` and the
  sum over the last `b`, so the product is the product of `x` with the first `a` rows of `w` plus the product of `y` with the
  last `b` rows. Nothing but regrouping one finite sum is used, so the law holds at infinite entries too. It is what joins a
  program that multiplies a concatenation `concat [x, y] @ W` to one that splits the weights, `x @ W[:a] + y @ W[a:]`.

  The hypotheses are stated entry by entry, so that the concatenation and the two row blocks can be any terms that read
  that way (a host `concatenate`, an `extractStridedSlice`, a window's block).
-/
import Idealize.ShloMosaic.PureOps.Ideal.Laws
import Idealize.ShloMosaic.Lib.ValueIdx

noncomputable section

open scoped BigOperators

namespace Idealize.ShloMosaic.BlockProduct

open Idealize.ShloMosaic Idealize.ShloMosaic.ValueIdx

/-- A matrix of extended reals with `r` rows and `c` columns. -/
abbrev Mat (r c : Nat) : Type := (⟨2, ![r, c]⟩ : Shape).Idx → EReal

/-- The matrix product: entry `(p, q)` is `Σ_k x (p, k) · w (k, q)`. -/
def mm {M K N : Nat} (x : Mat M K) (w : Mat K N) : Mat M N :=
  fun i => ∑ k : Fin K, x (ix2 (i 0) k) * w (ix2 k (i 1))

/-- The product at the index built from a row and a column. -/
theorem mm_apply {M K N : Nat} (x : Mat M K) (w : Mat K N) (p : Fin M) (q : Fin N) :
    mm x w (ix2 p q) = ∑ k : Fin K, x (ix2 p k) * w (ix2 k q) := rfl

/-- A product against a concatenation is the sum of the two products against the row blocks: with `cat = [x | y]` along the
    columns, `w₁` the first `a` rows of `w` and `w₂` the remaining `b`,
    `Σ_{k < a + b} cat (p, k) · w (k, q) = Σ_{k < a} x (p, k) · w₁ (k, q) + Σ_{k < b} y (p, k) · w₂ (k, q)`. -/
theorem mm_concat {A a b N : Nat} (x : Mat A a) (y : Mat A b) (cat : Mat A (a + b)) (w : Mat (a + b) N)
    (w₁ : Mat a N) (w₂ : Mat b N)
    (hx : ∀ (p : Fin A) (k : Fin a), cat (ix2 p (Fin.castAdd b k)) = x (ix2 p k))
    (hy : ∀ (p : Fin A) (k : Fin b), cat (ix2 p (Fin.natAdd a k)) = y (ix2 p k))
    (h₁ : ∀ (k : Fin a) (q : Fin N), w₁ (ix2 k q) = w (ix2 (Fin.castAdd b k) q))
    (h₂ : ∀ (k : Fin b) (q : Fin N), w₂ (ix2 k q) = w (ix2 (Fin.natAdd a k) q))
    (p : Fin A) (q : Fin N) :
    mm cat w (ix2 p q) = mm x w₁ (ix2 p q) + mm y w₂ (ix2 p q) := by
  rw [mm_apply, mm_apply, mm_apply, Fin.sum_univ_add]
  congr 1
  · exact Finset.sum_congr rfl fun k _ => by rw [hx, h₁]
  · exact Finset.sum_congr rfl fun k _ => by rw [hy, h₂]

end Idealize.ShloMosaic.BlockProduct

end
-- ==== Proof.Stages.lean ====
/-
  The arithmetic of one dense stage, entry by entry over the extended reals, for matrices of any extents:
  the matrix product `mm` (the block-product module), the positive part `pos`, the entrywise sum `plus`, and
  `plusRow`, a matrix with one row `b` added to each of its rows. A stage of the network is a composition of
  these; a row tile of such a composition depends only on the same rows of its row-tiled operands, which is what
  lets a kernel that walks the rows tile by tile compute it.
-/
import proofs.«111378_j25486335935037_1_alg».proof.Proof.LibBlockProduct
import Idealize.ShloMosaic.PureOps.Ideal
import Idealize.ShloMosaic.Lib.ValueIdx

noncomputable section

namespace Cert.Stages

open Idealize.ShloMosaic Idealize.ShloMosaic.ValueIdx Idealize.ShloMosaic.BlockProduct

variable {M N : ℕ}

/-- The positive part, entry by entry: `max x 0`. -/
def pos (x : Mat M N) : Mat M N := fun i => max (x i) 0

/-- The entrywise sum. -/
def plus (x y : Mat M N) : Mat M N := fun i => x i + y i

/-- The row `b` added to every row of `x`. -/
def plusRow (x : Mat M N) (b : Mat 1 N) : Mat M N := fun i => x i + b (ix2 (0 : Fin 1) (i 1))

theorem pos_apply (x : Mat M N) (i : (⟨2, ![M, N]⟩ : Shape).Idx) : pos x i = max (x i) 0 := rfl

theorem plus_apply (x y : Mat M N) (i : (⟨2, ![M, N]⟩ : Shape).Idx) : plus x y i = x i + y i := rfl

theorem plusRow_apply (x : Mat M N) (b : Mat 1 N) (p : Fin M) (q : Fin N) :
    plusRow x b (ix2 p q) = x (ix2 p q) + b (ix2 (0 : Fin 1) q) := rfl

end Cert.Stages

end
-- ==== Proof.LibPlainDot.lean ====
/-
  The plain matrix product read at an index.

  For a left operand `[M, K]`, a right operand `[K, N]` and a result `[M, N]` with the one contracted axis the left's
  columns and the right's rows, the operand indices at result index `(p, q)` and contraction position `k` are `(p, k)`
  and `(k, q)`; so the contraction's sum, taken over the contraction shape's indices, is the textbook
  `Σ_{k < K} lhs (p, k) · rhs (k, q)`. At the extended reals both a kernel's matrix unit product into a zero
  accumulator and the host's `dot_general` are that sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The left operand's row is the result's row … -/
theorem lhs_row (i : (⟨2, ![M, N]⟩ : Shape).Idx) (k : (DotDims.plain M K N).contr.Idx) :
    ((DotDims.plain M K N).lhsIdx i k (0 : Fin 2)).val = (i 0).val := by
  unfold DotDims.lhsIdx
  rw [dif_neg (show ¬ (0 : Fin 2) ∈ (DotDims.plain M K N).lhsBatch from List.not_mem_nil),
    dif_pos (show (0 : Fin 2) ∈ (DotDims.plain M K N).lhsNonContracting from List.mem_singleton.mpr rfl)]
  rfl

/-- … its column the contraction position; -/
theorem lhs_col (i : (⟨2, ![M, N]⟩ : Shape).Idx) (k : (DotDims.plain M K N).contr.Idx) :
    ((DotDims.plain M K N).lhsIdx i k (1 : Fin 2)).val = (k ⟨0, Nat.one_pos⟩).val :=
  (DotDims.plain M K N).lhsIdx_val_of_single rfl i k

/-- the right operand's row is the contraction position … -/
theorem rhs_row (i : (⟨2, ![M, N]⟩ : Shape).Idx) (k : (DotDims.plain M K N).contr.Idx) :
    ((DotDims.plain M K N).rhsIdx i k (0 : Fin 2)).val = (k ⟨0, Nat.one_pos⟩).val :=
  (DotDims.plain M K N).rhsIdx_val_of_single rfl i k

/-- … and its column the result's column. -/
theorem rhs_col (i : (⟨2, ![M, N]⟩ : Shape).Idx) (k : (DotDims.plain M K N).contr.Idx) :
    ((DotDims.plain M K N).rhsIdx i k (1 : Fin 2)).val = (i 1).val := by
  unfold DotDims.rhsIdx
  rw [dif_neg (show ¬ (1 : Fin 2) ∈ (DotDims.plain M K N).rhsBatch from List.not_mem_nil),
    dif_pos (show (1 : Fin 2) ∈ (DotDims.plain M K N).rhsNonContracting from List.mem_singleton.mpr rfl)]
  rfl

/-- The contraction's sum at result index `(p, q)` is `Σ_{k < K} lhs (p, k) · rhs (k, q)`. -/
theorem contraction_sum (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- A kernel's product into the zero accumulator, at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply _ prec lhs rhs (ix2 p q)).trans (contraction_sum lhs rhs p q)

/-- The host's `dot_general`, at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply _ prec sched lhs rhs (ix2 p q)).trans (contraction_sum lhs rhs p q)

end Idealize.ShloMosaic.PlainDot

end
-- ==== Proof.LibKeepdims.lean ====
/-
  Layout operations on a column, read at an index. A kernel that forms an outer difference or an outer product of two
  vectors writes `x[:, None]` and `y[None, :]`: a length-`a` vector viewed as an `a × 1` column or a `1 × a` row and
  then spread over an `a × b` array. The row forms are in the library; these are the column forms, and the two casts
  that drop the leading unit axes of a pipelined block. Each lemma names the one operand entry an entry of the result
  reads, by coordinates.
-/
import Idealize.ShloMosaic.Lib.ValueIdx
import Idealize.ShloMosaic.Lib.ValueLayout
import Idealize.ShloMosaic.Lib.Pipeline.Value

namespace Idealize.ShloMosaic.Keepdims

open Idealize.ShloMosaic Idealize.ShloMosaic.ValueIdx

variable {α : Type}

/-- An `[a, 1]` column cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` cast to the `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column spread over `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` block cast to `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A `[1, 1, a]` block cast to `[a]` reads, at `i`, the block at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

end Idealize.ShloMosaic.Keepdims
-- ==== Proof.StageLaws.lean ====
/-
  The stages of the message-passing network, spelled with the host operations of a whole-array program, are the
  index-form stages: the same arrays on the extended reals, read entry by entry.

  * A host `dot_general` with the plain dimension numbers (left columns contracted with right rows, no batch axes)
    is the matrix product `mm`: entry `(p, q)` is `Σ_k x (p, k) · w (k, q)`.
  * A maximum against the zero scalar spread over the array is the positive part `pos`: the spread reads the scalar's one
    entry, whose word is the zero word, the real `0`.
  * Adding a vector laid along a row, `[N] → [1, N]`, and then spread over the rows, `[1, N] → [M, N]`, is `plusRow` of
    the vector viewed as one row: both read the vector's entry at the column.
  * A product against a concatenation `[x | y]` along the columns is the product of `x` with the first rows of the
    weights plus the product of `y` with the remaining rows: the sum over the `a + b` columns regrouped as the sum over
    the first `a` and the sum over the last `b`. Only this regrouping of one finite sum is used, so the law holds at
    infinite entries as well.
  The laws are proved for matrices of any extents and then read at the network's extents.
-/
import proofs.«111378_j25486335935037_1_alg».proof.Proof.Net
import proofs.«111378_j25486335935037_1_alg».proof.Proof.Stages
import proofs.«111378_j25486335935037_1_alg».proof.Proof.LibBlockProduct
import proofs.«111378_j25486335935037_1_alg».proof.Proof.LibPlainDot
import proofs.«111378_j25486335935037_1_alg».proof.Proof.LibKeepdims
import proofs.«111378_j25486335935037_1_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.StageLaws

open Idealize.ShloMosaic Idealize.ShloMosaic.ValueIdx Idealize.ShloMosaic.BlockProduct Cert.Stages Cert.ReferenceIdeal Cert.ReferenceIdeal.Gen

/-! ## The laws for matrices of any extents -/

section Generic

variable {M K N : ℕ}

/-- The host's plain `dot_general` is the matrix product, entry by entry. -/
theorem hostDot_eq (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) :
    Host.dotGeneral (F := Ideal) D none x w = mm (M := M) (K := K) (N := N) x w := by
  subst hD
  funext i
  obtain ⟨p, q, rfl⟩ : ∃ (p : Fin M) (q : Fin N), i = ix2 p q := ⟨i 0, i 1, eq_ix2 i⟩
  rw [mm_apply]
  exact PlainDot.dotGeneral_apply none .single x w p q

/-- The zero scalar spread over any shape is the real `0` at every index: the spread reads the scalar's one entry, whose
    word is the zero word. -/
theorem zeroSpread_apply {t : Shape} (h0 : (⟨0, ![]⟩ : Shape).BroadcastsInDim t ![]) (j : t.Idx) :
    broadcastInDim t ![] h0 (constant (F := Ideal) ⟨0, ![]⟩ .f32 0x00000000#32) j = (0 : EReal) := by
  refine (broadcastInDim_apply (s := ⟨0, ![]⟩) ![] h0 _ j ix0 fun a => a.elim0).trans ?_
  rw [constant_apply]
  exact Ideal.ofBits_zero_f32

/-- The maximum against the spread zero scalar is the positive part. -/
theorem hostRelu_eq (x : FVec Ideal ⟨2, ![M, N]⟩ .f32) (h0 : (⟨0, ![]⟩ : Shape).BroadcastsInDim ⟨2, ![M, N]⟩ ![]) :
    maximumf x (broadcastInDim ⟨2, ![M, N]⟩ ![] h0 (constant (F := Ideal) ⟨0, ![]⟩ .f32 0x00000000#32))
      = pos (M := M) (N := N) x := by
  funext i
  rw [maximumf_apply, zeroSpread_apply, pos_apply]

/-- The entrywise host sum is `plus`. -/
theorem hostAdd_eq (x y : FVec Ideal ⟨2, ![M, N]⟩ .f32) : addf x y = plus (M := M) (N := N) x y := by
  funext i
  rw [addf_apply, plus_apply]

/-- A vector laid along a row, `[N] → [1, N]`, then spread over the rows, `[1, N] → [M, N]`, reads at `(p, q)` the
    vector at `q`: each spread reads the operand at the same column; when `N = 1` the only column is column `0`. -/
theorem rowSpread_apply (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  refine (broadcastInDim_apply ![0, 1] h2 _ (ix2 p q) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Adding the twice-spread vector is `plusRow` of the vector viewed as one row. -/
theorem hostBias_eq (x : FVec Ideal ⟨2, ![M, N]⟩ .f32) (b : FVec Ideal ⟨1, ![N]⟩ .f32)
    (hc : (⟨1, ![N]⟩ : Shape).ShapeCasts ⟨2, ![1, N]⟩)
    (h1 : (⟨1, ![N]⟩ : Shape).BroadcastsInDim ⟨2, ![1, N]⟩ ![1]) (h2 : (⟨2, ![1, N]⟩ : Shape).BroadcastsInDim ⟨2, ![M, N]⟩ ![0, 1]) :
    addf x (broadcastInDim ⟨2, ![M, N]⟩ ![0, 1] h2 (broadcastInDim ⟨2, ![1, N]⟩ ![1] h1 b))
      = plusRow (M := M) (N := N) x (shapeCast ⟨2, ![1, N]⟩ b hc) := by
  funext i
  obtain ⟨p, q, rfl⟩ : ∃ (p : Fin M) (q : Fin N), i = ix2 p q := ⟨i 0, i 1, eq_ix2 i⟩
  rw [addf_apply, rowSpread_apply, plusRow_apply, shapeCast_a_1a_apply]

/-- The host's product against a two-piece concatenation along the columns is the sum of the two products against the
    row blocks of the weights: the first `a` rows and the `b` rows from row `a` on. -/
theorem hostDot_concat {A a b c : ℕ} (hc : c = a + b)
    (D : DotDims ⟨2, ![A, c]⟩ ⟨2, ![c, N]⟩ ⟨2, ![A, N]⟩) (hD : D = DotDims.plain A c N)
    (x : FVec Ideal ⟨2, ![A, a]⟩ .f32) (y : FVec Ideal ⟨2, ![A, b]⟩ .f32) (w : FVec Ideal ⟨2, ![c, N]⟩ .f32)
    (hcat : Shape.Concatenates [(⟨2, ![A, a]⟩ : Shape), (⟨2, ![A, b]⟩ : Shape)] ⟨2, ![A, c]⟩ 1)
    (hs₁ : (⟨2, ![c, N]⟩ : Shape).Slices ![0, 0] ⟨2, ![a, N]⟩)
    (hs₂ : (⟨2, ![c, N]⟩ : Shape).Slices ![a, 0] ⟨2, ![b, N]⟩) :
    Host.dotGeneral (F := Ideal) D none
        (concatenate ⟨2, ![A, c]⟩ 1 [⟨(⟨2, ![A, a]⟩ : Shape), x⟩, ⟨(⟨2, ![A, b]⟩ : Shape), y⟩] hcat) w
      = plus (mm (M := A) (K := a) (N := N) x (extractStridedSlice ⟨2, ![a, N]⟩ ![0, 0] w hs₁))
          (mm (M := A) (K := b) (N := N) y (extractStridedSlice ⟨2, ![b, N]⟩ ![a, 0] w hs₂)) := by
  subst hc
  subst hD
  funext i
  obtain ⟨p, q, rfl⟩ : ∃ (p : Fin A) (q : Fin N), i = ix2 p q := ⟨i 0, i 1, eq_ix2 i⟩
  rw [plus_apply]
  refine (PlainDot.dotGeneral_apply none .single _ w p q).trans ?_
  refine mm_concat (A := A) (a := a) (b := b) (N := N) x y _ w _ _ (fun p k => ?_) (fun p k => ?_) (fun k q => ?_) (fun k q => ?_) p q
  · -- a column among the first `a` reads the first piece
    refine concatenate_pair_apply_left 1 x y hcat (ix2 p (Fin.castAdd b k)) rfl (ix2 p k) fun d => ?_
    match d with
    | ⟨0, _⟩ => rfl
    | ⟨1, _⟩ => rfl
  · -- a column `a + k` reads the second piece at column `k`
    refine concatenate_pair_apply_right 1 x y hcat (ix2 p (Fin.natAdd a k)) rfl rfl (ix2 p k) (fun d hd => ?_) ?_
    · match d with
      | ⟨0, _⟩ => rfl
      | ⟨1, _⟩ => exact absurd rfl hd
    · show k.val + a = a + k.val
      omega
  · -- row `k` of the first block is row `k` of the weights
    refine extractStridedSlice_apply ![0, 0] w hs₁ (ix2 k q) (ix2 (Fin.castAdd b k) q) fun d => ?_
    match d with
    | ⟨0, _⟩ => show k.val = 0 + k.val; omega
    | ⟨1, _⟩ => show q.val = 0 + q.val; omega
  · -- row `k` of the second block is row `a + k` of the weights
    refine extractStridedSlice_apply ![a, 0] w hs₂ (ix2 k q) (ix2 (Fin.natAdd a k) q) fun d => ?_
    match d with
    | ⟨0, _⟩ => rfl
    | ⟨1, _⟩ => show q.val = 0 + q.val; omega

end Generic

/-! ## The network's stages -/

/-- The bond input is `f_bonds · W_i`. -/
theorem bondInput_eq (fb : FVec Ideal S200000x147 .f32) (wi : FVec Ideal S147x300 .f32) :
    Net.bondInput (F := Ideal) fb wi = mm (M := 200000) (K := 147) (N := 300) fb wi :=
  hostDot_eq (M := 200000) (K := 147) (N := 300) dot_S200000x147_S147x300_S200000x300_1_0_0_1_n_n rfl fb wi

/-- A message is the positive part of its bond row. -/
theorem reluBonds_eq (x : FVec Ideal S200000x300 .f32) :
    Net.reluBonds (F := Ideal) x = pos (M := 200000) (N := 300) x :=
  hostRelu_eq (M := 200000) (N := 300) x bcast_S_S200000x300

/-- One round's messages: the positive part of the bond input plus `d · W_h`. -/
theorem bondUpdate_eq (inp d : FVec Ideal S200000x300 .f32) (wh : FVec Ideal S300x300 .f32) :
    Net.bondUpdate (F := Ideal) inp d wh = pos (plus inp (mm (M := 200000) (K := 300) (N := 300) d wh)) := by
  unfold Net.bondUpdate
  rw [hostRelu_eq (M := 200000) (N := 300), hostAdd_eq (M := 200000) (N := 300),
    hostDot_eq (M := 200000) (K := 300) (N := 300) dot_S200000x300_S300x300_S200000x300_1_0_0_1_n_n rfl]

/-- An atom's hidden state: the positive part of `f_atoms · W_o[:133] + am · W_o[133:] + b_o`. -/
theorem atomHidden_eq (fa : FVec Ideal S100000x133 .f32) (am : FVec Ideal S100000x300 .f32) (wo : FVec Ideal S433x300 .f32)
    (bo : FVec Ideal S300 .f32) :
    Net.atomHidden (F := Ideal) fa am wo bo
      = pos (plusRow (plus (mm (M := 100000) (K := 133) (N := 300) fa (extractStridedSlice Cert.KernelIdeal.S133x300 ![0, 0] wo Cert.KernelIdeal.Facts₀.slices_S433x300_S133x300_0_0))
            (mm (M := 100000) (K := 300) (N := 300) am (extractStridedSlice Cert.KernelIdeal.S300x300 ![133, 0] wo Cert.KernelIdeal.Facts₀.slices_S433x300_S300x300_133_0)))
          (shapeCast Cert.KernelIdeal.S1x300 bo Cert.KernelIdeal.Facts₀.shapeCasts_S300_S1x300)) := by
  unfold Net.atomHidden
  rw [hostRelu_eq (M := 100000) (N := 300),
    hostBias_eq (M := 100000) (N := 300) _ bo Cert.KernelIdeal.Facts₀.shapeCasts_S300_S1x300,
    hostDot_concat (N := 300) (A := 100000) (a := 133) (b := 300) (c := 433) rfl
      dot_S100000x433_S433x300_S100000x300_1_0_0_1_n_n rfl fa am wo concatenates_S100000x133_S100000x300_S100000x433_d1
      Cert.KernelIdeal.Facts₀.slices_S433x300_S133x300_0_0 Cert.KernelIdeal.Facts₀.slices_S433x300_S300x300_133_0]

/-- Per atom, `h · W_node + b_node`. -/
theorem nodeHead_eq (h : FVec Ideal S100000x300 .f32) (wn : FVec Ideal S300x133 .f32) (bn : FVec Ideal S133 .f32) :
    Net.nodeHead (F := Ideal) h wn bn
      = plusRow (mm (M := 100000) (K := 300) (N := 133) h wn) (shapeCast Cert.KernelIdeal.S1x133 bn Cert.KernelIdeal.Facts₀.shapeCasts_S133_S1x133) := by
  unfold Net.nodeHead
  rw [hostBias_eq (M := 100000) (N := 133) _ bn Cert.KernelIdeal.Facts₀.shapeCasts_S133_S1x133,
    hostDot_eq (M := 100000) (K := 300) (N := 133) dot_S100000x300_S300x133_S100000x133_1_0_0_1_n_n rfl]

/-- Per undirected bond, `hv · W_edge + b_edge`. -/
theorem edgeHead_eq (hv : FVec Ideal S100000x300 .f32) (we : FVec Ideal S300x14 .f32) (be : FVec Ideal S14 .f32) :
    Net.edgeHead (F := Ideal) hv we be
      = plusRow (mm (M := 100000) (K := 300) (N := 14) hv we) (shapeCast Cert.KernelIdeal.S1x14 be Cert.KernelIdeal.Facts₀.shapeCasts_S14_S1x14) := by
  unfold Net.edgeHead
  rw [hostBias_eq (M := 100000) (N := 14) _ be Cert.KernelIdeal.Facts₀.shapeCasts_S14_S1x14,
    hostDot_eq (M := 100000) (K := 300) (N := 14) dot_S100000x300_S300x14_S100000x14_1_0_0_1_n_n rfl]

/-- Per molecule, `(positive part of g · W_g1 + b_g1) · W_g2 + b_g2`. -/
theorem graphHead_eq (g : FVec Ideal S2000x300 .f32) (w1 : FVec Ideal S300x300 .f32) (b1 : FVec Ideal S300 .f32)
    (w2 : FVec Ideal S300x1 .f32) (b2 : FVec Ideal S1 .f32) :
    Net.graphHead (F := Ideal) g w1 b1 w2 b2
      = plusRow (mm (M := 2000) (K := 300) (N := 1)
            (pos (plusRow (mm (M := 2000) (K := 300) (N := 300) g w1) (shapeCast Cert.KernelIdeal.S1x300 b1 Cert.KernelIdeal.Facts₀.shapeCasts_S300_S1x300))) w2)
          (shapeCast Cert.KernelIdeal.S1x1 b2 Cert.KernelIdeal.Facts₀.shapeCasts_S1_S1x1) := by
  unfold Net.graphHead
  rw [hostBias_eq (M := 2000) (N := 1) _ b2 Cert.KernelIdeal.Facts₀.shapeCasts_S1_S1x1,
    hostDot_eq (M := 2000) (K := 300) (N := 1) dot_S2000x300_S300x1_S2000x1_1_0_0_1_n_n rfl,
    hostRelu_eq (M := 2000) (N := 300),
    hostBias_eq (M := 2000) (N := 300) _ b1 Cert.KernelIdeal.Facts₀.shapeCasts_S300_S1x300,
    hostDot_eq (M := 2000) (K := 300) (N := 300) dot_S2000x300_S300x300_S2000x300_1_0_0_1_n_n rfl]

end Cert.StageLaws

end
-- ==== Proof.Region0.lean ====
/-
  The bond initialisation, read off the kernel's row-tiled run.

  The stage takes the 200000 × 147 array of bond features `X` and the 147 × 300 input weights `W` and leaves two
  200000 × 300 arrays: the product `X · W` and its positive part `max (X · W) 0`, entry by entry. The kernel walks the
  rows in 50 tiles of 4000: at tile `t` it holds rows `4000 t … 4000 t + 3999` of `X` and the whole of `W`, and writes
  the same rows of both results. Entry `(p, q)` of a tile of the product is `Σ_k X (4000 t + p, k) · W (k, q)`: it depends
  on row `4000 t + p` of `X` and on column `q` of `W`, both of which the tile holds, so it is entry `(4000 t + p, q)` of
  the whole product; the positive part is taken entry by entry. Every row `r` lies in tile `r / 4000`, so the 50
  write-backs fill each result array with the stage's value.
-/
import proofs.«111378_j25486335935037_1_alg».proof.Proof.Gen.KernelIdeal.Frame
import proofs.«111378_j25486335935037_1_alg».proof.Proof.Stages
import proofs.«111378_j25486335935037_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelValue

open Cert.KernelIdeal Cert.KernelIdeal.Gen Cert.Stages Idealize.ShloMosaic Idealize.ShloMosaic.ValueIdx
open Idealize.ShloMosaic.BlockProduct Idealize.ShloMosaic.Pipeline Idealize.ShloMosaic.TcCoe

variable (V : (c : Dev nD) → (b : Ref sig .tc) → Buf (Elt Ideal) ((c : Thread nD τ).loc b))

/-- The body's first result at row `p`, column `q` of its tile: the product of row `p` of the feature tile with
    column `q` of the weights. -/
theorem r0_pay1_apply (x0 : Vec Ideal S4000x147 .f32) (x1 : Vec Ideal S147x300 .f32) (p : Fin 4000) (q : Fin 300) :
    k0_pay1 x0 x1 (ix2 p q) = ∑ k : Fin 147, x0 (ix2 p k) * x1 (ix2 k q) := by
  unfold k0_pay1
  show FloatOps.matmul (DotDims.plain 4000 147 300) none
      (truncf .bf16 x0 bitsLt_bf16_f32) (truncf .bf16 x1 bitsLt_bf16_f32)
      (constant (F := Ideal) ⟨2, ![4000, 300]⟩ .f32 0x00000000#32) (ix2 p q) = _
  rw [PlainDot.matmul_zero_apply]
  rfl

/-- Its second result there: the positive part of the first. -/
theorem r0_pay2_apply (x0 : Vec Ideal S4000x147 .f32) (x1 : Vec Ideal S147x300 .f32) (p : Fin 4000) (q : Fin 300) :
    k0_pay2 x0 x1 (ix2 p q) = max (∑ k : Fin 147, x0 (ix2 p k) * x1 (ix2 k q)) 0 := by
  unfold k0_pay2
  rw [maximumf_apply, broadcast_apply, r0_pay1_apply]
  show max _ (Ideal.ofBits .f32 0x00000000#32) = _
  rw [Ideal.ofBits_zero_f32]

theorem r0_hz : (![0, 0] : Fin 2 → Nat) = fun _ => 0 := funext fun a => by fin_cases a <;> rfl

/-- The windows' block indices at grid point `t`: the feature window and the two result windows sit at row block
    `t`, the weights at their one block. -/
theorem r0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature window's block at point `t` is rows `4000 t … 4000 t + 3999` of the bond features. -/
theorem r0_blk0 (c : Dev nD) (t : Fin cfg0.N) (y : S4000x147.Idx) (i : S200000x147.Idx)
    (h0 : (i 0).val = t.val * 4000 + (y 0).val) (h1 : (i 1).val = (y 1).val) :
    (iblk0 V c 0 t : Vec Ideal S4000x147 .f32) y = (V c main_arg1 : S200000x147.Idx → EReal) i := by
  obtain ⟨e0, e1, -⟩ := r0_idx t
  unfold iblk0
  rw [View.read_apply]
  show V c main_arg1 _ = V c main_arg1 _
  congr 1
  funext a
  apply Fin.ext
  match a with
  | ⟨0, _⟩ => show win0_0.index t (0 : Fin 2) * 4000 + 1 * (y 0).val = (i 0).val; rw [e0, h0]; omega
  | ⟨1, _⟩ => show win0_0.index t (1 : Fin 2) * 147 + 1 * (y 1).val = (i 1).val; rw [e1, h1]; omega

/-- The weight window's block at every point is the whole weight matrix. -/
theorem r0_blk1 (c : Dev nD) (t : Fin cfg0.N) (y : S147x300.Idx) (i : S147x300.Idx)
    (h0 : (i 0).val = (y 0).val) (h1 : (i 1).val = (y 1).val) :
    (iblk0 V c 1 t : Vec Ideal S147x300 .f32) y = (V c main_arg6 : S147x300.Idx → EReal) i := by
  obtain ⟨-, -, e0, e1, -⟩ := r0_idx t
  unfold iblk0
  rw [View.read_apply]
  show V c main_arg6 _ = V c main_arg6 _
  congr 1
  funext a
  apply Fin.ext
  match a with
  | ⟨0, _⟩ => show win0_1.index t (0 : Fin 2) * 147 + 1 * (y 0).val = (i 0).val; rw [e0, h0]; omega
  | ⟨1, _⟩ => show win0_1.index t (1 : Fin 2) * 300 + 1 * (y 1).val = (i 1).val; rw [e1, h1]; omega

/-- One entry of a tile of the product: if row `p` of the feature tile is row `i 0` of the features and column `q` of
    the weight block is column `i 1` of the weights, the body's first entry `(p, q)` is the product's entry `i`. -/
theorem r0_tile_input (X : S200000x147.Idx → EReal) (W : S147x300.Idx → EReal)
    (x0 : Vec Ideal S4000x147 .f32) (x1 : Vec Ideal S147x300 .f32)
    (p : Fin 4000) (q : Fin 300) (i : S200000x300.Idx)
    (h0 : ∀ k : Fin 147, x0 (ix2 p k) = X (ix2 (i 0) k))
    (h1 : ∀ k : Fin 147, x1 (ix2 k q) = W (ix2 k (i 1))) :
    k0_pay1 x0 x1 (ix2 p q) = mm (M := 200000) (K := 147) (N := 300) X W i := by
  rw [r0_pay1_apply]
  show _ = ∑ k : Fin 147, X (ix2 (i 0) k) * W (ix2 k (i 1))
  exact Finset.sum_congr rfl fun k _ => by rw [h0, h1]

/-- … and its second entry `(p, q)` is the entry `i` of the product's positive part. -/
theorem r0_tile_message (X : S200000x147.Idx → EReal) (W : S147x300.Idx → EReal)
    (x0 : Vec Ideal S4000x147 .f32) (x1 : Vec Ideal S147x300 .f32)
    (p : Fin 4000) (q : Fin 300) (i : S200000x300.Idx)
    (h0 : ∀ k : Fin 147, x0 (ix2 p k) = X (ix2 (i 0) k))
    (h1 : ∀ k : Fin 147, x1 (ix2 k q) = W (ix2 k (i 1))) :
    k0_pay2 x0 x1 (ix2 p q) = pos (mm (M := 200000) (K := 147) (N := 300) X W) i := by
  rw [r0_pay2_apply, pos_apply]
  show _ = max (∑ k : Fin 147, X (ix2 (i 0) k) * W (ix2 k (i 1))) 0
  congr 1
  exact Finset.sum_congr rfl fun k _ => by rw [h0, h1]

/-- What grid point `t` writes back to this result is rows `4000 t … 4000 t + 3999` of it: an entry of the body's
    tile depends only on its own row of the feature tile and on the whole weight matrix. -/
theorem r0_flushed2_eq (c : Dev nD) (t : Fin cfg0.N) :
    (dat0 (F := Ideal) V c).flushed 2 t = ((cfg0.win 2).blk t).view.read (Elt Ideal)
      (mm (M := 200000) (K := 147) (N := 300) (V c main_arg1) (V c main_arg6)) := by
  show (cfg0.win 2).cut (grid0.coords t) ((dat0 V c).after 2 t) = _
  rw [after0_2]
  unfold out0_2
  rw [View.canon_unit_zero r0_hz]
  simp only [View.ld_unit_zero (S := S4000x147) r0_hz, View.ld_unit_zero (S := S147x300) r0_hz]
  obtain ⟨-, -, -, -, e0, e1, -⟩ := r0_idx t
  funext j
  obtain ⟨p, q, rfl⟩ : ∃ (p : Fin 4000) (q : Fin 300), j = ix2 p q := ⟨j 0, j 1, eq_ix2 j⟩
  have hi0 : ((((cfg0.win 2).blk t).view.emb (ix2 p q)) (0 : Fin 2)).val = t.val * 4000 + p.val := by
    show win0_2.index t (0 : Fin 2) * 4000 + 1 * p.val = _
    rw [e0]; omega
  have hi1 : ((((cfg0.win 2).blk t).view.emb (ix2 p q)) (1 : Fin 2)).val = q.val := by
    show win0_2.index t (1 : Fin 2) * 300 + 1 * q.val = _
    rw [e1]; omega
  exact r0_tile_input (V c main_arg1) (V c main_arg6) (iblk0 V c 0 t) (iblk0 V c 1 t) p q
    (((cfg0.win 2).blk t).view.emb (ix2 p q))
    (fun k => r0_blk0 V c t (ix2 p k) (ix2 ((((cfg0.win 2).blk t).view.emb (ix2 p q)) 0) k) hi0 rfl)
    (fun k => r0_blk1 V c t (ix2 k q) (ix2 k ((((cfg0.win 2).blk t).view.emb (ix2 p q)) 1)) rfl hi1)

/-- An index of this result array is in point `t`'s block iff each coordinate is in the block's range on its axis. -/
theorem r0_mem_blk2 (t : Fin cfg0.N) (i : S200000x300.Idx) :
    i ∈ ((cfg0.win 2).blk t).view.set ↔ ∀ a : Fin 2, win0_2.index t a * S4000x300.size a ≤ (i a).val
      ∧ (i a).val < win0_2.index t a * S4000x300.size a + S4000x300.size a := by
  show i ∈ ((View.whole main_v0_0).slice (win0_2.rect t)).set ↔ _
  rw [View.set_slice_whole, Rect.mem_set_unit]
  exact Iff.rfl

/-- Every row of this result array lies in the block of the point its row index divided by 4000 names. -/
theorem r0_cover2 (i : S200000x300.Idx) :
    ∃ t : Fin cfg0.N, (cfg0.win 2).flush t = true ∧ i ∈ ((cfg0.win 2).blk t).view.set := by
  have hN : cfg0.N = 50 := N_0
  have hi0 : (i 0).val < 200000 := (i 0).isLt
  have hi1 : (i 1).val < 300 := (i 1).isLt
  have ht : (i 0).val / 4000 < cfg0.N := by rw [hN]; omega
  obtain ⟨-, -, -, -, e0, e1, -⟩ := r0_idx ⟨(i 0).val / 4000, ht⟩
  refine ⟨⟨(i 0).val / 4000, ht⟩, flush0_2 _, ?_⟩
  rw [r0_mem_blk2]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_2.index ⟨(i 0).val / 4000, ht⟩ (1 : Fin 2) * 300 ≤ (i 1).val
      ∧ (i 1).val < win0_2.index ⟨(i 0).val / 4000, ht⟩ (1 : Fin 2) * 300 + 300
    rw [e1]; omega

/-- The initial bond array: the bond features times the input weights. -/
theorem region0_input (c : Dev nD) :
    (dat0 (F := Ideal) V c).arrAt 2 cfg0.N
      = mm (M := 200000) (K := 147) (N := 300) (V c main_arg1) (V c main_arg6) :=
  (dat0 (F := Ideal) V c).arrAt_eq_of_cover 2 _ (fun t _ => r0_flushed2_eq V c t) r0_cover2

/-- What grid point `t` writes back to this result is rows `4000 t … 4000 t + 3999` of it: an entry of the body's
    tile depends only on its own row of the feature tile and on the whole weight matrix. -/
theorem r0_flushed3_eq (c : Dev nD) (t : Fin cfg0.N) :
    (dat0 (F := Ideal) V c).flushed 3 t = ((cfg0.win 3).blk t).view.read (Elt Ideal)
      (pos (mm (M := 200000) (K := 147) (N := 300) (V c main_arg1) (V c main_arg6))) := by
  show (cfg0.win 3).cut (grid0.coords t) ((dat0 V c).after 3 t) = _
  rw [after0_3]
  unfold out0_3
  rw [View.canon_unit_zero r0_hz]
  simp only [View.ld_unit_zero (S := S4000x147) r0_hz, View.ld_unit_zero (S := S147x300) r0_hz]
  obtain ⟨-, -, -, -, -, -, e0, e1⟩ := r0_idx t
  funext j
  obtain ⟨p, q, rfl⟩ : ∃ (p : Fin 4000) (q : Fin 300), j = ix2 p q := ⟨j 0, j 1, eq_ix2 j⟩
  have hi0 : ((((cfg0.win 3).blk t).view.emb (ix2 p q)) (0 : Fin 2)).val = t.val * 4000 + p.val := by
    show win0_3.index t (0 : Fin 2) * 4000 + 1 * p.val = _
    rw [e0]; omega
  have hi1 : ((((cfg0.win 3).blk t).view.emb (ix2 p q)) (1 : Fin 2)).val = q.val := by
    show win0_3.index t (1 : Fin 2) * 300 + 1 * q.val = _
    rw [e1]; omega
  exact r0_tile_message (V c main_arg1) (V c main_arg6) (iblk0 V c 0 t) (iblk0 V c 1 t) p q
    (((cfg0.win 3).blk t).view.emb (ix2 p q))
    (fun k => r0_blk0 V c t (ix2 p k) (ix2 ((((cfg0.win 3).blk t).view.emb (ix2 p q)) 0) k) hi0 rfl)
    (fun k => r0_blk1 V c t (ix2 k q) (ix2 k ((((cfg0.win 3).blk t).view.emb (ix2 p q)) 1)) rfl hi1)

/-- An index of this result array is in point `t`'s block iff each coordinate is in the block's range on its axis. -/
theorem r0_mem_blk3 (t : Fin cfg0.N) (i : S200000x300.Idx) :
    i ∈ ((cfg0.win 3).blk t).view.set ↔ ∀ a : Fin 2, win0_3.index t a * S4000x300.size a ≤ (i a).val
      ∧ (i a).val < win0_3.index t a * S4000x300.size a + S4000x300.size a := by
  show i ∈ ((View.whole main_v0_1).slice (win0_3.rect t)).set ↔ _
  rw [View.set_slice_whole, Rect.mem_set_unit]
  exact Iff.rfl

/-- Every row of this result array lies in the block of the point its row index divided by 4000 names. -/
theorem r0_cover3 (i : S200000x300.Idx) :
    ∃ t : Fin cfg0.N, (cfg0.win 3).flush t = true ∧ i ∈ ((cfg0.win 3).blk t).view.set := by
  have hN : cfg0.N = 50 := N_0
  have hi0 : (i 0).val < 200000 := (i 0).isLt
  have hi1 : (i 1).val < 300 := (i 1).isLt
  have ht : (i 0).val / 4000 < cfg0.N := by rw [hN]; omega
  obtain ⟨-, -, -, -, -, -, e0, e1⟩ := r0_idx ⟨(i 0).val / 4000, ht⟩
  refine ⟨⟨(i 0).val / 4000, ht⟩, flush0_3 _, ?_⟩
  rw [r0_mem_blk3]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_3.index ⟨(i 0).val / 4000, ht⟩ (1 : Fin 2) * 300 ≤ (i 1).val
      ∧ (i 1).val < win0_3.index ⟨(i 0).val / 4000, ht⟩ (1 : Fin 2) * 300 + 300
    rw [e1]; omega

/-- The initial messages: the positive part of the initial bond array. -/
theorem region0_message (c : Dev nD) :
    (dat0 (F := Ideal) V c).arrAt 3 cfg0.N
      = pos (mm (M := 200000) (K := 147) (N := 300) (V c main_arg1) (V c main_arg6)) :=
  (dat0 (F := Ideal) V c).arrAt_eq_of_cover 3 _ (fun t _ => r0_flushed3_eq V c t) r0_cover3

end Cert.KernelValue

end
-- ==== Proof.Region1.lean ====
/-
  The first message update, read off the kernel's row-tiled run.

  The stage takes the 200000 × 300 array of incoming messages `X`, the 300 × 300 update weights `W` and the
  200000 × 300 initial bond array `A`, and leaves `max (A + X · W) 0` entry by entry. The kernel walks the rows in
  50 tiles of 4000: at tile `t` it holds rows `4000 t … 4000 t + 3999` of `X` and of `A` and the whole of `W`, and
  writes the same rows of the result. Entry `(p, q)` of a tile is `max (A (4000 t + p, q) + Σ_k X (4000 t + p, k) · W (k, q)) 0`:
  it depends on row `4000 t + p` of `X`, on column `q` of `W` and on one entry of `A`, all of which the tile holds, so it
  is entry `(4000 t + p, q)` of the whole stage. Every row `r` lies in tile `r / 4000`, so the 50 write-backs fill the
  result array with the stage's value.
-/
import proofs.«111378_j25486335935037_1_alg».proof.Proof.Gen.KernelIdeal.Frame
import proofs.«111378_j25486335935037_1_alg».proof.Proof.Stages
import proofs.«111378_j25486335935037_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelValue

open Cert.KernelIdeal Cert.KernelIdeal.Gen Cert.Stages Idealize.ShloMosaic Idealize.ShloMosaic.ValueIdx
open Idealize.ShloMosaic.BlockProduct Idealize.ShloMosaic.Pipeline Idealize.ShloMosaic.TcCoe

variable (V : (c : Dev nD) → (b : Ref sig .tc) → Buf (Elt Ideal) ((c : Thread nD τ).loc b))

/-- The body's result at row `p`, column `q` of its tile: the positive part of the carried tile's entry plus the
    product of row `p` of the message tile with column `q` of the weights. -/
theorem r1_pay_apply (x0 : Vec Ideal S4000x300 .f32) (x1 : Vec Ideal S300x300 .f32) (x2 : Vec Ideal S4000x300 .f32)
    (p : Fin 4000) (q : Fin 300) :
    k1_pay1 x0 x1 x2 (ix2 p q) = max (x2 (ix2 p q) + ∑ k : Fin 300, x0 (ix2 p k) * x1 (ix2 k q)) 0 := by
  unfold k1_pay1
  rw [maximumf_apply, addf_apply, broadcast_apply, shapeCast_self, shapeCast_self]
  show max (x2 (ix2 p q) + FloatOps.matmul (DotDims.plain 4000 300 300) none
      (truncf .bf16 x0 bitsLt_bf16_f32) (truncf .bf16 x1 bitsLt_bf16_f32)
      (constant (F := Ideal) ⟨2, ![4000, 300]⟩ .f32 0x00000000#32) (ix2 p q)) (Ideal.ofBits .f32 0x00000000#32) = _
  rw [Ideal.ofBits_zero_f32, PlainDot.matmul_zero_apply]
  rfl

theorem r1_hz : (![0, 0] : Fin 2 → Nat) = fun _ => 0 := funext fun a => by fin_cases a <;> rfl

/-- The windows' block indices at grid point `t`: the three row-tiled windows sit at row block `t`, the weights at
    their one block. -/
theorem r1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The message window's block at point `t` is rows `4000 t … 4000 t + 3999` of the message array. -/
theorem r1_blk0 (c : Dev nD) (t : Fin cfg1.N) (y : S4000x300.Idx) (i : S200000x300.Idx)
    (h0 : (i 0).val = t.val * 4000 + (y 0).val) (h1 : (i 1).val = (y 1).val) :
    (iblk1 V c 0 t : Vec Ideal S4000x300 .f32) y = (V c main_v25 : S200000x300.Idx → EReal) i := by
  obtain ⟨e0, e1, -⟩ := r1_idx t
  unfold iblk1
  rw [View.read_apply]
  show V c main_v25 _ = V c main_v25 _
  congr 1
  funext a
  apply Fin.ext
  match a with
  | ⟨0, _⟩ => show win1_0.index t (0 : Fin 2) * 4000 + 1 * (y 0).val = (i 0).val; rw [e0, h0]; omega
  | ⟨1, _⟩ => show win1_0.index t (1 : Fin 2) * 300 + 1 * (y 1).val = (i 1).val; rw [e1, h1]; omega

/-- The weight window's block at every point is the whole weight matrix. -/
theorem r1_blk1 (c : Dev nD) (t : Fin cfg1.N) (y : S300x300.Idx) (i : S300x300.Idx)
    (h0 : (i 0).val = (y 0).val) (h1 : (i 1).val = (y 1).val) :
    (iblk1 V c 1 t : Vec Ideal S300x300 .f32) y = (V c main_arg7 : S300x300.Idx → EReal) i := by
  obtain ⟨-, -, e0, e1, -⟩ := r1_idx t
  unfold iblk1
  rw [View.read_apply]
  show V c main_arg7 _ = V c main_arg7 _
  congr 1
  funext a
  apply Fin.ext
  match a with
  | ⟨0, _⟩ => show win1_1.index t (0 : Fin 2) * 300 + 1 * (y 0).val = (i 0).val; rw [e0, h0]; omega
  | ⟨1, _⟩ => show win1_1.index t (1 : Fin 2) * 300 + 1 * (y 1).val = (i 1).val; rw [e1, h1]; omega

/-- The carried window's block at point `t` is the same rows of the initial bond array. -/
theorem r1_blk2 (c : Dev nD) (t : Fin cfg1.N) (y : S4000x300.Idx) (i : S200000x300.Idx)
    (h0 : (i 0).val = t.val * 4000 + (y 0).val) (h1 : (i 1).val = (y 1).val) :
    (iblk1 V c 2 t : Vec Ideal S4000x300 .f32) y = (V c main_v0_0 : S200000x300.Idx → EReal) i := by
  obtain ⟨-, -, -, -, e0, e1, -⟩ := r1_idx t
  unfold iblk1
  rw [View.read_apply]
  show V c main_v0_0 _ = V c main_v0_0 _
  congr 1
  funext a
  apply Fin.ext
  match a with
  | ⟨0, _⟩ => show win1_2.index t (0 : Fin 2) * 4000 + 1 * (y 0).val = (i 0).val; rw [e0, h0]; omega
  | ⟨1, _⟩ => show win1_2.index t (1 : Fin 2) * 300 + 1 * (y 1).val = (i 1).val; rw [e1, h1]; omega

/-- One entry of a tile of the stage: if row `p` of the message tile is row `i 0` of the message array, column `q` of
    the weight block is column `i 1` of the weights, and the carried tile's entry is the carried array's at `i`, then
    the body's entry `(p, q)` is the stage's entry `i`. -/
theorem r1_tile (A X : S200000x300.Idx → EReal) (W : S300x300.Idx → EReal)
    (x0 : Vec Ideal S4000x300 .f32) (x1 : Vec Ideal S300x300 .f32) (x2 : Vec Ideal S4000x300 .f32)
    (p : Fin 4000) (q : Fin 300) (i : S200000x300.Idx)
    (h0 : ∀ k : Fin 300, x0 (ix2 p k) = X (ix2 (i 0) k))
    (h1 : ∀ k : Fin 300, x1 (ix2 k q) = W (ix2 k (i 1)))
    (h2 : x2 (ix2 p q) = A i) :
    k1_pay1 x0 x1 x2 (ix2 p q) = pos (plus A (mm (M := 200000) (K := 300) (N := 300) X W)) i := by
  rw [r1_pay_apply, h2, pos_apply, plus_apply]
  show _ = max (A i + ∑ k : Fin 300, X (ix2 (i 0) k) * W (ix2 k (i 1))) 0
  congr 2
  exact Finset.sum_congr rfl fun k _ => by rw [h0, h1]

/-- What grid point `t` writes back is rows `4000 t … 4000 t + 3999` of the stage's result: an entry of the body's
    tile depends only on its own row of the message tile and of the carried tile, and on the whole weight matrix. -/
theorem r1_flushed_eq (c : Dev nD) (t : Fin cfg1.N) :
    (dat1 (F := Ideal) V c).flushed 3 t = ((cfg1.win 3).blk t).view.read (Elt Ideal)
      (pos (plus (V c main_v0_0) (mm (M := 200000) (K := 300) (N := 300) (V c main_v25) (V c main_arg7)))) := by
  show (cfg1.win 3).cut (grid1.coords t) ((dat1 V c).after 3 t) = _
  rw [after1_3]
  unfold out1_3
  rw [View.canon_unit_zero r1_hz]
  simp only [View.ld_unit_zero (S := S4000x300) r1_hz, View.ld_unit_zero (S := S300x300) r1_hz]
  obtain ⟨-, -, -, -, -, -, e0, e1⟩ := r1_idx t
  funext j
  obtain ⟨p, q, rfl⟩ : ∃ (p : Fin 4000) (q : Fin 300), j = ix2 p q := ⟨j 0, j 1, eq_ix2 j⟩
  have hi0 : ((((cfg1.win 3).blk t).view.emb (ix2 p q)) (0 : Fin 2)).val = t.val * 4000 + p.val := by
    show win1_3.index t (0 : Fin 2) * 4000 + 1 * p.val = _
    rw [e0]; omega
  have hi1 : ((((cfg1.win 3).blk t).view.emb (ix2 p q)) (1 : Fin 2)).val = q.val := by
    show win1_3.index t (1 : Fin 2) * 300 + 1 * q.val = _
    rw [e1]; omega
  exact r1_tile (V c main_v0_0) (V c main_v25) (V c main_arg7) (iblk1 V c 0 t) (iblk1 V c 1 t) (iblk1 V c 2 t) p q
    (((cfg1.win 3).blk t).view.emb (ix2 p q))
    (fun k => r1_blk0 V c t (ix2 p k) (ix2 ((((cfg1.win 3).blk t).view.emb (ix2 p q)) 0) k) hi0 rfl)
    (fun k => r1_blk1 V c t (ix2 k q) (ix2 k ((((cfg1.win 3).blk t).view.emb (ix2 p q)) 1)) rfl hi1)
    (r1_blk2 V c t (ix2 p q) (((cfg1.win 3).blk t).view.emb (ix2 p q)) hi0 hi1)

/-- An index of the result array is in point `t`'s block iff each coordinate is in the block's range on its axis. -/
theorem r1_mem_blk (t : Fin cfg1.N) (i : S200000x300.Idx) :
    i ∈ ((cfg1.win 3).blk t).view.set ↔ ∀ a : Fin 2, win1_3.index t a * S4000x300.size a ≤ (i a).val
      ∧ (i a).val < win1_3.index t a * S4000x300.size a + S4000x300.size a := by
  show i ∈ ((View.whole main_v26).slice (win1_3.rect t)).set ↔ _
  rw [View.set_slice_whole, Rect.mem_set_unit]
  exact Iff.rfl

/-- Every row of the result array lies in the block of the point its row index divided by 4000 names. -/
theorem r1_cover (i : S200000x300.Idx) :
    ∃ t : Fin cfg1.N, (cfg1.win 3).flush t = true ∧ i ∈ ((cfg1.win 3).blk t).view.set := by
  have hN : cfg1.N = 50 := N_1
  have hi0 : (i 0).val < 200000 := (i 0).isLt
  have hi1 : (i 1).val < 300 := (i 1).isLt
  have ht : (i 0).val / 4000 < cfg1.N := by rw [hN]; omega
  obtain ⟨-, -, -, -, -, -, e0, e1⟩ := r1_idx ⟨(i 0).val / 4000, ht⟩
  refine ⟨⟨(i 0).val / 4000, ht⟩, flush1_3 _, ?_⟩
  rw [r1_mem_blk]
  intro a
  match a with
  | ⟨0, _⟩ =>
    show win1_3.index ⟨(i 0).val / 4000, ht⟩ (0 : Fin 2) * 4000 ≤ (i 0).val
      ∧ (i 0).val < win1_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_3.index ⟨(i 0).val / 4000, ht⟩ (1 : Fin 2) * 300 ≤ (i 1).val
      ∧ (i 1).val < win1_3.index ⟨(i 0).val / 4000, ht⟩ (1 : Fin 2) * 300 + 300
    rw [e1]; omega

/-- The message array after the first update: the positive part of the initial bond array plus the incoming
    messages times the update weights. -/
theorem region1_message (c : Dev nD) :
    (dat1 (F := Ideal) V c).arrAt 3 cfg1.N
      = pos (plus (V c main_v0_0) (mm (M := 200000) (K := 300) (N := 300) (V c main_v25) (V c main_arg7))) :=
  (dat1 (F := Ideal) V c).arrAt_eq_of_cover 3 _ (fun t _ => r1_flushed_eq V c t) r1_cover

end Cert.KernelValue

end
-- ==== Proof.Region2.lean ====
/-
  The second message update, read off the kernel's row-tiled run.

  The stage takes the 200000 × 300 array of incoming messages `X`, the 300 × 300 update weights `W` and the
  200000 × 300 initial bond array `A`, and leaves `max (A + X · W) 0` entry by entry. The kernel walks the rows in
  50 tiles of 4000: at tile `t` it holds rows `4000 t … 4000 t + 3999` of `X` and of `A` and the whole of `W`, and
  writes the same rows of the result. Entry `(p, q)` of a tile is `max (A (4000 t + p, q) + Σ_k X (4000 t + p, k) · W (k, q)) 0`:
  it depends on row `4000 t + p` of `X`, on column `q` of `W` and on one entry of `A`, all of which the tile holds, so it
  is entry `(4000 t + p, q)` of the whole stage. Every row `r` lies in tile `r / 4000`, so the 50 write-backs fill the
  result array with the stage's value.
-/
import proofs.«111378_j25486335935037_1_alg».proof.Proof.Gen.KernelIdeal.Frame
import proofs.«111378_j25486335935037_1_alg».proof.Proof.Stages
import proofs.«111378_j25486335935037_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelValue

open Cert.KernelIdeal Cert.KernelIdeal.Gen Cert.Stages Idealize.ShloMosaic Idealize.ShloMosaic.ValueIdx
open Idealize.ShloMosaic.BlockProduct Idealize.ShloMosaic.Pipeline Idealize.ShloMosaic.TcCoe

variable (V : (c : Dev nD) → (b : Ref sig .tc) → Buf (Elt Ideal) ((c : Thread nD τ).loc b))

/-- The body's result at row `p`, column `q` of its tile: the positive part of the carried tile's entry plus the
    product of row `p` of the message tile with column `q` of the weights. -/
theorem r2_pay_apply (x0 : Vec Ideal S4000x300 .f32) (x1 : Vec Ideal S300x300 .f32) (x2 : Vec Ideal S4000x300 .f32)
    (p : Fin 4000) (q : Fin 300) :
    k2_pay1 x0 x1 x2 (ix2 p q) = max (x2 (ix2 p q) + ∑ k : Fin 300, x0 (ix2 p k) * x1 (ix2 k q)) 0 := by
  unfold k2_pay1
  rw [maximumf_apply, addf_apply, broadcast_apply, shapeCast_self, shapeCast_self]
  show max (x2 (ix2 p q) + FloatOps.matmul (DotDims.plain 4000 300 300) none
      (truncf .bf16 x0 bitsLt_bf16_f32) (truncf .bf16 x1 bitsLt_bf16_f32)
      (constant (F := Ideal) ⟨2, ![4000, 300]⟩ .f32 0x00000000#32) (ix2 p q)) (Ideal.ofBits .f32 0x00000000#32) = _
  rw [Ideal.ofBits_zero_f32, PlainDot.matmul_zero_apply]
  rfl

theorem r2_hz : (![0, 0] : Fin 2 → Nat) = fun _ => 0 := funext fun a => by fin_cases a <;> rfl

/-- The windows' block indices at grid point `t`: the three row-tiled windows sit at row block `t`, the weights at
    their one block. -/
theorem r2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The message window's block at point `t` is rows `4000 t … 4000 t + 3999` of the message array. -/
theorem r2_blk0 (c : Dev nD) (t : Fin cfg2.N) (y : S4000x300.Idx) (i : S200000x300.Idx)
    (h0 : (i 0).val = t.val * 4000 + (y 0).val) (h1 : (i 1).val = (y 1).val) :
    (iblk2 V c 0 t : Vec Ideal S4000x300 .f32) y = (V c main_v49 : S200000x300.Idx → EReal) i := by
  obtain ⟨e0, e1, -⟩ := r2_idx t
  unfold iblk2
  rw [View.read_apply]
  show V c main_v49 _ = V c main_v49 _
  congr 1
  funext a
  apply Fin.ext
  match a with
  | ⟨0, _⟩ => show win2_0.index t (0 : Fin 2) * 4000 + 1 * (y 0).val = (i 0).val; rw [e0, h0]; omega
  | ⟨1, _⟩ => show win2_0.index t (1 : Fin 2) * 300 + 1 * (y 1).val = (i 1).val; rw [e1, h1]; omega

/-- The weight window's block at every point is the whole weight matrix. -/
theorem r2_blk1 (c : Dev nD) (t : Fin cfg2.N) (y : S300x300.Idx) (i : S300x300.Idx)
    (h0 : (i 0).val = (y 0).val) (h1 : (i 1).val = (y 1).val) :
    (iblk2 V c 1 t : Vec Ideal S300x300 .f32) y = (V c main_arg7 : S300x300.Idx → EReal) i := by
  obtain ⟨-, -, e0, e1, -⟩ := r2_idx t
  unfold iblk2
  rw [View.read_apply]
  show V c main_arg7 _ = V c main_arg7 _
  congr 1
  funext a
  apply Fin.ext
  match a with
  | ⟨0, _⟩ => show win2_1.index t (0 : Fin 2) * 300 + 1 * (y 0).val = (i 0).val; rw [e0, h0]; omega
  | ⟨1, _⟩ => show win2_1.index t (1 : Fin 2) * 300 + 1 * (y 1).val = (i 1).val; rw [e1, h1]; omega

/-- The carried window's block at point `t` is the same rows of the initial bond array. -/
theorem r2_blk2 (c : Dev nD) (t : Fin cfg2.N) (y : S4000x300.Idx) (i : S200000x300.Idx)
    (h0 : (i 0).val = t.val * 4000 + (y 0).val) (h1 : (i 1).val = (y 1).val) :
    (iblk2 V c 2 t : Vec Ideal S4000x300 .f32) y = (V c main_v0_0 : S200000x300.Idx → EReal) i := by
  obtain ⟨-, -, -, -, e0, e1, -⟩ := r2_idx t
  unfold iblk2
  rw [View.read_apply]
  show V c main_v0_0 _ = V c main_v0_0 _
  congr 1
  funext a
  apply Fin.ext
  match a with
  | ⟨0, _⟩ => show win2_2.index t (0 : Fin 2) * 4000 + 1 * (y 0).val = (i 0).val; rw [e0, h0]; omega
  | ⟨1, _⟩ => show win2_2.index t (1 : Fin 2) * 300 + 1 * (y 1).val = (i 1).val; rw [e1, h1]; omega

/-- One entry of a tile of the stage: if row `p` of the message tile is row `i 0` of the message array, column `q` of
    the weight block is column `i 1` of the weights, and the carried tile's entry is the carried array's at `i`, then
    the body's entry `(p, q)` is the stage's entry `i`. -/
theorem r2_tile (A X : S200000x300.Idx → EReal) (W : S300x300.Idx → EReal)
    (x0 : Vec Ideal S4000x300 .f32) (x1 : Vec Ideal S300x300 .f32) (x2 : Vec Ideal S4000x300 .f32)
    (p : Fin 4000) (q : Fin 300) (i : S200000x300.Idx)
    (h0 : ∀ k : Fin 300, x0 (ix2 p k) = X (ix2 (i 0) k))
    (h1 : ∀ k : Fin 300, x1 (ix2 k q) = W (ix2 k (i 1)))
    (h2 : x2 (ix2 p q) = A i) :
    k2_pay1 x0 x1 x2 (ix2 p q) = pos (plus A (mm (M := 200000) (K := 300) (N := 300) X W)) i := by
  rw [r2_pay_apply, h2, pos_apply, plus_apply]
  show _ = max (A i + ∑ k : Fin 300, X (ix2 (i 0) k) * W (ix2 k (i 1))) 0
  congr 2
  exact Finset.sum_congr rfl fun k _ => by rw [h0, h1]

/-- What grid point `t` writes back is rows `4000 t … 4000 t + 3999` of the stage's result: an entry of the body's
    tile depends only on its own row of the message tile and of the carried tile, and on the whole weight matrix. -/
theorem r2_flushed_eq (c : Dev nD) (t : Fin cfg2.N) :
    (dat2 (F := Ideal) V c).flushed 3 t = ((cfg2.win 3).blk t).view.read (Elt Ideal)
      (pos (plus (V c main_v0_0) (mm (M := 200000) (K := 300) (N := 300) (V c main_v49) (V c main_arg7)))) := by
  show (cfg2.win 3).cut (grid2.coords t) ((dat2 V c).after 3 t) = _
  rw [after2_3]
  unfold out2_3
  rw [View.canon_unit_zero r2_hz]
  simp only [View.ld_unit_zero (S := S4000x300) r2_hz, View.ld_unit_zero (S := S300x300) r2_hz]
  obtain ⟨-, -, -, -, -, -, e0, e1⟩ := r2_idx t
  funext j
  obtain ⟨p, q, rfl⟩ : ∃ (p : Fin 4000) (q : Fin 300), j = ix2 p q := ⟨j 0, j 1, eq_ix2 j⟩
  have hi0 : ((((cfg2.win 3).blk t).view.emb (ix2 p q)) (0 : Fin 2)).val = t.val * 4000 + p.val := by
    show win2_3.index t (0 : Fin 2) * 4000 + 1 * p.val = _
    rw [e0]; omega
  have hi1 : ((((cfg2.win 3).blk t).view.emb (ix2 p q)) (1 : Fin 2)).val = q.val := by
    show win2_3.index t (1 : Fin 2) * 300 + 1 * q.val = _
    rw [e1]; omega
  exact r2_tile (V c main_v0_0) (V c main_v49) (V c main_arg7) (iblk2 V c 0 t) (iblk2 V c 1 t) (iblk2 V c 2 t) p q
    (((cfg2.win 3).blk t).view.emb (ix2 p q))
    (fun k => r2_blk0 V c t (ix2 p k) (ix2 ((((cfg2.win 3).blk t).view.emb (ix2 p q)) 0) k) hi0 rfl)
    (fun k => r2_blk1 V c t (ix2 k q) (ix2 k ((((cfg2.win 3).blk t).view.emb (ix2 p q)) 1)) rfl hi1)
    (r2_blk2 V c t (ix2 p q) (((cfg2.win 3).blk t).view.emb (ix2 p q)) hi0 hi1)

/-- An index of the result array is in point `t`'s block iff each coordinate is in the block's range on its axis. -/
theorem r2_mem_blk (t : Fin cfg2.N) (i : S200000x300.Idx) :
    i ∈ ((cfg2.win 3).blk t).view.set ↔ ∀ a : Fin 2, win2_3.index t a * S4000x300.size a ≤ (i a).val
      ∧ (i a).val < win2_3.index t a * S4000x300.size a + S4000x300.size a := by
  show i ∈ ((View.whole main_v50).slice (win2_3.rect t)).set ↔ _
  rw [View.set_slice_whole, Rect.mem_set_unit]
  exact Iff.rfl

/-- Every row of the result array lies in the block of the point its row index divided by 4000 names. -/
theorem r2_cover (i : S200000x300.Idx) :
    ∃ t : Fin cfg2.N, (cfg2.win 3).flush t = true ∧ i ∈ ((cfg2.win 3).blk t).view.set := by
  have hN : cfg2.N = 50 := N_2
  have hi0 : (i 0).val < 200000 := (i 0).isLt
  have hi1 : (i 1).val < 300 := (i 1).isLt
  have ht : (i 0).val / 4000 < cfg2.N := by rw [hN]; omega
  obtain ⟨-, -, -, -, -, -, e0, e1⟩ := r2_idx ⟨(i 0).val / 4000, ht⟩
  refine ⟨⟨(i 0).val / 4000, ht⟩, flush2_3 _, ?_⟩
  rw [r2_mem_blk]
  intro a
  match a with
  | ⟨0, _⟩ =>
    show win2_3.index ⟨(i 0).val / 4000, ht⟩ (0 : Fin 2) * 4000 ≤ (i 0).val
      ∧ (i 0).val < win2_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_3.index ⟨(i 0).val / 4000, ht⟩ (1 : Fin 2) * 300 ≤ (i 1).val
      ∧ (i 1).val < win2_3.index ⟨(i 0).val / 4000, ht⟩ (1 : Fin 2) * 300 + 300
    rw [e1]; omega

/-- The message array after the second update: the positive part of the initial bond array plus the incoming
    messages times the update weights. -/
theorem region2_message (c : Dev nD) :
    (dat2 (F := Ideal) V c).arrAt 3 cfg2.N
      = pos (plus (V c main_v0_0) (mm (M := 200000) (K := 300) (N := 300) (V c main_v49) (V c main_arg7))) :=
  (dat2 (F := Ideal) V c).arrAt_eq_of_cover 3 _ (fun t _ => r2_flushed_eq V c t) r2_cover

end Cert.KernelValue

end
-- ==== Proof.Region3.lean ====
/-
  The value of the atom-hidden stage (the fourth tiled stage of the network).

  The stage walks the 100000 atom rows in 50 tiles of 2000 rows. At tile `t` it holds rows `2000 t … 2000 t + 1999` of
  the atom features `[100000, 133]` and of the aggregated messages `[100000, 300]`, and the whole of the two weight
  matrices `[133, 300]`, `[300, 300]` and of the bias row `[1, 300]`; it writes the same rows of the result
  `[100000, 300]`: the positive part of `features · W₁ + messages · W₂` plus the bias row.

  Entry `(r, q)` of that result depends on row `r` of the two row-tiled arrays only (and on column `q` of the weights
  and of the bias), so the tile that holds row `r` — tile `r / 2000` — computes it from what it holds, and since the 50
  tiles cover all rows the array the stage leaves is the hidden stage of the whole arrays, entry by entry. On the
  extended reals the changes of number format are the identity and the matrix unit's product into a zero accumulator
  is the plain sum `Σ_k x (p, k) · w (k, q)`.
-/
import proofs.«111378_j25486335935037_1_alg».proof.Proof.Gen.KernelIdeal.Frame
import proofs.«111378_j25486335935037_1_alg».proof.Proof.Stages
import proofs.«111378_j25486335935037_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelValue

open Cert.KernelIdeal Cert.KernelIdeal.Gen Cert.Stages Idealize.ShloMosaic Idealize.ShloMosaic.ValueIdx
open Idealize.ShloMosaic.BlockProduct Idealize.ShloMosaic.Pipeline Idealize.ShloMosaic.TcCoe Idealize.SL.Sem

variable (V : (c : Dev nD) → (b : Ref sig .tc) → Buf (Elt Ideal) ((c : Thread nD τ).loc b))

/-! ## The body's arithmetic at one entry of a block -/

/-- The first product of the body at entry `(p, q)` of the block: row `p` of the atom-feature tile against column `q`
    of the first weight matrix. -/
private theorem r3_dotA (a : FVec Ideal S2000x133 .bf16) (b : FVec Ideal S133x300 .bf16) (p : Fin 2000) (q : Fin 300) :
    matmul dot_S2000x133_S133x300_S2000x300_1_0_0_1_n_n none a b (constant (F := Ideal) S2000x300 .f32 0x00000000#32) (ix2 p q)
      = ∑ k : Fin 133, a (ix2 p k) * b (ix2 k q) :=
  PlainDot.matmul_zero_apply (M := 2000) (K := 133) (N := 300) none a b p q

/-- The second product at `(p, q)`: row `p` of the message tile against column `q` of the second weight matrix. -/
private theorem r3_dotB (a : FVec Ideal S2000x300 .bf16) (b : FVec Ideal S300x300 .bf16) (p : Fin 2000) (q : Fin 300) :
    matmul dot_S2000x300_S300x300_S2000x300_1_0_0_1_n_n none a b (constant (F := Ideal) S2000x300 .f32 0x00000000#32) (ix2 p q)
      = ∑ k : Fin 300, a (ix2 p k) * b (ix2 k q) :=
  PlainDot.matmul_zero_apply (M := 2000) (K := 300) (N := 300) none a b p q

/-- Entry `(p, q)` of what the body stores: the positive part of the two products' sum plus the bias row. The changes of
    format are the identity on extended reals, the casts are to the same shape, and the zero word is the real `0`. -/
theorem r3_pay_apply (x0 : Vec Ideal S2000x133 .f32) (x1 : Vec Ideal S133x300 .f32) (x2 : Vec Ideal S2000x300 .f32)
    (x3 : Vec Ideal S300x300 .f32) (x4 : Vec Ideal S1x300 .f32) (p : Fin 2000) (q : Fin 300) :
    k3_pay1 x0 x1 x2 x3 x4 (ix2 p q)
      = max (((∑ k : Fin 133, x0 (ix2 p k) * x1 (ix2 k q)) + (∑ k : Fin 300, x2 (ix2 p k) * x3 (ix2 k q)))
          + x4 (ix2 (0 : Fin 1) q)) 0 := by
  unfold k3_pay1
  rw [maximumf_apply, addf_apply, addf_apply, broadcast_apply, r3_dotA, r3_dotB,
    shapeCast_self, shapeCast_self, shapeCast_self, shapeCast_self, broadcastTo_1b_ab_apply]
  simp only [truncf_apply]
  exact congrArg _ Ideal.ofBits_zero_f32

/-- The same entry when the five blocks are read off five arrays: if row `p` of the two row tiles is row `r` of the
    row-tiled arrays and the other three blocks are their whole arrays, the entry is entry `(r, q)` of the hidden
    stage of those arrays. Only row `r` of the row-tiled arrays is read. -/
theorem r3_point (A0 : Mat 100000 133) (A1 : Mat 133 300) (A2 : Mat 100000 300) (A3 : Mat 300 300) (A4 : Mat 1 300)
    (x0 : Vec Ideal S2000x133 .f32) (x1 : Vec Ideal S133x300 .f32) (x2 : Vec Ideal S2000x300 .f32)
    (x3 : Vec Ideal S300x300 .f32) (x4 : Vec Ideal S1x300 .f32) (p : Fin 2000) (q : Fin 300) (r : Fin 100000)
    (h0 : ∀ k : Fin 133, x0 (ix2 p k) = A0 (ix2 r k)) (h1 : ∀ k : Fin 133, x1 (ix2 k q) = A1 (ix2 k q))
    (h2 : ∀ k : Fin 300, x2 (ix2 p k) = A2 (ix2 r k)) (h3 : ∀ k : Fin 300, x3 (ix2 k q) = A3 (ix2 k q))
    (h4 : x4 (ix2 (0 : Fin 1) q) = A4 (ix2 (0 : Fin 1) q)) :
    k3_pay1 x0 x1 x2 x3 x4 (ix2 p q) = pos (plusRow (plus (mm A0 A1) (mm A2 A3)) A4) (ix2 r q) := by
  rw [r3_pay_apply, pos_apply, plusRow_apply, plus_apply, mm_apply, mm_apply]
  simp only [h0, h1, h2, h3, h4]

/-! ## Where the windows' blocks sit -/

theorem r3_hz : (![0, 0] : Fin 2 → Nat) = fun _ => 0 := funext fun a => by fin_cases a <;> rfl

/-- The windows' index maps at each of the 50 points: the two row-tiled inputs and the output sit at row block `t`,
    column block `0`; the two weight matrices and the bias row sit at block `(0, 0)`. -/
theorem r3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The hidden stage of the arrays as the region finds them. -/
abbrev r3_G (c : Dev nD) : Mat 100000 300 :=
  pos (plusRow (plus (mm (M := 100000) (K := 133) (N := 300) (V c main_arg0) (V c main_v1))
    (mm (M := 100000) (K := 300) (N := 300) (V c main_v58) (V c main_v2))) (V c main_v59))

/-- What point `t` writes back is rows `2000 t … 2000 t + 1999` of the hidden stage. -/
theorem r3_flushed (c : Dev nD) (t : Fin cfg3.N) :
    (dat3 (F := Ideal) V c).flushed 5 t = ((cfg3.win 5).blk t).view.read (Elt Ideal) (r3_G V c) := by
  show (cfg3.win 5).cut (grid3.coords t) ((dat3 V c).after 5 t) = _
  rw [after3_5]
  unfold out3_5
  rw [View.canon_unit_zero r3_hz]
  simp only [View.ld_unit_zero (S := S2000x133) r3_hz, View.ld_unit_zero (S := S133x300) r3_hz,
    View.ld_unit_zero (S := S2000x300) r3_hz, View.ld_unit_zero (S := S300x300) r3_hz,
    View.ld_unit_zero (S := S1x300) r3_hz]
  obtain ⟨e00, e01, e10, e11, e20, e21, e30, e31, e40, e41, e50, e51⟩ := r3_idx t
  have ht : t.val < 50 := lt_of_lt_of_eq t.isLt N_3
  funext j
  obtain ⟨p, q, rfl⟩ : ∃ (p : Fin 2000) (q : Fin 300), j = ix2 p q := ⟨j 0, j 1, eq_ix2 j⟩
  have hr : t.val * 2000 + p.val < 100000 := by have := p.isLt; omega
  show k3_pay1 (iblk3 V c 0 t) (iblk3 V c 1 t) (iblk3 V c 2 t) (iblk3 V c 3 t) (iblk3 V c 4 t) (ix2 p q)
    = r3_G V c (((cfg3.win 5).blk t).view.emb (ix2 p q))
  have hrow : ((cfg3.win 5).blk t).view.emb (ix2 p q) = (ix2 (⟨t.val * 2000 + p.val, hr⟩ : Fin 100000) q : S100000x300.Idx) := by
    funext a; apply Fin.ext
    match a with
    | ⟨0, _⟩ => show win3_5.index t (0 : Fin 2) * 2000 + 1 * p.val = t.val * 2000 + p.val; omega
    | ⟨1, _⟩ => show win3_5.index t (1 : Fin 2) * 300 + 1 * q.val = q.val; omega
  rw [hrow]
  refine r3_point (V c main_arg0) (V c main_v1) (V c main_v58) (V c main_v2) (V c main_v59)
    (iblk3 V c 0 t) (iblk3 V c 1 t) (iblk3 V c 2 t) (iblk3 V c 3 t) (iblk3 V c 4 t) p q ⟨t.val * 2000 + p.val, hr⟩ ?_ ?_ ?_ ?_ ?_
  · intro k
    show V c main_arg0 (((cfg3.win 0).blk t).view.emb (ix2 p k)) = V c main_arg0 (ix2 (⟨t.val * 2000 + p.val, hr⟩ : Fin 100000) k)
    refine congrArg (V c main_arg0) (funext fun a => Fin.ext ?_)
    match a with
    | ⟨0, _⟩ => show win3_0.index t (0 : Fin 2) * 2000 + 1 * p.val = t.val * 2000 + p.val; omega
    | ⟨1, _⟩ => show win3_0.index t (1 : Fin 2) * 133 + 1 * k.val = k.val; omega
  · intro k
    show V c main_v1 (((cfg3.win 1).blk t).view.emb (ix2 k q)) = V c main_v1 (ix2 k q)
    refine congrArg (V c main_v1) (funext fun a => Fin.ext ?_)
    match a with
    | ⟨0, _⟩ => show win3_1.index t (0 : Fin 2) * 133 + 1 * k.val = k.val; omega
    | ⟨1, _⟩ => show win3_1.index t (1 : Fin 2) * 300 + 1 * q.val = q.val; omega
  · intro k
    show V c main_v58 (((cfg3.win 2).blk t).view.emb (ix2 p k)) = V c main_v58 (ix2 (⟨t.val * 2000 + p.val, hr⟩ : Fin 100000) k)
    refine congrArg (V c main_v58) (funext fun a => Fin.ext ?_)
    match a with
    | ⟨0, _⟩ => show win3_2.index t (0 : Fin 2) * 2000 + 1 * p.val = t.val * 2000 + p.val; omega
    | ⟨1, _⟩ => show win3_2.index t (1 : Fin 2) * 300 + 1 * k.val = k.val; omega
  · intro k
    show V c main_v2 (((cfg3.win 3).blk t).view.emb (ix2 k q)) = V c main_v2 (ix2 k q)
    refine congrArg (V c main_v2) (funext fun a => Fin.ext ?_)
    match a with
    | ⟨0, _⟩ => show win3_3.index t (0 : Fin 2) * 300 + 1 * k.val = k.val; omega
    | ⟨1, _⟩ => show win3_3.index t (1 : Fin 2) * 300 + 1 * q.val = q.val; omega
  · show V c main_v59 (((cfg3.win 4).blk t).view.emb (ix2 (0 : Fin 1) q)) = V c main_v59 (ix2 (0 : Fin 1) q)
    refine congrArg (V c main_v59) (funext fun a => Fin.ext ?_)
    match a with
    | ⟨0, _⟩ => show win3_4.index t (0 : Fin 2) * 1 + 1 * (0 : Fin 1).val = (0 : Fin 1).val; omega
    | ⟨1, _⟩ => show win3_4.index t (1 : Fin 2) * 300 + 1 * q.val = q.val; omega

/-! ## From the blocks to the array -/

/-- Membership in point `t`'s block, axis by axis: the coordinate on each axis lies between the block's first and last
    coordinate there. -/
theorem r3_mem_blk (t : Fin cfg3.N) (i : S100000x300.Idx) :
    i ∈ ((cfg3.win 5).blk t).view.set ↔ ∀ a : Fin 2, win3_5.index t a * S2000x300.size a ≤ (i a).val
      ∧ (i a).val < win3_5.index t a * S2000x300.size a + S2000x300.size a := by
  show i ∈ ((View.whole main_v60).slice (win3_5.rect t)).set ↔ _
  rw [View.set_slice_whole, Rect.mem_set_unit]
  exact Iff.rfl

/-- Every row `r` of the array lies in the block of point `r / 2000`: the 50 row tiles cover the 100000 rows. -/
theorem r3_cover (i : S100000x300.Idx) :
    ∃ t : Fin cfg3.N, (cfg3.win 5).flush t = true ∧ i ∈ ((cfg3.win 5).blk t).view.set := by
  have hi0 : (i 0).val < 100000 := (i 0).isLt
  have hi1 : (i 1).val < 300 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, -, -, -, -, -, -, e50, e51⟩ := r3_idx t
  refine ⟨t, flush3_5 t, ?_⟩
  rw [r3_mem_blk]
  intro a
  match a with
  | ⟨0, _⟩ =>
    show win3_5.index t (0 : Fin 2) * 2000 ≤ (i 0).val ∧ (i 0).val < win3_5.index t (0 : Fin 2) * 2000 + 2000
    omega
  | ⟨1, _⟩ =>
    show win3_5.index t (1 : Fin 2) * 300 ≤ (i 1).val ∧ (i 1).val < win3_5.index t (1 : Fin 2) * 300 + 300
    omega

/-- After the 50 points the stage's output array is the hidden stage of the arrays the region found — the
    positive part of `atoms · W₁ + messages · W₂` plus the bias row. -/
theorem region3_hidden (c : Dev nD) : (dat3 (F := Ideal) V c).arrAt 5 cfg3.N = pos (plusRow (plus (mm (M := 100000) (K := 133) (N := 300) (V c main_arg0) (V c main_v1)) (mm (M := 100000) (K := 300) (N := 300) (V c main_v58) (V c main_v2))) (V c main_v59)) :=
  (dat3 (F := Ideal) V c).arrAt_eq_of_cover 5 (r3_G V c) (fun t _ => r3_flushed V c t) r3_cover

end Cert.KernelValue

end
-- ==== Proof.Region4.lean ====
/-
  The value of one dense layer with a bias row, computed a tile of rows at a time.

  The result has 100000 rows and 133 columns. It is produced in 50 steps; step `t` produces rows `2000 t … 2000 t + 1999`
  (a block), from the same 2000 rows of the left factor (a 100000 × 300 matrix), the whole right factor (300 × 133) and the
  whole bias row (1 × 133): entry `(p, q)` of the block is `Σ_k x (2000 t + p, k) · w (k, q) + b (0, q)`. An entry `(r, q)`
  of the result therefore depends only on row `r` of the left factor, column `q` of the right factor and entry `q` of
  the bias row, and the block that holds it is the one numbered `r / 2000`. The 50 blocks are disjoint and fill the
  array, so the array ends as the matrix product plus the bias row, `plusRow (mm x w) b`, entry by entry over the
  extended reals (where rounding to a narrower float type is the identity and the product starts from zero).
-/
import proofs.«111378_j25486335935037_1_alg».proof.Proof.Gen.KernelIdeal.Frame
import proofs.«111378_j25486335935037_1_alg».proof.Proof.Stages
import proofs.«111378_j25486335935037_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelValue

open Cert.KernelIdeal Cert.KernelIdeal.Gen Cert.Stages
open Idealize.ShloMosaic Idealize.ShloMosaic.TcCoe Idealize.ShloMosaic.ValueIdx Idealize.ShloMosaic.BlockProduct
open Idealize.ShloMosaic.Pipeline

variable (V : (c : Dev nD) → (b : Ref sig .tc) → Buf (Elt Ideal) ((c : Thread nD τ).loc b))

/-! ## One block's arithmetic -/

/-- Entry `(p, q)` of what one step computes from a 2000 × 300 tile `x0`, the 300 × 133 factor `x1` and the bias row
    `x2`: the row of `x0` against the column of `x1`, plus the bias row's entry. -/
theorem r4_pay_apply (x0 : Vec Ideal S2000x300 .f32) (x1 : Vec Ideal S300x133 .f32) (x2 : Vec Ideal S1x133 .f32)
    (p : Fin 2000) (q : Fin 133) :
    k4_pay1 x0 x1 x2 (ix2 p q) = (∑ k : Fin 300, x0 (ix2 p k) * x1 (ix2 k q)) + x2 (ix2 (0 : Fin 1) q) := by
  unfold k4_pay1
  rw [shapeCast_self, shapeCast_self]
  show FloatOps.addf
      (FloatOps.matmul (DotDims.plain 2000 300 133) none (truncf .bf16 x0 bitsLt_bf16_f32) (truncf .bf16 x1 bitsLt_bf16_f32)
        (constant (F := Ideal) ⟨2, ![2000, 133]⟩ .f32 0x00000000#32) (ix2 p q))
      (broadcastTo ⟨2, ![2000, 133]⟩ x2 broadcasts_S1x133_S2000x133 (ix2 p q)) = _
  rw [PlainDot.matmul_zero_apply, broadcastTo_1b_ab_apply]
  rfl

/-! ## Where each step's blocks sit -/

theorem r4_hz : (![0, 0] : Fin 2 → Nat) = fun _ => 0 := funext fun a => by fin_cases a <;> rfl

/-- Step `t` reads row block `t` of the left factor and writes row block `t` of the result; the right factor and the
    bias row are one block each, the same at every step. -/
theorem r4_idx : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row `p` of block `t` is a row of the array. -/
theorem r4_rows (t : Fin cfg4.N) (p : Fin 2000) : t.val * 2000 + p.val < 100000 := by
  have hN : cfg4.N = 50 := N_4
  have := t.isLt
  have := p.isLt
  omega

/-- Row `p` of the left factor's tile at step `t` is row `2000 t + p` of the left factor. -/
theorem r4_blk0 (c : Dev nD) (t : Fin cfg4.N) (p : Fin 2000) (k : Fin 300) (r : Fin 100000)
    (hr : r.val = t.val * 2000 + p.val) :
    iblk4 V c 0 t (ix2 p k) = V c main_v60 (ix2 r k) := by
  obtain ⟨e0, e1, -⟩ := r4_idx t
  unfold iblk4
  show V c main_v60 (((cfg4.win 0).blk t).view.emb (ix2 p k)) = V c main_v60 (ix2 r k)
  congr 1
  funext a
  apply Fin.ext
  match a with
  | ⟨0, _⟩ => show win4_0.index t (0 : Fin 2) * 2000 + 1 * p.val = r.val; omega
  | ⟨1, _⟩ => show win4_0.index t (1 : Fin 2) * 300 + 1 * k.val = k.val; omega

/-- The right factor's block is the right factor. -/
theorem r4_blk1 (c : Dev nD) (t : Fin cfg4.N) (k : Fin 300) (q : Fin 133) :
    iblk4 V c 1 t (ix2 k q) = V c main_arg10 (ix2 k q) := by
  obtain ⟨-, -, e0, e1, -⟩ := r4_idx t
  unfold iblk4
  show V c main_arg10 (((cfg4.win 1).blk t).view.emb (ix2 k q)) = V c main_arg10 (ix2 k q)
  congr 1
  funext a
  apply Fin.ext
  match a with
  | ⟨0, _⟩ => show win4_1.index t (0 : Fin 2) * 300 + 1 * k.val = k.val; omega
  | ⟨1, _⟩ => show win4_1.index t (1 : Fin 2) * 133 + 1 * q.val = q.val; omega

/-- The bias row's block is the bias row. -/
theorem r4_blk2 (c : Dev nD) (t : Fin cfg4.N) (q : Fin 133) :
    iblk4 V c 2 t (ix2 (0 : Fin 1) q) = V c main_v64 (ix2 (0 : Fin 1) q) := by
  obtain ⟨-, -, -, -, e0, e1, -⟩ := r4_idx t
  unfold iblk4
  show V c main_v64 (((cfg4.win 2).blk t).view.emb (ix2 (0 : Fin 1) q)) = V c main_v64 (ix2 (0 : Fin 1) q)
  congr 1
  funext a
  apply Fin.ext
  match a with
  | ⟨0, _⟩ => show win4_2.index t (0 : Fin 2) * 1 + 1 * (0 : Fin 1).val = (0 : Fin 1).val; omega
  | ⟨1, _⟩ => show win4_2.index t (1 : Fin 2) * 133 + 1 * q.val = q.val; omega

/-- Entry `(p, q)` of the result's block at step `t` is entry `(2000 t + p, q)` of the result. -/
theorem r4_emb3 (t : Fin cfg4.N) (p : Fin 2000) (q : Fin 133) (r : Fin 100000)
    (hr : r.val = t.val * 2000 + p.val) :
    ((cfg4.win 3).blk t).view.emb (ix2 p q) = ix2 r q := by
  obtain ⟨-, -, -, -, -, -, e0, e1⟩ := r4_idx t
  funext a
  apply Fin.ext
  match a with
  | ⟨0, _⟩ => show win4_3.index t (0 : Fin 2) * 2000 + 1 * p.val = r.val; omega
  | ⟨1, _⟩ => show win4_3.index t (1 : Fin 2) * 133 + 1 * q.val = q.val; omega

/-! ## What each step writes, and the whole array -/

/-- Step `t` writes block `t` of the matrix product plus the bias row. -/
theorem r4_flushed (c : Dev nD) (t : Fin cfg4.N) :
    (dat4 (F := Ideal) V c).flushed 3 t
      = ((cfg4.win 3).blk t).view.read (Elt Ideal)
          (plusRow (mm (M := 100000) (K := 300) (N := 133) (V c main_v60) (V c main_arg10)) (V c main_v64)) := by
  show (cfg4.win 3).cut (grid4.coords t) ((dat4 V c).after 3 t) = _
  rw [after4_3]
  unfold out4_3
  rw [View.canon_unit_zero r4_hz]
  simp only [View.ld_unit_zero (S := S2000x300) r4_hz, View.ld_unit_zero (S := S300x133) r4_hz,
    View.ld_unit_zero (S := S1x133) r4_hz]
  funext j
  obtain ⟨p, q, rfl⟩ : ∃ (p : Fin 2000) (q : Fin 133), j = ix2 p q := ⟨j 0, j 1, eq_ix2 j⟩
  show k4_pay1 (iblk4 V c 0 t) (iblk4 V c 1 t) (iblk4 V c 2 t) (ix2 p q)
    = plusRow (mm (M := 100000) (K := 300) (N := 133) (V c main_v60) (V c main_arg10)) (V c main_v64)
        (((cfg4.win 3).blk t).view.emb (ix2 p q))
  rw [r4_pay_apply, r4_emb3 t p q ⟨t.val * 2000 + p.val, r4_rows t p⟩ rfl, plusRow_apply, mm_apply, r4_blk2]
  congr 1
  refine Finset.sum_congr rfl fun k _ => ?_
  rw [r4_blk0 V c t p k ⟨t.val * 2000 + p.val, r4_rows t p⟩ rfl, r4_blk1]

/-- An entry of the array is in block `t` iff each coordinate is in the block's range on its axis. -/
theorem r4_mem_blk (t : Fin cfg4.N) (i : S100000x133.Idx) :
    i ∈ ((cfg4.win 3).blk t).view.set ↔
      ∀ a : Fin 2, win4_3.index t a * S2000x133.size a ≤ (i a).val
        ∧ (i a).val < win4_3.index t a * S2000x133.size a + S2000x133.size a := by
  show i ∈ ((View.whole main_v65).slice (win4_3.rect t)).set ↔ _
  rw [View.set_slice_whole, Rect.mem_set_unit]
  exact Iff.rfl

/-- Every entry `(r, q)` of the array is in the block numbered `r / 2000`, which is written. -/
theorem r4_cover (i : S100000x133.Idx) :
    ∃ t : Fin cfg4.N, (cfg4.win 3).flush t = true ∧ i ∈ ((cfg4.win 3).blk t).view.set := by
  have hN : cfg4.N = 50 := N_4
  have hi0 : (i 0).val < 100000 := (i 0).isLt
  have hi1 : (i 1).val < 133 := (i 1).isLt
  obtain ⟨t, ht⟩ : ∃ t : Fin cfg4.N, t.val = (i 0).val / 2000 := ⟨⟨(i 0).val / 2000, by omega⟩, rfl⟩
  obtain ⟨-, -, -, -, -, -, e0, e1⟩ := r4_idx t
  refine ⟨t, flush4_3 t, ?_⟩
  rw [r4_mem_blk]
  intro a
  match a with
  | ⟨0, _⟩ =>
    show win4_3.index t (0 : Fin 2) * 2000 ≤ (i 0).val ∧ (i 0).val < win4_3.index t (0 : Fin 2) * 2000 + 2000
    omega
  | ⟨1, _⟩ =>
    show win4_3.index t (1 : Fin 2) * 133 ≤ (i 1).val ∧ (i 1).val < win4_3.index t (1 : Fin 2) * 133 + 133
    omega

/-- The array after the 50 steps: the matrix product of the left factor with the weights, plus the bias row. -/
theorem region4_node (c : Dev nD) :
    (dat4 (F := Ideal) V c).arrAt 3 cfg4.N
      = plusRow (mm (M := 100000) (K := 300) (N := 133) (V c main_v60) (V c main_arg10)) (V c main_v64) :=
  (dat4 (F := Ideal) V c).arrAt_eq_of_cover 3 _ (fun t _ => r4_flushed V c t) r4_cover

end Cert.KernelValue

end
-- ==== Proof.Region5.lean ====
/-
  The value of one dense layer with a bias row, computed a tile of rows at a time.

  The result has 100000 rows and 14 columns. It is produced in 50 steps; step `t` produces rows `2000 t … 2000 t + 1999`
  (a block), from the same 2000 rows of the left factor (a 100000 × 300 matrix), the whole right factor (300 × 14) and the
  whole bias row (1 × 14): entry `(p, q)` of the block is `Σ_k x (2000 t + p, k) · w (k, q) + b (0, q)`. An entry `(r, q)`
  of the result therefore depends only on row `r` of the left factor, column `q` of the right factor and entry `q` of
  the bias row, and the block that holds it is the one numbered `r / 2000`. The 50 blocks are disjoint and fill the
  array, so the array ends as the matrix product plus the bias row, `plusRow (mm x w) b`, entry by entry over the
  extended reals (where rounding to a narrower float type is the identity and the product starts from zero).
-/
import proofs.«111378_j25486335935037_1_alg».proof.Proof.Gen.KernelIdeal.Frame
import proofs.«111378_j25486335935037_1_alg».proof.Proof.Stages
import proofs.«111378_j25486335935037_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelValue

open Cert.KernelIdeal Cert.KernelIdeal.Gen Cert.Stages
open Idealize.ShloMosaic Idealize.ShloMosaic.TcCoe Idealize.ShloMosaic.ValueIdx Idealize.ShloMosaic.BlockProduct
open Idealize.ShloMosaic.Pipeline

variable (V : (c : Dev nD) → (b : Ref sig .tc) → Buf (Elt Ideal) ((c : Thread nD τ).loc b))

/-! ## One block's arithmetic -/

/-- Entry `(p, q)` of what one step computes from a 2000 × 300 tile `x0`, the 300 × 14 factor `x1` and the bias row
    `x2`: the row of `x0` against the column of `x1`, plus the bias row's entry. -/
theorem r5_pay_apply (x0 : Vec Ideal S2000x300 .f32) (x1 : Vec Ideal S300x14 .f32) (x2 : Vec Ideal S1x14 .f32)
    (p : Fin 2000) (q : Fin 14) :
    k5_pay1 x0 x1 x2 (ix2 p q) = (∑ k : Fin 300, x0 (ix2 p k) * x1 (ix2 k q)) + x2 (ix2 (0 : Fin 1) q) := by
  unfold k5_pay1
  rw [shapeCast_self, shapeCast_self]
  show FloatOps.addf
      (FloatOps.matmul (DotDims.plain 2000 300 14) none (truncf .bf16 x0 bitsLt_bf16_f32) (truncf .bf16 x1 bitsLt_bf16_f32)
        (constant (F := Ideal) ⟨2, ![2000, 14]⟩ .f32 0x00000000#32) (ix2 p q))
      (broadcastTo ⟨2, ![2000, 14]⟩ x2 broadcasts_S1x14_S2000x14 (ix2 p q)) = _
  rw [PlainDot.matmul_zero_apply, broadcastTo_1b_ab_apply]
  rfl

/-! ## Where each step's blocks sit -/

theorem r5_hz : (![0, 0] : Fin 2 → Nat) = fun _ => 0 := funext fun a => by fin_cases a <;> rfl

/-- Step `t` reads row block `t` of the left factor and writes row block `t` of the result; the right factor and the
    bias row are one block each, the same at every step. -/
theorem r5_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row `p` of block `t` is a row of the array. -/
theorem r5_rows (t : Fin cfg5.N) (p : Fin 2000) : t.val * 2000 + p.val < 100000 := by
  have hN : cfg5.N = 50 := N_5
  have := t.isLt
  have := p.isLt
  omega

/-- Row `p` of the left factor's tile at step `t` is row `2000 t + p` of the left factor. -/
theorem r5_blk0 (c : Dev nD) (t : Fin cfg5.N) (p : Fin 2000) (k : Fin 300) (r : Fin 100000)
    (hr : r.val = t.val * 2000 + p.val) :
    iblk5 V c 0 t (ix2 p k) = V c main_v108 (ix2 r k) := by
  obtain ⟨e0, e1, -⟩ := r5_idx t
  unfold iblk5
  show V c main_v108 (((cfg5.win 0).blk t).view.emb (ix2 p k)) = V c main_v108 (ix2 r k)
  congr 1
  funext a
  apply Fin.ext
  match a with
  | ⟨0, _⟩ => show win5_0.index t (0 : Fin 2) * 2000 + 1 * p.val = r.val; omega
  | ⟨1, _⟩ => show win5_0.index t (1 : Fin 2) * 300 + 1 * k.val = k.val; omega

/-- The right factor's block is the right factor. -/
theorem r5_blk1 (c : Dev nD) (t : Fin cfg5.N) (k : Fin 300) (q : Fin 14) :
    iblk5 V c 1 t (ix2 k q) = V c main_arg12 (ix2 k q) := by
  obtain ⟨-, -, e0, e1, -⟩ := r5_idx t
  unfold iblk5
  show V c main_arg12 (((cfg5.win 1).blk t).view.emb (ix2 k q)) = V c main_arg12 (ix2 k q)
  congr 1
  funext a
  apply Fin.ext
  match a with
  | ⟨0, _⟩ => show win5_1.index t (0 : Fin 2) * 300 + 1 * k.val = k.val; omega
  | ⟨1, _⟩ => show win5_1.index t (1 : Fin 2) * 14 + 1 * q.val = q.val; omega

/-- The bias row's block is the bias row. -/
theorem r5_blk2 (c : Dev nD) (t : Fin cfg5.N) (q : Fin 14) :
    iblk5 V c 2 t (ix2 (0 : Fin 1) q) = V c main_v109 (ix2 (0 : Fin 1) q) := by
  obtain ⟨-, -, -, -, e0, e1, -⟩ := r5_idx t
  unfold iblk5
  show V c main_v109 (((cfg5.win 2).blk t).view.emb (ix2 (0 : Fin 1) q)) = V c main_v109 (ix2 (0 : Fin 1) q)
  congr 1
  funext a
  apply Fin.ext
  match a with
  | ⟨0, _⟩ => show win5_2.index t (0 : Fin 2) * 1 + 1 * (0 : Fin 1).val = (0 : Fin 1).val; omega
  | ⟨1, _⟩ => show win5_2.index t (1 : Fin 2) * 14 + 1 * q.val = q.val; omega

/-- Entry `(p, q)` of the result's block at step `t` is entry `(2000 t + p, q)` of the result. -/
theorem r5_emb3 (t : Fin cfg5.N) (p : Fin 2000) (q : Fin 14) (r : Fin 100000)
    (hr : r.val = t.val * 2000 + p.val) :
    ((cfg5.win 3).blk t).view.emb (ix2 p q) = ix2 r q := by
  obtain ⟨-, -, -, -, -, -, e0, e1⟩ := r5_idx t
  funext a
  apply Fin.ext
  match a with
  | ⟨0, _⟩ => show win5_3.index t (0 : Fin 2) * 2000 + 1 * p.val = r.val; omega
  | ⟨1, _⟩ => show win5_3.index t (1 : Fin 2) * 14 + 1 * q.val = q.val; omega

/-! ## What each step writes, and the whole array -/

/-- Step `t` writes block `t` of the matrix product plus the bias row. -/
theorem r5_flushed (c : Dev nD) (t : Fin cfg5.N) :
    (dat5 (F := Ideal) V c).flushed 3 t
      = ((cfg5.win 3).blk t).view.read (Elt Ideal)
          (plusRow (mm (M := 100000) (K := 300) (N := 14) (V c main_v108) (V c main_arg12)) (V c main_v109)) := by
  show (cfg5.win 3).cut (grid5.coords t) ((dat5 V c).after 3 t) = _
  rw [after5_3]
  unfold out5_3
  rw [View.canon_unit_zero r5_hz]
  simp only [View.ld_unit_zero (S := S2000x300) r5_hz, View.ld_unit_zero (S := S300x14) r5_hz,
    View.ld_unit_zero (S := S1x14) r5_hz]
  funext j
  obtain ⟨p, q, rfl⟩ : ∃ (p : Fin 2000) (q : Fin 14), j = ix2 p q := ⟨j 0, j 1, eq_ix2 j⟩
  show k5_pay1 (iblk5 V c 0 t) (iblk5 V c 1 t) (iblk5 V c 2 t) (ix2 p q)
    = plusRow (mm (M := 100000) (K := 300) (N := 14) (V c main_v108) (V c main_arg12)) (V c main_v109)
        (((cfg5.win 3).blk t).view.emb (ix2 p q))
  rw [r5_pay_apply, r5_emb3 t p q ⟨t.val * 2000 + p.val, r5_rows t p⟩ rfl, plusRow_apply, mm_apply, r5_blk2]
  congr 1
  refine Finset.sum_congr rfl fun k _ => ?_
  rw [r5_blk0 V c t p k ⟨t.val * 2000 + p.val, r5_rows t p⟩ rfl, r5_blk1]

/-- An entry of the array is in block `t` iff each coordinate is in the block's range on its axis. -/
theorem r5_mem_blk (t : Fin cfg5.N) (i : S100000x14.Idx) :
    i ∈ ((cfg5.win 3).blk t).view.set ↔
      ∀ a : Fin 2, win5_3.index t a * S2000x14.size a ≤ (i a).val
        ∧ (i a).val < win5_3.index t a * S2000x14.size a + S2000x14.size a := by
  show i ∈ ((View.whole main_v110).slice (win5_3.rect t)).set ↔ _
  rw [View.set_slice_whole, Rect.mem_set_unit]
  exact Iff.rfl

/-- Every entry `(r, q)` of the array is in the block numbered `r / 2000`, which is written. -/
theorem r5_cover (i : S100000x14.Idx) :
    ∃ t : Fin cfg5.N, (cfg5.win 3).flush t = true ∧ i ∈ ((cfg5.win 3).blk t).view.set := by
  have hN : cfg5.N = 50 := N_5
  have hi0 : (i 0).val < 100000 := (i 0).isLt
  have hi1 : (i 1).val < 14 := (i 1).isLt
  obtain ⟨t, ht⟩ : ∃ t : Fin cfg5.N, t.val = (i 0).val / 2000 := ⟨⟨(i 0).val / 2000, by omega⟩, rfl⟩
  obtain ⟨-, -, -, -, -, -, e0, e1⟩ := r5_idx t
  refine ⟨t, flush5_3 t, ?_⟩
  rw [r5_mem_blk]
  intro a
  match a with
  | ⟨0, _⟩ =>
    show win5_3.index t (0 : Fin 2) * 2000 ≤ (i 0).val ∧ (i 0).val < win5_3.index t (0 : Fin 2) * 2000 + 2000
    omega
  | ⟨1, _⟩ =>
    show win5_3.index t (1 : Fin 2) * 14 ≤ (i 1).val ∧ (i 1).val < win5_3.index t (1 : Fin 2) * 14 + 14
    omega

/-- The array after the 50 steps: the matrix product of the left factor with the weights, plus the bias row. -/
theorem region5_edge (c : Dev nD) :
    (dat5 (F := Ideal) V c).arrAt 3 cfg5.N
      = plusRow (mm (M := 100000) (K := 300) (N := 14) (V c main_v108) (V c main_arg12)) (V c main_v109) :=
  (dat5 (F := Ideal) V c).arrAt_eq_of_cover 3 _ (fun t _ => r5_flushed V c t) r5_cover

end Cert.KernelValue

end
-- ==== Proof.Region6.lean ====
/-
  The value of the graph-head stage (the last tiled stage of the network).

  The stage has one tile: it holds the whole of the graph features `[2000, 300]`, the hidden weights `[300, 300]` with
  their bias row `[1, 300]`, the output column `[300, 1]` and the output bias `[1, 1]`, and writes the whole result
  `[2000, 1]`: the hidden activations `max (features · W + b) 0` multiplied by the output column, plus the output bias.

  Entry `(p, 0)` of the result depends on row `p` of the features only; the one tile covers every row, so the array the
  stage leaves is the graph head of the whole arrays, entry by entry. On the extended reals the changes of number
  format (also the one applied to the hidden activations between the two products) are the identity and the matrix
  unit's product into a zero accumulator is the plain sum `Σ_k x (p, k) · w (k, q)`.
-/
import proofs.«111378_j25486335935037_1_alg».proof.Proof.Gen.KernelIdeal.Frame
import proofs.«111378_j25486335935037_1_alg».proof.Proof.Stages
import proofs.«111378_j25486335935037_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelValue

open Cert.KernelIdeal Cert.KernelIdeal.Gen Cert.Stages Idealize.ShloMosaic Idealize.ShloMosaic.ValueIdx
open Idealize.ShloMosaic.BlockProduct Idealize.ShloMosaic.Pipeline Idealize.ShloMosaic.TcCoe Idealize.SL.Sem

variable (V : (c : Dev nD) → (b : Ref sig .tc) → Buf (Elt Ideal) ((c : Thread nD τ).loc b))

/-! ## The body's arithmetic at one entry -/

/-- The first product at `(p, k)`: row `p` of the graph features against column `k` of the hidden weights. -/
private theorem r6_dotA (a : FVec Ideal S2000x300 .bf16) (b : FVec Ideal S300x300 .bf16) (p : Fin 2000) (k : Fin 300) :
    matmul dot_S2000x300_S300x300_S2000x300_1_0_0_1_n_n none a b (constant (F := Ideal) S2000x300 .f32 0x00000000#32) (ix2 p k)
      = ∑ k' : Fin 300, a (ix2 p k') * b (ix2 k' k) :=
  PlainDot.matmul_zero_apply (M := 2000) (K := 300) (N := 300) none a b p k

/-- The second product at `(p, q)`: row `p` of the hidden activations against the one output column. -/
private theorem r6_dotB (a : FVec Ideal S2000x300 .bf16) (b : FVec Ideal S300x1 .bf16) (p : Fin 2000) (q : Fin 1) :
    matmul dot_S2000x300_S300x1_S2000x1_1_0_0_1_n_n none a b (constant (F := Ideal) S2000x1 .f32 0x00000000#32) (ix2 p q)
      = ∑ k : Fin 300, a (ix2 p k) * b (ix2 k q) :=
  PlainDot.matmul_zero_apply (M := 2000) (K := 300) (N := 1) none a b p q

/-- The zero word is the real `0`. -/
private theorem r6_zero : (Scalar.ofBits (F := Ideal) .f32 0x00000000#32 : Ideal .f32) = 0 := Ideal.ofBits_zero_f32

/-- Entry `(p, q)` of what the body stores: the hidden activations of row `p` — the positive part of the first product
    plus its bias row — against the output column, plus the output bias. -/
theorem r6_pay_apply (x0 : Vec Ideal S2000x300 .f32) (x1 : Vec Ideal S300x300 .f32) (x2 : Vec Ideal S1x300 .f32)
    (x3 : Vec Ideal S300x1 .f32) (x4 : Vec Ideal S1x1 .f32) (p : Fin 2000) (q : Fin 1) :
    k6_pay1 x0 x1 x2 x3 x4 (ix2 p q)
      = (∑ k : Fin 300, max ((∑ k' : Fin 300, x0 (ix2 p k') * x1 (ix2 k' k)) + x2 (ix2 (0 : Fin 1) k)) 0 * x3 (ix2 k q))
          + x4 (ix2 (0 : Fin 1) q) := by
  unfold k6_pay1
  rw [addf_apply, r6_dotB, broadcastTo_1b_ab_apply, shapeCast_self]
  simp only [truncf_apply, maximumf_apply, addf_apply, broadcast_apply, r6_dotA, broadcastTo_1b_ab_apply,
    shapeCast_self, r6_zero]

/-- The same entry when the five blocks are read off five whole arrays: it is entry `(p, q)` of the graph head of those
    arrays. Only row `p` of the features is read. -/
theorem r6_point (A0 : Mat 2000 300) (A1 : Mat 300 300) (A2 : Mat 1 300) (A3 : Mat 300 1) (A4 : Mat 1 1)
    (x0 : Vec Ideal S2000x300 .f32) (x1 : Vec Ideal S300x300 .f32) (x2 : Vec Ideal S1x300 .f32)
    (x3 : Vec Ideal S300x1 .f32) (x4 : Vec Ideal S1x1 .f32) (p : Fin 2000) (q : Fin 1)
    (h0 : ∀ k : Fin 300, x0 (ix2 p k) = A0 (ix2 p k)) (h1 : ∀ k' k : Fin 300, x1 (ix2 k' k) = A1 (ix2 k' k))
    (h2 : ∀ k : Fin 300, x2 (ix2 (0 : Fin 1) k) = A2 (ix2 (0 : Fin 1) k)) (h3 : ∀ k : Fin 300, x3 (ix2 k q) = A3 (ix2 k q))
    (h4 : x4 (ix2 (0 : Fin 1) q) = A4 (ix2 (0 : Fin 1) q)) :
    k6_pay1 x0 x1 x2 x3 x4 (ix2 p q) = plusRow (mm (pos (plusRow (mm A0 A1) A2)) A3) A4 (ix2 p q) := by
  rw [r6_pay_apply, plusRow_apply, mm_apply]
  simp only [pos_apply, plusRow_apply, mm_apply, h0, h1, h2, h3, h4]

/-! ## Where the windows' blocks sit -/

theorem r6_hz : (![0, 0] : Fin 2 → Nat) = fun _ => 0 := funext fun a => by fin_cases a <;> rfl

/-- The windows' index maps at the one point: every window sits at block `(0, 0)`, its whole array. -/
theorem r6_idx : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- The graph head of the arrays as the region finds them. -/
abbrev r6_G (c : Dev nD) : Mat 2000 1 :=
  plusRow (mm (M := 2000) (K := 300) (N := 1) (pos (plusRow (mm (M := 2000) (K := 300) (N := 300) (V c main_v63) (V c main_arg14))
    (V c main_v111))) (V c main_arg16)) (V c main_v112)

/-- What the one point writes back is the graph head, all 2000 rows. -/
theorem r6_flushed (c : Dev nD) (t : Fin cfg6.N) :
    (dat6 (F := Ideal) V c).flushed 5 t = ((cfg6.win 5).blk t).view.read (Elt Ideal) (r6_G V c) := by
  show (cfg6.win 5).cut (grid6.coords t) ((dat6 V c).after 5 t) = _
  rw [after6_5]
  unfold out6_5
  rw [View.canon_unit_zero r6_hz]
  simp only [View.ld_unit_zero (S := S2000x300) r6_hz, View.ld_unit_zero (S := S300x300) r6_hz,
    View.ld_unit_zero (S := S1x300) r6_hz, View.ld_unit_zero (S := S300x1) r6_hz, View.ld_unit_zero (S := S1x1) r6_hz]
  obtain ⟨e00, e01, e10, e11, e20, e21, e30, e31, e40, e41, e50, e51⟩ := r6_idx t
  funext j
  obtain ⟨p, q, rfl⟩ : ∃ (p : Fin 2000) (q : Fin 1), j = ix2 p q := ⟨j 0, j 1, eq_ix2 j⟩
  show k6_pay1 (iblk6 V c 0 t) (iblk6 V c 1 t) (iblk6 V c 2 t) (iblk6 V c 3 t) (iblk6 V c 4 t) (ix2 p q)
    = r6_G V c (((cfg6.win 5).blk t).view.emb (ix2 p q))
  have hrow : ((cfg6.win 5).blk t).view.emb (ix2 p q) = (ix2 p q : S2000x1.Idx) := by
    funext a; apply Fin.ext
    match a with
    | ⟨0, _⟩ => show win6_5.index t (0 : Fin 2) * 2000 + 1 * p.val = p.val; omega
    | ⟨1, _⟩ => show win6_5.index t (1 : Fin 2) * 1 + 1 * q.val = q.val; omega
  rw [hrow]
  refine r6_point (V c main_v63) (V c main_arg14) (V c main_v111) (V c main_arg16) (V c main_v112)
    (iblk6 V c 0 t) (iblk6 V c 1 t) (iblk6 V c 2 t) (iblk6 V c 3 t) (iblk6 V c 4 t) p q ?_ ?_ ?_ ?_ ?_
  · intro k
    show V c main_v63 (((cfg6.win 0).blk t).view.emb (ix2 p k)) = V c main_v63 (ix2 p k)
    refine congrArg (V c main_v63) (funext fun a => Fin.ext ?_)
    match a with
    | ⟨0, _⟩ => show win6_0.index t (0 : Fin 2) * 2000 + 1 * p.val = p.val; omega
    | ⟨1, _⟩ => show win6_0.index t (1 : Fin 2) * 300 + 1 * k.val = k.val; omega
  · intro k' k
    show V c main_arg14 (((cfg6.win 1).blk t).view.emb (ix2 k' k)) = V c main_arg14 (ix2 k' k)
    refine congrArg (V c main_arg14) (funext fun a => Fin.ext ?_)
    match a with
    | ⟨0, _⟩ => show win6_1.index t (0 : Fin 2) * 300 + 1 * k'.val = k'.val; omega
    | ⟨1, _⟩ => show win6_1.index t (1 : Fin 2) * 300 + 1 * k.val = k.val; omega
  · intro k
    show V c main_v111 (((cfg6.win 2).blk t).view.emb (ix2 (0 : Fin 1) k)) = V c main_v111 (ix2 (0 : Fin 1) k)
    refine congrArg (V c main_v111) (funext fun a => Fin.ext ?_)
    match a with
    | ⟨0, _⟩ => show win6_2.index t (0 : Fin 2) * 1 + 1 * (0 : Fin 1).val = (0 : Fin 1).val; omega
    | ⟨1, _⟩ => show win6_2.index t (1 : Fin 2) * 300 + 1 * k.val = k.val; omega
  · intro k
    show V c main_arg16 (((cfg6.win 3).blk t).view.emb (ix2 k q)) = V c main_arg16 (ix2 k q)
    refine congrArg (V c main_arg16) (funext fun a => Fin.ext ?_)
    match a with
    | ⟨0, _⟩ => show win6_3.index t (0 : Fin 2) * 300 + 1 * k.val = k.val; omega
    | ⟨1, _⟩ => show win6_3.index t (1 : Fin 2) * 1 + 1 * q.val = q.val; omega
  · show V c main_v112 (((cfg6.win 4).blk t).view.emb (ix2 (0 : Fin 1) q)) = V c main_v112 (ix2 (0 : Fin 1) q)
    refine congrArg (V c main_v112) (funext fun a => Fin.ext ?_)
    match a with
    | ⟨0, _⟩ => show win6_4.index t (0 : Fin 2) * 1 + 1 * (0 : Fin 1).val = (0 : Fin 1).val; omega
    | ⟨1, _⟩ => show win6_4.index t (1 : Fin 2) * 1 + 1 * q.val = q.val; omega

/-! ## From the block to the array -/

/-- Membership in point `t`'s block, axis by axis: the coordinate on each axis lies between the block's first and last
    coordinate there. -/
theorem r6_mem_blk (t : Fin cfg6.N) (i : S2000x1.Idx) :
    i ∈ ((cfg6.win 5).blk t).view.set ↔ ∀ a : Fin 2, win6_5.index t a * S2000x1.size a ≤ (i a).val
      ∧ (i a).val < win6_5.index t a * S2000x1.size a + S2000x1.size a := by
  show i ∈ ((View.whole main_v113).slice (win6_5.rect t)).set ↔ _
  rw [View.set_slice_whole, Rect.mem_set_unit]
  exact Iff.rfl

/-- The one point's block is the whole array, so it covers every index. -/
theorem r6_cover (i : S2000x1.Idx) :
    ∃ t : Fin cfg6.N, (cfg6.win 5).flush t = true ∧ i ∈ ((cfg6.win 5).blk t).view.set := by
  have hi0 : (i 0).val < 2000 := (i 0).isLt
  have hi1 : (i 1).val < 1 := (i 1).isLt
  obtain ⟨-, -, -, -, -, -, -, -, -, -, e50, e51⟩ := r6_idx t6_0
  refine ⟨t6_0, flush6_5 t6_0, ?_⟩
  rw [r6_mem_blk]
  intro a
  match a with
  | ⟨0, _⟩ =>
    show win6_5.index t6_0 (0 : Fin 2) * 2000 ≤ (i 0).val ∧ (i 0).val < win6_5.index t6_0 (0 : Fin 2) * 2000 + 2000
    omega
  | ⟨1, _⟩ =>
    show win6_5.index t6_0 (1 : Fin 2) * 1 ≤ (i 1).val ∧ (i 1).val < win6_5.index t6_0 (1 : Fin 2) * 1 + 1
    omega

/-- After its one point the stage's output array is the graph head of the arrays the region found — the
    hidden activations `max (features · W + b) 0` against the output column, plus the output bias. -/
theorem region6_graph (c : Dev nD) : (dat6 (F := Ideal) V c).arrAt 5 cfg6.N = plusRow (mm (M := 2000) (K := 300) (N := 1) (pos (plusRow (mm (M := 2000) (K := 300) (N := 300) (V c main_v63) (V c main_arg14)) (V c main_v111))) (V c main_arg16)) (V c main_v112) :=
  (dat6 (F := Ideal) V c).arrAt_eq_of_cover 5 (r6_G V c) (fun t _ => r6_flushed V c t) r6_cover

end Cert.KernelValue

end
-- ==== Proof.ChainValues.lean ====
/-
  The idealized kernel's three results as the network's read-outs. Walking @main's segments in order, each buffer a later
  segment reads is identified, at the boundary where it is read, with a stage of the network applied to the launch
  arguments: a dense stage's output array is its row-tiled product (the stage's value, joined to the host spelling by
  the stage laws), a host stretch's result is the same host operations the reference applies, applied to arrays
  already identified, and a buffer no segment writes keeps its contents. The only arithmetic law used is the one that
  joins `[f_atoms | a] · W_o` to `f_atoms · W_o[first 133 rows] + a · W_o[last 300 rows]`.
-/
import proofs.«111378_j25486335935037_1_alg».proof.Proof.Gen.KernelIdeal.Frame
import proofs.«111378_j25486335935037_1_alg».proof.Proof.ChainArgs
import proofs.«111378_j25486335935037_1_alg».proof.Proof.Net
import proofs.«111378_j25486335935037_1_alg».proof.Proof.Stages
import proofs.«111378_j25486335935037_1_alg».proof.Proof.StageLaws
import proofs.«111378_j25486335935037_1_alg».proof.Proof.Region0
import proofs.«111378_j25486335935037_1_alg».proof.Proof.Region1
import proofs.«111378_j25486335935037_1_alg».proof.Proof.Region2
import proofs.«111378_j25486335935037_1_alg».proof.Proof.Region3
import proofs.«111378_j25486335935037_1_alg».proof.Proof.Region4
import proofs.«111378_j25486335935037_1_alg».proof.Proof.Region5
import proofs.«111378_j25486335935037_1_alg».proof.Proof.Region6
import Idealize.ShloMosaic.PureOps.Ideal
import Idealize.ShloMosaic.Lib.StableHlo.Run

set_option maxRecDepth 16384

noncomputable section

namespace Cert.KernelChain

open Cert.KernelIdeal Cert.KernelIdeal.Gen Cert.Stages
open Idealize.ShloMosaic Idealize.ShloMosaic.TcCoe Idealize.SL.Sem Idealize.ShloMosaic.StableHlo Idealize.ShloMosaic.BlockProduct
open Idealize.ShloMosaic.Pipeline (Dat Cfg Window)

variable (m : (ℓ : Loc nD τ sig) → Buf (Elt Ideal) ℓ) (ρ : Dev nD → PrngReg) (c : Dev nD)

/-- After the first dense stage the bond-input array holds `f_bonds · W_i`. -/
theorem W1_v0_0 : W1 m ρ c (Proc.devRef .tc main_v0_0) = (Net.bondInput (F := Ideal) (m ((c : Thread nD τ).loc main_arg1)) (m ((c : Thread nD τ).loc main_arg6))) := by
  refine (W1_arr m ρ c 2).trans ((KernelValue.region0_input (V0 m ρ) c).trans ?_)
  show mm (M := 200000) (K := 147) (N := 300) (m ((c : Thread nD τ).loc main_arg1)) (m ((c : Thread nD τ).loc main_arg6)) = _
  rw [StageLaws.bondInput_eq]

/-- … and the first messages are its positive part. -/
theorem W1_v0_1 : W1 m ρ c (Proc.devRef .tc main_v0_1) = (Net.reluBonds (F := Ideal) (Net.bondInput (F := Ideal) (m ((c : Thread nD τ).loc main_arg1)) (m ((c : Thread nD τ).loc main_arg6)))) := by
  refine (W1_arr m ρ c 3).trans ((KernelValue.region0_message (V0 m ρ) c).trans ?_)
  show pos (mm (M := 200000) (K := 147) (N := 300) (m ((c : Thread nD τ).loc main_arg1)) (m ((c : Thread nD τ).loc main_arg6))) = _
  rw [StageLaws.reluBonds_eq, StageLaws.bondInput_eq]

/-- The first host stretch leaves the bond differences of the first messages … -/
theorem W2_v25 : W2 m ρ c (Proc.devRef .tc main_v25) = (Net.bondDiff (F := Ideal) (Net.reluBonds (F := Ideal) (Net.bondInput (F := Ideal) (m ((c : Thread nD τ).loc main_arg1)) (m ((c : Thread nD τ).loc main_arg6)))) (m ((c : Thread nD τ).loc main_arg2)) (m ((c : Thread nD τ).loc main_arg3)) (m ((c : Thread nD τ).loc main_arg4))) := by
  show StableHlo.after hostOps1 (W1 m ρ c) (Proc.devRef .tc main_v25) = _
  after_results_simp
  rw [W1_v0_1 m ρ c, W1_arg2 m ρ c, W1_arg3 m ρ c, W1_arg4 m ρ c]
  rfl

/-- … and the two row blocks of `W_o`: its first 133 rows, -/
theorem W2_v1 : W2 m ρ c (Proc.devRef .tc main_v1) = (extractStridedSlice S133x300 ![0, 0] (m ((c : Thread nD τ).loc main_arg8)) slices_S433x300_S133x300_0_0) := by
  show StableHlo.after hostOps1 (W1 m ρ c) (Proc.devRef .tc main_v1) = _
  after_results_simp
  rw [W1_arg8 m ρ c]
  try rfl

/-- and its last 300 rows. -/
theorem W2_v2 : W2 m ρ c (Proc.devRef .tc main_v2) = (extractStridedSlice S300x300 ![133, 0] (m ((c : Thread nD τ).loc main_arg8)) slices_S433x300_S300x300_133_0) := by
  show StableHlo.after hostOps1 (W1 m ρ c) (Proc.devRef .tc main_v2) = _
  after_results_simp
  rw [W1_arg8 m ρ c]
  try rfl

theorem W2_v0_0 : W2 m ρ c (Proc.devRef .tc main_v0_0) = (Net.bondInput (F := Ideal) (m ((c : Thread nD τ).loc main_arg1)) (m ((c : Thread nD τ).loc main_arg6))) :=
  (show W2 m ρ c (Proc.devRef .tc main_v0_0) = W1 m ρ c (Proc.devRef .tc main_v0_0) from
    StableHlo.after_of_forall_not_mem (b := Proc.devRef .tc main_v0_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W1_v0_0 m ρ c)

/-- The second dense stage leaves the messages after the first round. -/
theorem W3_v26 : W3 m ρ c (Proc.devRef .tc main_v26) = (Net.msg1 (F := Ideal) (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg4))) := by
  refine (W3_arr m ρ c 3).trans ((KernelValue.region1_message (V2 m ρ) c).trans ?_)
  show pos (plus (W2 m ρ c (Proc.devRef .tc main_v0_0)) (mm (M := 200000) (K := 300) (N := 300) (W2 m ρ c (Proc.devRef .tc main_v25)) (W2 m ρ c (Proc.devRef .tc main_arg7)))) = _
  rw [W2_v0_0 m ρ c, W2_v25 m ρ c, W2_arg7 m ρ c]
  unfold Net.msg1
  rw [StageLaws.bondUpdate_eq]

theorem W3_v0_0 : W3 m ρ c (Proc.devRef .tc main_v0_0) = (Net.bondInput (F := Ideal) (m ((c : Thread nD τ).loc main_arg1)) (m ((c : Thread nD τ).loc main_arg6))) :=
  (show W3 m ρ c (Proc.devRef .tc main_v0_0) = W2 m ρ c (Proc.devRef .tc main_v0_0) from
    (W3_arr m ρ c 2).trans (((dat1 (V2 m ρ) c).arrAt_in 2 rfl _).trans (A_eq1 (V2 m ρ) c 2))).trans (W2_v0_0 m ρ c)

theorem W4_v0_0 : W4 m ρ c (Proc.devRef .tc main_v0_0) = (Net.bondInput (F := Ideal) (m ((c : Thread nD τ).loc main_arg1)) (m ((c : Thread nD τ).loc main_arg6))) :=
  (show W4 m ρ c (Proc.devRef .tc main_v0_0) = W3 m ρ c (Proc.devRef .tc main_v0_0) from
    StableHlo.after_of_forall_not_mem (b := Proc.devRef .tc main_v0_0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_v0_0 m ρ c)

theorem W3_v1 : W3 m ρ c (Proc.devRef .tc main_v1) = (extractStridedSlice S133x300 ![0, 0] (m ((c : Thread nD τ).loc main_arg8)) slices_S433x300_S133x300_0_0) :=
  (show W3 m ρ c (Proc.devRef .tc main_v1) = W2 m ρ c (Proc.devRef .tc main_v1) from
    W3_of_ne m ρ c main_v1 (by decide)).trans (W2_v1 m ρ c)

theorem W4_v1 : W4 m ρ c (Proc.devRef .tc main_v1) = (extractStridedSlice S133x300 ![0, 0] (m ((c : Thread nD τ).loc main_arg8)) slices_S433x300_S133x300_0_0) :=
  (show W4 m ρ c (Proc.devRef .tc main_v1) = W3 m ρ c (Proc.devRef .tc main_v1) from
    StableHlo.after_of_forall_not_mem (b := Proc.devRef .tc main_v1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_v1 m ρ c)

theorem W5_v1 : W5 m ρ c (Proc.devRef .tc main_v1) = (extractStridedSlice S133x300 ![0, 0] (m ((c : Thread nD τ).loc main_arg8)) slices_S433x300_S133x300_0_0) :=
  (show W5 m ρ c (Proc.devRef .tc main_v1) = W4 m ρ c (Proc.devRef .tc main_v1) from
    W5_of_ne m ρ c main_v1 (by decide)).trans (W4_v1 m ρ c)

theorem W6_v1 : W6 m ρ c (Proc.devRef .tc main_v1) = (extractStridedSlice S133x300 ![0, 0] (m ((c : Thread nD τ).loc main_arg8)) slices_S433x300_S133x300_0_0) :=
  (show W6 m ρ c (Proc.devRef .tc main_v1) = W5 m ρ c (Proc.devRef .tc main_v1) from
    StableHlo.after_of_forall_not_mem (b := Proc.devRef .tc main_v1) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_v1 m ρ c)

theorem W3_v2 : W3 m ρ c (Proc.devRef .tc main_v2) = (extractStridedSlice S300x300 ![133, 0] (m ((c : Thread nD τ).loc main_arg8)) slices_S433x300_S300x300_133_0) :=
  (show W3 m ρ c (Proc.devRef .tc main_v2) = W2 m ρ c (Proc.devRef .tc main_v2) from
    W3_of_ne m ρ c main_v2 (by decide)).trans (W2_v2 m ρ c)

theorem W4_v2 : W4 m ρ c (Proc.devRef .tc main_v2) = (extractStridedSlice S300x300 ![133, 0] (m ((c : Thread nD τ).loc main_arg8)) slices_S433x300_S300x300_133_0) :=
  (show W4 m ρ c (Proc.devRef .tc main_v2) = W3 m ρ c (Proc.devRef .tc main_v2) from
    StableHlo.after_of_forall_not_mem (b := Proc.devRef .tc main_v2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W3_v2 m ρ c)

theorem W5_v2 : W5 m ρ c (Proc.devRef .tc main_v2) = (extractStridedSlice S300x300 ![133, 0] (m ((c : Thread nD τ).loc main_arg8)) slices_S433x300_S300x300_133_0) :=
  (show W5 m ρ c (Proc.devRef .tc main_v2) = W4 m ρ c (Proc.devRef .tc main_v2) from
    W5_of_ne m ρ c main_v2 (by decide)).trans (W4_v2 m ρ c)

theorem W6_v2 : W6 m ρ c (Proc.devRef .tc main_v2) = (extractStridedSlice S300x300 ![133, 0] (m ((c : Thread nD τ).loc main_arg8)) slices_S433x300_S300x300_133_0) :=
  (show W6 m ρ c (Proc.devRef .tc main_v2) = W5 m ρ c (Proc.devRef .tc main_v2) from
    StableHlo.after_of_forall_not_mem (b := Proc.devRef .tc main_v2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W5_v2 m ρ c)

/-- The second host stretch leaves the bond differences of those messages. -/
theorem W4_v49 : W4 m ρ c (Proc.devRef .tc main_v49) = (Net.bondDiff (F := Ideal) (Net.msg1 (F := Ideal) (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg4))) (m ((c : Thread nD τ).loc main_arg2)) (m ((c : Thread nD τ).loc main_arg3)) (m ((c : Thread nD τ).loc main_arg4))) := by
  show StableHlo.after hostOps2 (W3 m ρ c) (Proc.devRef .tc main_v49) = _
  after_results_simp
  rw [W3_v26 m ρ c, W3_arg2 m ρ c, W3_arg3 m ρ c, W3_arg4 m ρ c]
  rfl

/-- The third dense stage leaves the messages after the second round. -/
theorem W5_v50 : W5 m ρ c (Proc.devRef .tc main_v50) = (Net.msg2 (F := Ideal) (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg4))) := by
  refine (W5_arr m ρ c 3).trans ((KernelValue.region2_message (V4 m ρ) c).trans ?_)
  show pos (plus (W4 m ρ c (Proc.devRef .tc main_v0_0)) (mm (M := 200000) (K := 300) (N := 300) (W4 m ρ c (Proc.devRef .tc main_v49)) (W4 m ρ c (Proc.devRef .tc main_arg7)))) = _
  rw [W4_v0_0 m ρ c, W4_v49 m ρ c, W4_arg7 m ρ c]
  unfold Net.msg2
  rw [StageLaws.bondUpdate_eq]

/-- The third host stretch leaves each atom's sum of entering messages … -/
theorem W6_v58 : W6 m ρ c (Proc.devRef .tc main_v58) = (Net.nbrSum (F := Ideal) (Net.msg2 (F := Ideal) (m ((c : Thread nD τ).loc main_arg1)) (m ((c : Thread nD τ).loc main_arg6)) (m ((c : Thread nD τ).loc main_arg7)) (m ((c : Thread nD τ).loc main_arg2)) (m ((c : Thread nD τ).loc main_arg3)) (m ((c : Thread nD τ).loc main_arg4))) (m ((c : Thread nD τ).loc main_arg2))) := by
  show StableHlo.after hostOps3 (W5 m ρ c) (Proc.devRef .tc main_v58) = _
  after_results
  rw [W5_v50 m ρ c, W5_arg2 m ρ c]
  rfl

/-- … and `b_o` as a row. -/
theorem W6_v59 : W6 m ρ c (Proc.devRef .tc main_v59) = (shapeCast S1x300 (m ((c : Thread nD τ).loc main_arg9)) shapeCasts_S300_S1x300) := by
  show StableHlo.after hostOps3 (W5 m ρ c) (Proc.devRef .tc main_v59) = _
  after_results
  rw [W5_arg9 m ρ c]
  rfl

/-- The fourth dense stage leaves the atoms' hidden states: the split product is the product against the concatenation. -/
theorem W7_v60 : W7 m ρ c (Proc.devRef .tc main_v60) = (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) := by
  refine (W7_arr m ρ c 5).trans ((KernelValue.region3_hidden (V6 m ρ) c).trans ?_)
  show pos (plusRow (plus (mm (M := 100000) (K := 133) (N := 300) (W6 m ρ c (Proc.devRef .tc main_arg0)) (W6 m ρ c (Proc.devRef .tc main_v1))) (mm (M := 100000) (K := 300) (N := 300) (W6 m ρ c (Proc.devRef .tc main_v58)) (W6 m ρ c (Proc.devRef .tc main_v2)))) (W6 m ρ c (Proc.devRef .tc main_v59))) = _
  rw [W6_arg0 m ρ c, W6_v1 m ρ c, W6_v58 m ρ c, W6_v2 m ρ c, W6_v59 m ρ c]
  unfold Net.hidden
  rw [StageLaws.atomHidden_eq]

/-- The fourth host stretch leaves the molecule sums … -/
theorem W8_v63 : W8 m ρ c (Proc.devRef .tc main_v63) = (Net.poolMols (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5))) := by
  show StableHlo.after hostOps4 (W7 m ρ c) (Proc.devRef .tc main_v63) = _
  after_results
  rw [W7_v60 m ρ c, W7_arg5 m ρ c]
  rfl

/-- … and `b_node` as a row. -/
theorem W8_v64 : W8 m ρ c (Proc.devRef .tc main_v64) = (shapeCast S1x133 (m ((c : Thread nD τ).loc main_arg11)) shapeCasts_S133_S1x133) := by
  show StableHlo.after hostOps4 (W7 m ρ c) (Proc.devRef .tc main_v64) = _
  after_results
  rw [W7_arg11 m ρ c]
  rfl

theorem W8_v60 : W8 m ρ c (Proc.devRef .tc main_v60) = (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) :=
  (show W8 m ρ c (Proc.devRef .tc main_v60) = W7 m ρ c (Proc.devRef .tc main_v60) from
    StableHlo.after_of_forall_not_mem (b := Proc.devRef .tc main_v60) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W7_v60 m ρ c)

/-- The fifth dense stage leaves the first result, the per-atom read-out. -/
theorem W9_v65 : W9 m ρ c (Proc.devRef .tc main_v65) = (Net.nodeHead (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) := by
  refine (W9_arr m ρ c 3).trans ((KernelValue.region4_node (V8 m ρ) c).trans ?_)
  show plusRow (mm (M := 100000) (K := 300) (N := 133) (W8 m ρ c (Proc.devRef .tc main_v60)) (W8 m ρ c (Proc.devRef .tc main_arg10))) (W8 m ρ c (Proc.devRef .tc main_v64)) = _
  rw [W8_v60 m ρ c, W8_arg10 m ρ c, W8_v64 m ρ c]
  rw [StageLaws.nodeHead_eq]

theorem W9_v60 : W9 m ρ c (Proc.devRef .tc main_v60) = (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) :=
  (show W9 m ρ c (Proc.devRef .tc main_v60) = W8 m ρ c (Proc.devRef .tc main_v60) from
    (W9_arr m ρ c 0).trans (((dat4 (V8 m ρ) c).arrAt_in 0 rfl _).trans (A_eq4 (V8 m ρ) c 0))).trans (W8_v60 m ρ c)

theorem W9_v63 : W9 m ρ c (Proc.devRef .tc main_v63) = (Net.poolMols (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5))) :=
  (show W9 m ρ c (Proc.devRef .tc main_v63) = W8 m ρ c (Proc.devRef .tc main_v63) from
    W9_of_ne m ρ c main_v63 (by decide)).trans (W8_v63 m ρ c)

theorem W10_v63 : W10 m ρ c (Proc.devRef .tc main_v63) = (Net.poolMols (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5))) :=
  (show W10 m ρ c (Proc.devRef .tc main_v63) = W9 m ρ c (Proc.devRef .tc main_v63) from
    StableHlo.after_of_forall_not_mem (b := Proc.devRef .tc main_v63) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W9_v63 m ρ c)

theorem W11_v63 : W11 m ρ c (Proc.devRef .tc main_v63) = (Net.poolMols (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5))) :=
  (show W11 m ρ c (Proc.devRef .tc main_v63) = W10 m ρ c (Proc.devRef .tc main_v63) from
    W11_of_ne m ρ c main_v63 (by decide)).trans (W10_v63 m ρ c)

theorem W12_v63 : W12 m ρ c (Proc.devRef .tc main_v63) = (Net.poolMols (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5))) :=
  (show W12 m ρ c (Proc.devRef .tc main_v63) = W11 m ρ c (Proc.devRef .tc main_v63) from
    StableHlo.after_of_forall_not_mem (b := Proc.devRef .tc main_v63) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W11_v63 m ρ c)

/-- The fifth host stretch leaves the pair averages of the hidden states … -/
theorem W10_v108 : W10 m ρ c (Proc.devRef .tc main_v108) = (Net.pairAvg (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg3)) (m ((c : Thread nD τ).loc main_arg4))) := by
  show StableHlo.after hostOps5 (W9 m ρ c) (Proc.devRef .tc main_v108) = _
  after_results_simp
  rw [W9_v60 m ρ c, W9_arg3 m ρ c, W9_arg4 m ρ c]
  rfl

/-- … and `b_edge` as a row. -/
theorem W10_v109 : W10 m ρ c (Proc.devRef .tc main_v109) = (shapeCast S1x14 (m ((c : Thread nD τ).loc main_arg13)) shapeCasts_S14_S1x14) := by
  show StableHlo.after hostOps5 (W9 m ρ c) (Proc.devRef .tc main_v109) = _
  after_results_simp
  rw [W9_arg13 m ρ c]
  rfl

theorem W10_v65 : W10 m ρ c (Proc.devRef .tc main_v65) = (Net.nodeHead (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) :=
  (show W10 m ρ c (Proc.devRef .tc main_v65) = W9 m ρ c (Proc.devRef .tc main_v65) from
    StableHlo.after_of_forall_not_mem (b := Proc.devRef .tc main_v65) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W9_v65 m ρ c)

theorem W11_v65 : W11 m ρ c (Proc.devRef .tc main_v65) = (Net.nodeHead (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) :=
  (show W11 m ρ c (Proc.devRef .tc main_v65) = W10 m ρ c (Proc.devRef .tc main_v65) from
    W11_of_ne m ρ c main_v65 (by decide)).trans (W10_v65 m ρ c)

theorem W12_v65 : W12 m ρ c (Proc.devRef .tc main_v65) = (Net.nodeHead (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) :=
  (show W12 m ρ c (Proc.devRef .tc main_v65) = W11 m ρ c (Proc.devRef .tc main_v65) from
    StableHlo.after_of_forall_not_mem (b := Proc.devRef .tc main_v65) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W11_v65 m ρ c)

theorem W13_v65 : W13 m ρ c (Proc.devRef .tc main_v65) = (Net.nodeHead (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11))) :=
  (show W13 m ρ c (Proc.devRef .tc main_v65) = W12 m ρ c (Proc.devRef .tc main_v65) from
    W13_of_ne m ρ c main_v65 (by decide)).trans (W12_v65 m ρ c)

/-- The sixth dense stage leaves the second result, the per-bond read-out. -/
theorem W11_v110 : W11 m ρ c (Proc.devRef .tc main_v110) = (Net.edgeHead (F := Ideal) (Net.pairAvg (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg3)) (m ((c : Thread nD τ).loc main_arg4))) (m ((c : Thread nD τ).loc main_arg12)) (m ((c : Thread nD τ).loc main_arg13))) := by
  refine (W11_arr m ρ c 3).trans ((KernelValue.region5_edge (V10 m ρ) c).trans ?_)
  show plusRow (mm (M := 100000) (K := 300) (N := 14) (W10 m ρ c (Proc.devRef .tc main_v108)) (W10 m ρ c (Proc.devRef .tc main_arg12))) (W10 m ρ c (Proc.devRef .tc main_v109)) = _
  rw [W10_v108 m ρ c, W10_arg12 m ρ c, W10_v109 m ρ c]
  rw [StageLaws.edgeHead_eq]

theorem W12_v110 : W12 m ρ c (Proc.devRef .tc main_v110) = (Net.edgeHead (F := Ideal) (Net.pairAvg (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg3)) (m ((c : Thread nD τ).loc main_arg4))) (m ((c : Thread nD τ).loc main_arg12)) (m ((c : Thread nD τ).loc main_arg13))) :=
  (show W12 m ρ c (Proc.devRef .tc main_v110) = W11 m ρ c (Proc.devRef .tc main_v110) from
    StableHlo.after_of_forall_not_mem (b := Proc.devRef .tc main_v110) _ _ (List.forall_iff_forall_mem.mp (by
      simp only [hostOps6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W11_v110 m ρ c)

theorem W13_v110 : W13 m ρ c (Proc.devRef .tc main_v110) = (Net.edgeHead (F := Ideal) (Net.pairAvg (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg3)) (m ((c : Thread nD τ).loc main_arg4))) (m ((c : Thread nD τ).loc main_arg12)) (m ((c : Thread nD τ).loc main_arg13))) :=
  (show W13 m ρ c (Proc.devRef .tc main_v110) = W12 m ρ c (Proc.devRef .tc main_v110) from
    W13_of_ne m ρ c main_v110 (by decide)).trans (W12_v110 m ρ c)

/-- The last host stretch leaves `b_g1` and `b_g2` as rows. -/
theorem W12_v111 : W12 m ρ c (Proc.devRef .tc main_v111) = (shapeCast S1x300 (m ((c : Thread nD τ).loc main_arg15)) shapeCasts_S300_S1x300) := by
  show StableHlo.after hostOps6 (W11 m ρ c) (Proc.devRef .tc main_v111) = _
  after_results
  rw [W11_arg15 m ρ c]
  rfl

theorem W12_v112 : W12 m ρ c (Proc.devRef .tc main_v112) = (shapeCast S1x1 (m ((c : Thread nD τ).loc main_arg17)) shapeCasts_S1_S1x1) := by
  show StableHlo.after hostOps6 (W11 m ρ c) (Proc.devRef .tc main_v112) = _
  after_results
  rw [W11_arg17 m ρ c]
  rfl

/-- The seventh dense stage leaves the third result, the per-molecule read-out. -/
theorem W13_v113 : W13 m ρ c (Proc.devRef .tc main_v113) = (Net.graphHead (F := Ideal) (Net.poolMols (F := Ideal) (Net.hidden (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (m ((c : Thread nD τ).loc main_arg5))) (m ((c : Thread nD τ).loc main_arg14)) (m ((c : Thread nD τ).loc main_arg15)) (m ((c : Thread nD τ).loc main_arg16)) (m ((c : Thread nD τ).loc main_arg17))) := by
  refine (W13_arr m ρ c 5).trans ((KernelValue.region6_graph (V12 m ρ) c).trans ?_)
  show plusRow (mm (M := 2000) (K := 300) (N := 1) (pos (plusRow (mm (M := 2000) (K := 300) (N := 300) (W12 m ρ c (Proc.devRef .tc main_v63)) (W12 m ρ c (Proc.devRef .tc main_arg14))) (W12 m ρ c (Proc.devRef .tc main_v111)))) (W12 m ρ c (Proc.devRef .tc main_arg16))) (W12 m ρ c (Proc.devRef .tc main_v112)) = _
  rw [W12_v63 m ρ c, W12_arg14 m ρ c, W12_v111 m ρ c, W12_arg16 m ρ c, W12_v112 m ρ c]
  rw [StageLaws.graphHead_eq]

end Cert.KernelChain

end
-- ==== Proof.RefValue.lean ====
/-
  The reference's three results are the network's three read-outs. Its run ends with each result buffer at the
  composed term of its own host operations; that term is, stage for stage, the composition written in the network
  module: the bond input, two rounds of messages, the atoms' hidden states, and then `hidden · W_node + b_node` per
  atom, the pair average times `W_edge` plus `b_edge` per undirected bond, and the molecule sums through the
  two-layer head per molecule. Nothing is computed here: the two spellings unfold to the same term.
-/
import proofs.«111378_j25486335935037_1_alg».proof.Proof.Gen.ReferenceIdeal.Run
import proofs.«111378_j25486335935037_1_alg».proof.Proof.Net

set_option maxRecDepth 16384

noncomputable section

namespace Cert.RefValue

open Cert.ReferenceIdeal Cert.ReferenceIdeal.Gen Cert.ReferenceIdeal.Value Idealize.ShloMosaic Idealize.ShloMosaic.TcCoe Idealize.SL.Sem

variable {F : FTy → Type} [FloatOps F]

variable (m : (ℓ : Loc nD τ sig) → Buf (Elt F) ℓ) (c : Dev nD)

/-- The first result: per atom, `hidden · W_node + b_node`. -/
theorem out0_eq : res_out0 (F := F) m c = Net.nodeHead (Net.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10)) (m ((c.tc : Thread nD τ).loc main_arg11)) := by
  show res_main_v74 m c = _
  unfold res_main_v74
  rfl

/-- The second result: per undirected bond, the pair average of the hidden states times `W_edge`, plus `b_edge`. -/
theorem out1_eq : res_out1 (F := F) m c = Net.edgeHead (Net.pairAvg (Net.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg3)) (m ((c.tc : Thread nD τ).loc main_arg4))) (m ((c.tc : Thread nD τ).loc main_arg12)) (m ((c.tc : Thread nD τ).loc main_arg13)) := by
  show res_main_v121 m c = _
  unfold res_main_v121
  rfl

/-- The third result: per molecule, the two-layer head of the sum of its atoms' hidden states. -/
theorem out2_eq : res_out2 (F := F) m c = Net.graphHead (Net.poolMols (Net.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg5))) (m ((c.tc : Thread nD τ).loc main_arg14)) (m ((c.tc : Thread nD τ).loc main_arg15)) (m ((c.tc : Thread nD τ).loc main_arg16)) (m ((c.tc : Thread nD τ).loc main_arg17)) := by
  show res_main_v130 m c = _
  unfold res_main_v130
  rfl

end Cert.RefValue

end
-- ==== Proof.lean ====
/-
  Two programs for one message-passing network over molecule graphs, equal result for result on the extended reals.
  The kernel's program runs the network's seven dense stages as row-tiled kernels (a row tile of the operand times a
  whole weight matrix, plus a bias row and/or the positive part) among the host's index look-ups; the reference runs
  every stage on the host. At the ideal instance a change of float format is the identity and both a kernel matrix
  product into a zero accumulator and a host contraction are the plain sum over the contracted axis, so each dense
  stage computes the same array either way (the regions' values and the stage laws); the look-up stretches are the same
  operations applied to equal arrays; and `[f_atoms | a] · W_o = f_atoms · W_o[first 133 rows] + a · W_o[last 300 rows]`
  joins the one stage the two programs arrange differently. No input needs to be finite for this: only associativity
  and commutativity of the sum are used, and the precondition is never opened.
  The frames are the generated frame certificates (for the reference, its generated run with the results dropped);
  the idealization rewrote nothing, so `preserves` is trivial.
-/
import proofs.«111378_j25486335935037_1_alg».proof.Defs
import proofs.«111378_j25486335935037_1_alg».proof.Proof.Gen.Kernel
import proofs.«111378_j25486335935037_1_alg».proof.Proof.Gen.Kernel.Skeleton
import proofs.«111378_j25486335935037_1_alg».proof.Proof.Gen.Kernel.Launch
import proofs.«111378_j25486335935037_1_alg».proof.Proof.Gen.Kernel.Points
import proofs.«111378_j25486335935037_1_alg».proof.Proof.Gen.Kernel.Frame
import proofs.«111378_j25486335935037_1_alg».proof.Proof.Gen.KernelIdeal
import proofs.«111378_j25486335935037_1_alg».proof.Proof.Gen.KernelIdeal.Skeleton
import proofs.«111378_j25486335935037_1_alg».proof.Proof.Gen.KernelIdeal.Launch
import proofs.«111378_j25486335935037_1_alg».proof.Proof.Gen.KernelIdeal.Points
import proofs.«111378_j25486335935037_1_alg».proof.Proof.Gen.KernelIdeal.Frame
import proofs.«111378_j25486335935037_1_alg».proof.Proof.Gen.ReferenceIdeal
import proofs.«111378_j25486335935037_1_alg».proof.Proof.Gen.Pre_finite_inputs
import proofs.«111378_j25486335935037_1_alg».proof.Proof.Gen.ReferenceIdeal.Run
import proofs.«111378_j25486335935037_1_alg».proof.Proof.KRun
import proofs.«111378_j25486335935037_1_alg».proof.Proof.ChainValues
import proofs.«111378_j25486335935037_1_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- Both runs end with the three read-outs of the network of the (agreeing) arguments: the kernel's results are named
    by its run and identified by the walk through its segments; the reference's composed terms are the same
    compositions of stages, at arguments that agree with the kernel's. -/
theorem algebraic : Cert.algebraic_KernelIdeal_ReferenceIdeal := by
  intro m ρ m' ρ' _ hagree
  refine ⟨_, _, _, Cert.KernelRun.run_results (F := Ideal) m ρ, ?_⟩
  refine (θ_run Cert.ReferenceIdeal.defs _ _).mono (fun r h c => ?_) (Cert.ReferenceIdeal.Value.run (F := Ideal) m' ρ')
  obtain ⟨e0, e1, e2, e3, e4, e5, e6, e7, e8, e9, e10, e11, e12, e13, e14, e15, e16, e17⟩ := hagree c
  refine ⟨(h c).1.trans ?_, (h c).2.1.trans ?_, (h c).2.2.1.trans ?_, (h c).2.2.2⟩
  · refine (Cert.RefValue.out0_eq m' c).trans ?_
    rw [e0, e1, e2, e3, e4, e6, e7, e8, e9, e10, e11]
    exact (Cert.KernelChain.W13_v65 m ρ c).symm
  · refine (Cert.RefValue.out1_eq m' c).trans ?_
    rw [e0, e1, e2, e3, e4, e6, e7, e8, e9, e12, e13]
    exact (Cert.KernelChain.W13_v110 m ρ c).symm
  · refine (Cert.RefValue.out2_eq m' c).trans ?_
    rw [e0, e1, e2, e3, e4, e6, e7, e8, e9, e5, e14, e15, e16, e17]
    exact (Cert.KernelChain.W13_v113 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
